-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024x3072 : Shape := ⟨2, ![1024, 3072]⟩
abbrev S8192x1024 : Shape := ⟨2, ![8192, 1024]⟩
abbrev S8192x3072 : Shape := ⟨2, ![8192, 3072]⟩
abbrev S1024x512 : Shape := ⟨2, ![1024, 512]⟩
abbrev S512x1024 : Shape := ⟨2, ![512, 1024]⟩
abbrev S4x2048x16x192 : Shape := ⟨4, ![4, 2048, 16, 192]⟩
abbrev S4x16x2048x192 : Shape := ⟨4, ![4, 16, 2048, 192]⟩
abbrev S4x16x2048x2048 : Shape := ⟨4, ![4, 16, 2048, 2048]⟩
abbrev S4x16x2048x64 : Shape := ⟨4, ![4, 16, 2048, 64]⟩
abbrev S1x1x512x192 : Shape := ⟨4, ![1, 1, 512, 192]⟩
abbrev S1x1x2048x192 : Shape := ⟨4, ![1, 1, 2048, 192]⟩
abbrev S1x1x512x2048 : Shape := ⟨4, ![1, 1, 512, 2048]⟩
abbrev S1x1x512x64 : Shape := ⟨4, ![1, 1, 512, 64]⟩
abbrev S512x192 : Shape := ⟨2, ![512, 192]⟩
abbrev S2048x192 : Shape := ⟨2, ![2048, 192]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S16x64x1024 : Shape := ⟨3, ![16, 64, 1024]⟩
abbrev S1x16x512x64 : Shape := ⟨4, ![1, 16, 512, 64]⟩
abbrev S1x512x1024 : Shape := ⟨3, ![1, 512, 1024]⟩
abbrev S1x64x1024 : Shape := ⟨3, ![1, 64, 1024]⟩
abbrev S64x1024 : Shape := ⟨2, ![64, 1024]⟩

abbrev nBuf : Space → Nat
  | .hbm => 16
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x1024, .bf16⟩
  | .hbm, ⟨4, _⟩ => ⟨S1024x3072, .f32⟩
  | .hbm, ⟨5, _⟩ => ⟨S1024x3072, .bf16⟩
  | .hbm, ⟨6, _⟩ => ⟨S8192x1024, .bf16⟩
  | .hbm, ⟨7, _⟩ => ⟨S8192x3072, .bf16⟩
  | .hbm, ⟨8, _⟩ => ⟨S4x2048x16x192, .bf16⟩
  | .hbm, ⟨9, _⟩ => ⟨S4x16x2048x192, .bf16⟩
  | .hbm, ⟨10, _⟩ => ⟨S4x16x2048x2048, .f32⟩
  | .hbm, ⟨11, _⟩ => ⟨S4x16x2048x64, .bf16⟩
  | .hbm, ⟨12, _⟩ => ⟨S1024x1024, .f32⟩
  | .hbm, ⟨13, _⟩ => ⟨S1024x1024, .bf16⟩
  | .hbm, ⟨14, _⟩ => ⟨S16x64x1024, .bf16⟩
  | .hbm, ⟨15, _⟩ => ⟨S4x2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1x1x512x192, .bf16⟩
  | .local _ .vmem, ⟨8, _⟩ => ⟨S1x1x512x192, .bf16⟩
  | .local _ .vmem, ⟨9, _⟩ => ⟨S1x1x2048x192, .bf16⟩
  | .local _ .vmem, ⟨10, _⟩ => ⟨S1x1x2048x192, .bf16⟩
  | .local _ .vmem, ⟨11, _⟩ => ⟨S1x1x512x2048, .f32⟩
  | .local _ .vmem, ⟨12, _⟩ => ⟨S1x1x512x2048, .f32⟩
  | .local _ .vmem, ⟨13, _⟩ => ⟨S1x1x512x64, .bf16⟩
  | .local _ .vmem, ⟨14, _⟩ => ⟨S1x1x512x64, .bf16⟩
  | .local _ .vmem, ⟨15, _⟩ => ⟨S1x16x512x64, .bf16⟩
  | .local _ .vmem, ⟨16, _⟩ => ⟨S1x16x512x64, .bf16⟩
  | .local _ .vmem, ⟨17, _⟩ => ⟨S16x64x1024, .bf16⟩
  | .local _ .vmem, ⟨18, _⟩ => ⟨S1x512x1024, .f32⟩
  | .local _ .vmem, ⟨19, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨3, ![8, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16x64x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  transposes_S3072x1024_S1024x3072_1_0 : S3072x1024.Transposes [1, 0] S1024x3072
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S1024x1024_S1024x1024_0_0 : (Rect.unit (s := S1024x1024) ![0, 0] S1024x1024.size inb_S1024x1024_S1024x1024_0_0).PackedRows (EltTy.packing .bf16)
  shapeCasts_S8192x3072_S4x2048x16x192 : S8192x3072.ShapeCasts S4x2048x16x192
  transposes_S4x2048x16x192_S4x16x2048x192_0_2_1_3 : S4x2048x16x192.Transposes [0, 2, 1, 3] S4x16x2048x192
  inb_S1x1x512x192_S1x1x512x192_0_0_0_0 : ∀ a, (![0, 0, 0, 0] : Fin 4 → Nat) a + S1x1x512x192.size a ≤ S1x1x512x192.size a
  h_S1x1x512x192 : 0 < S1x1x512x192.numel
  shapeCasts_S1x1x512x192_S512x192 : S1x1x512x192.ShapeCasts S512x192
  inb_S1x1x2048x192_S1x1x2048x192_0_0_0_0 : ∀ a, (![0, 0, 0, 0] : Fin 4 → Nat) a + S1x1x2048x192.size a ≤ S1x1x2048x192.size a
  h_S1x1x2048x192 : 0 < S1x1x2048x192.numel
  shapeCasts_S1x1x2048x192_S2048x192 : S1x1x2048x192.ShapeCasts S2048x192
  slices_S512x192_o0_0_S512x64 : S512x192.Slices ![0, 0] S512x64
  slices_S2048x192_o0_64_S2048x64 : S2048x192.Slices ![0, 64] S2048x64
  slices_S2048x192_o0_128_S2048x64 : S2048x192.Slices ![0, 128] S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S1024x1024_S1024x1024_1_0 : S1024x1024.Transposes [1, 0] S1024x1024
  shapeCasts_S1024x1024_S16x64x1024 : S1024x1024.ShapeCasts S16x64x1024
  inb_S1x16x512x64_S1x1x512x64_0_0_0_0 : ∀ a, (![0, 0, 0, 0] : Fin 4 → Nat) a + S1x1x512x64.size a ≤ S1x16x512x64.size a
  inb_S16x64x1024_S1x64x1024_0_0_0 : ∀ a, (![0, 0, 0] : Fin 3 → Nat) a + S1x64x1024.size a ≤ S16x64x1024.size a
  h_S1x64x1024 : 0 < S1x64x1024.numel
  shapeCasts_S1x64x1024_S64x1024 : S1x64x1024.ShapeCasts S64x1024
  inb_S1x16x512x64_S1x1x512x64_0_1_0_0 : ∀ a, (![0, 1, 0, 0] : Fin 4 → Nat) a + S1x1x512x64.size a ≤ S1x16x512x64.size a
  inb_S16x64x1024_S1x64x1024_1_0_0 : ∀ a, (![1, 0, 0] : Fin 3 → Nat) a + S1x64x1024.size a ≤ S16x64x1024.size a
  inb_S1x16x512x64_S1x1x512x64_0_2_0_0 : ∀ a, (![0, 2, 0, 0] : Fin 4 → Nat) a + S1x1x512x64.size a ≤ S1x16x512x64.size a
  inb_S16x64x1024_S1x64x1024_2_0_0 : ∀ a, (![2, 0, 0] : Fin 3 → Nat) a + S1x64x1024.size a ≤ S16x64x1024.size a
  inb_S1x16x512x64_S1x1x512x64_0_3_0_0 : ∀ a, (![0, 3, 0, 0] : Fin 4 → Nat) a + S1x1x512x64.size a ≤ S1x16x512x64.size a
  inb_S16x64x1024_S1x64x1024_3_0_0 : ∀ a, (![3, 0, 0] : Fin 3 → Nat) a + S1x64x1024.size a ≤ S16x64x1024.size a
  inb_S1x16x512x64_S1x1x512x64_0_4_0_0 : ∀ a, (![0, 4, 0, 0] : Fin 4 → Nat) a + S1x1x512x64.size a ≤ S1x16x512x64.size a
  inb_S16x64x1024_S1x64x1024_4_0_0 : ∀ a, (![4, 0, 0] : Fin 3 → Nat) a + S1x64x1024.size a ≤ S16x64x1024.size a
  inb_S1x16x512x64_S1x1x512x64_0_5_0_0 : ∀ a, (![0, 5, 0, 0] : Fin 4 → Nat) a + S1x1x512x64.size a ≤ S1x16x512x64.size a
  inb_S16x64x1024_S1x64x1024_5_0_0 : ∀ a, (![5, 0, 0] : Fin 3 → Nat) a + S1x64x1024.size a ≤ S16x64x1024.size a
  inb_S1x16x512x64_S1x1x512x64_0_6_0_0 : ∀ a, (![0, 6, 0, 0] : Fin 4 → Nat) a + S1x1x512x64.size a ≤ S1x16x512x64.size a
  inb_S16x64x1024_S1x64x1024_6_0_0 : ∀ a, (![6, 0, 0] : Fin 3 → Nat) a + S1x64x1024.size a ≤ S16x64x1024.size a
  inb_S1x16x512x64_S1x1x512x64_0_7_0_0 : ∀ a, (![0, 7, 0, 0] : Fin 4 → Nat) a + S1x1x512x64.size a ≤ S1x16x512x64.size a
  inb_S16x64x1024_S1x64x1024_7_0_0 : ∀ a, (![7, 0, 0] : Fin 3 → Nat) a + S1x64x1024.size a ≤ S16x64x1024.size a
  inb_S1x16x512x64_S1x1x512x64_0_8_0_0 : ∀ a, (![0, 8, 0, 0] : Fin 4 → Nat) a + S1x1x512x64.size a ≤ S1x16x512x64.size a
  inb_S16x64x1024_S1x64x1024_8_0_0 : ∀ a, (![8, 0, 0] : Fin 3 → Nat) a + S1x64x1024.size a ≤ S16x64x1024.size a
  inb_S1x16x512x64_S1x1x512x64_0_9_0_0 : ∀ a, (![0, 9, 0, 0] : Fin 4 → Nat) a + S1x1x512x64.size a ≤ S1x16x512x64.size a
  inb_S16x64x1024_S1x64x1024_9_0_0 : ∀ a, (![9, 0, 0] : Fin 3 → Nat) a + S1x64x1024.size a ≤ S16x64x1024.size a
  inb_S1x16x512x64_S1x1x512x64_0_10_0_0 : ∀ a, (![0, 10, 0, 0] : Fin 4 → Nat) a + S1x1x512x64.size a ≤ S1x16x512x64.size a
  inb_S16x64x1024_S1x64x1024_10_0_0 : ∀ a, (![10, 0, 0] : Fin 3 → Nat) a + S1x64x1024.size a ≤ S16x64x1024.size a
  inb_S1x16x512x64_S1x1x512x64_0_11_0_0 : ∀ a, (![0, 11, 0, 0] : Fin 4 → Nat) a + S1x1x512x64.size a ≤ S1x16x512x64.size a
  inb_S16x64x1024_S1x64x1024_11_0_0 : ∀ a, (![11, 0, 0] : Fin 3 → Nat) a + S1x64x1024.size a ≤ S16x64x1024.size a
  inb_S1x16x512x64_S1x1x512x64_0_12_0_0 : ∀ a, (![0, 12, 0, 0] : Fin 4 → Nat) a + S1x1x512x64.size a ≤ S1x16x512x64.size a
  inb_S16x64x1024_S1x64x1024_12_0_0 : ∀ a, (![12, 0, 0] : Fin 3 → Nat) a + S1x64x1024.size a ≤ S16x64x1024.size a
  inb_S1x16x512x64_S1x1x512x64_0_13_0_0 : ∀ a, (![0, 13, 0, 0] : Fin 4 → Nat) a + S1x1x512x64.size a ≤ S1x16x512x64.size a
  inb_S16x64x1024_S1x64x1024_13_0_0 : ∀ a, (![13, 0, 0] : Fin 3 → Nat) a + S1x64x1024.size a ≤ S16x64x1024.size a
  inb_S1x16x512x64_S1x1x512x64_0_14_0_0 : ∀ a, (![0, 14, 0, 0] : Fin 4 → Nat) a + S1x1x512x64.size a ≤ S1x16x512x64.size a
  inb_S16x64x1024_S1x64x1024_14_0_0 : ∀ a, (![14, 0, 0] : Fin 3 → Nat) a + S1x64x1024.size a ≤ S16x64x1024.size a
  inb_S1x16x512x64_S1x1x512x64_0_15_0_0 : ∀ a, (![0, 15, 0, 0] : Fin 4 → Nat) a + S1x1x512x64.size a ≤ S1x16x512x64.size a
  inb_S16x64x1024_S1x64x1024_15_0_0 : ∀ a, (![15, 0, 0] : Fin 3 → Nat) a + S1x64x1024.size a ≤ S16x64x1024.size a
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x512_S512x1024_S1024x1024_1_0_0_1_n_n_wf : DotDims.WF S1024x512 S512x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x1024.size a
  hwx0_0 : ∀ i : grid0.Coords, EltTy.bits .bf16 = 32 ∨ (Rect.block (s := S8192x1024) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x3072.size a
  hwx0_1 : ∀ i : grid0.Coords, EltTy.bits .bf16 = 32 ∨ (Rect.block (s := S1024x3072) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x3072.size a
  hwx0_2 : ∀ i : grid0.Coords, EltTy.bits .bf16 = 32 ∨ (Rect.block (s := S8192x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x192.size a ≤ S4x16x2048x192.size a
  hwx1_0 : ∀ i : grid1.Coords, EltTy.bits .bf16 = 32 ∨ (Rect.block (s := S4x16x2048x192) S1x1x512x192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x192.size a ≤ S4x16x2048x192.size a
  hwx1_1 : ∀ i : grid1.Coords, EltTy.bits .bf16 = 32 ∨ (Rect.block (s := S4x16x2048x192) S1x1x2048x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x2048.size a ≤ S4x16x2048x2048.size a
  hwx1_2 : ∀ i : grid1.Coords, EltTy.bits .f32 = 32 ∨ (Rect.block (s := S4x16x2048x2048) S1x1x512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S4x16x2048x64.size a
  hwx1_3 : ∀ i : grid1.Coords, EltTy.bits .bf16 = 32 ∨ (Rect.block (s := S4x16x2048x64) S1x1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S4x16x2048x64.size a
  hwx2_0 : ∀ i : grid2.Coords, EltTy.bits .bf16 = 32 ∨ (Rect.block (s := S4x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64x1024.size a ≤ S16x64x1024.size a
  hwx2_1 : ∀ i : grid2.Coords, EltTy.bits .bf16 = 32 ∨ (Rect.block (s := S16x64x1024) S16x64x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S4x2048x1024.size a
  hwx2_2 : ∀ i : grid2.Coords, EltTy.bits .f32 = 32 ∨ (Rect.block (s := S4x2048x1024) S1x512x1024.size (cc2_transform_2 i) (hinb2_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S1x1x512x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x2048x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S1x1x512x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7_1) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S16x64x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x16x192, .f32⟩
  | .hbm, ⟨5, _⟩ => ⟨S4x16x2048x192, .f32⟩
  | .hbm, ⟨6, _⟩ => ⟨S4x16x2048x64, .f32⟩
  | .hbm, ⟨7, _⟩ => ⟨S4x16x2048x64, .f32⟩
  | .hbm, ⟨8, _⟩ => ⟨S4x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | .hbm, ⟨31, _⟩ => ⟨S4x2048x16x64, .f32⟩
  | .hbm, ⟨32, _⟩ => ⟨S4x2048x1024, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KReg0.lean ====
import proofs.«181592_j54889682043438_2_alg».proof.Proof.Gen.Kernel.Launch
import proofs.«181592_j54889682043438_2_alg».proof.Proof.Gen.Kernel.Skeleton
import proofs.«181592_j54889682043438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## Whole-buffer loads and stores -/

section Whole
variable {Val : EltTy → Type} {S : Shape} {e : EltTy} {sg : RefSig} {κ : Kind} {sp : Space}

/-- A store through the whole-shape rectangle, last, leaves its payload. -/
theorem read_writes_whole [∀ e, Nonempty (Val e)] (v : View sg κ sp S e) (f : v.ty.Contents Val) (off : Fin S.rank → Nat)
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨(⟨Rect.unit off S.size inb, w⟩ : View.Piece Val S e), List.mem_cons_self,
    View.mem_set_unit_zero h inb y⟩)).trans (View.canon_cons_unit_zero h inb w L)

/-- A load through it reads the contents. -/
theorem readAt_whole (v : View sg κ sp S e) (f : v.ty.Contents Val) (off : Fin S.rank → Nat)
    (h : off = fun _ => 0) (inb : ∀ a, off a + S.size a ≤ S.size a) :
    v.readAt Val (Rect.unit off S.size inb).toLoadRect f = v.read Val f :=
  (View.readAt_eq_ld v f (Rect.unit off S.size inb)).trans (View.ld_unit_zero h inb _)

end Whole

-- the TensorCore's buffer contents when the region is entered: a PARAMETER
variable (V : (c : Dev nD) → (b : Ref sig .tc) → Buf (Elt F) ((c : Thread nD τ).loc b))

/-! ## Region 0: the K-blocked matrix product, at the entry contents `V`

The grid is [8, 3, 2], the last axis innermost: the point `t` has innermost coordinate `t % 2`. At an even point the
accumulator (a scratch buffer) is zeroed and the product of the two input blocks is added to it; at the odd point that
follows, the product of that point's blocks is added and the accumulator's rounding is stored into the output window,
which the pipeline writes back there. -/

/-- The first conditional's test, from the grid coordinates: the innermost coordinate is 0. -/
abbrev cond0_1 (i : grid0.Coords) : Prop :=
  (Scalar.cmpi .ne (Scalar.extui (Scalar.cmpi .eq (BitVec.ofNat 32 (i 2).val) 0#32)) 0#32) = 1#1

/-- It holds at the even points, -/
theorem hcond0_1 : ∀ t : Fin cfg0.N, cond0_1 (grid0.coords t) ↔ t.val % 2 = 0 :=
  (by decide +kernel : ∀ t : Fin grid0.N, cond0_1 (grid0.coords t) ↔ t.val % 2 = 0)
/-- and the second conditional's at the odd ones. -/
theorem hcond0_2 : ∀ t : Fin cfg0.N, k0_cond2 (grid0.coords t) = 1#1 ↔ t.val % 2 = 1 :=
  (by decide +kernel : ∀ t : Fin grid0.N, k0_cond2 (grid0.coords t) = 1#1 ↔ t.val % 2 = 1)

/-- The whole-buffer rectangles the body loads and stores through. -/
abbrev rA : Rect S1024x512 := Rect.unit (s := S1024x512) ![0, 0] S1024x512.size inb_S1024x512_S1024x512_0_0
abbrev rB : Rect S512x1024 := Rect.unit (s := S512x1024) ![0, 0] S512x1024.size inb_S512x1024_S512x1024_0_0
abbrev rC : Rect S1024x1024 := Rect.unit (s := S1024x1024) ![0, 0] S1024x1024.size inb_S1024x1024_S1024x1024_0_0

theorem off00 : (![0, 0] : Fin 2 → Nat) = fun _ => 0 := by
  funext a; fin_cases a <;> rfl

/-- The accumulator after an even point: the two blocks' product added to the zero fill. -/
def accE (x0 : Vec F S1024x512 .bf16) (x1 : Vec F S512x1024 .bf16) : Vec F S1024x1024 .f32 :=
  k0_pay2 x0 x1 (k0_pay1 (F := F))

/-- The accumulator after an odd point, from what the even point before left in it (`s`). -/
def accO (x0 : Vec F S1024x512 .bf16) (x1 : Vec F S512x1024 .bf16) (s : Vec F S1024x1024 .f32) : Vec F S1024x1024 .f32 :=
  k0_pay2 x0 x1 s

/-- The output window's buffer after an odd point: the accumulator rounded. -/
def outO (x0 : Vec F S1024x512 .bf16) (x1 : Vec F S512x1024 .bf16) (s : Vec F S1024x1024 .f32) : Vec F S1024x1024 .bf16 :=
  k0_pay3 (accO x0 x1 s)

/-- What the even point's stores leave in the accumulator, read back: `accE` of the blocks. -/
theorem even_acc (v3 : View sig .tc .vmem S1024x512 .bf16) (v4 : View sig .tc .vmem S512x1024 .bf16) (v6 : View sig .tc .vmem S1024x1024 .f32)
    (f0 : v3.ty.Contents (Elt F)) (f1 : v4.ty.Contents (Elt F)) (f6 : v6.ty.Contents (Elt F)) :
    v6.read (Elt F) (v6.writes (Elt F) f6
      [⟨rC, k0_pay2 (v3.readAt (Elt F) rA.toLoadRect f0) (v4.readAt (Elt F) rB.toLoadRect f1)
          (v6.readCov [⟨rC, k0_pay1 (F := F)⟩] rC.toLoadRect)⟩, ⟨rC, k0_pay1 (F := F)⟩])
      = accE (v3.read (Elt F) f0) (v4.read (Elt F) f1) := by
  have e0 : v3.readAt (Elt F) rA.toLoadRect f0 = v3.read (Elt F) f0 := readAt_whole (Val := Elt F) v3 f0 ![0, 0] off00 inb_S1024x512_S1024x512_0_0
  have e1 : v4.readAt (Elt F) rB.toLoadRect f1 = v4.read (Elt F) f1 := readAt_whole (Val := Elt F) v4 f1 ![0, 0] off00 inb_S512x1024_S512x1024_0_0
  have e6 := View.readCov_unit_zero (Val := Elt F) v6 off00 inb_S1024x1024_S1024x1024_0_0 (k0_pay1 (F := F))
  rw [e0, e1, e6]
  exact read_writes_whole (Val := Elt F) v6 f6 ![0, 0] off00 inb_S1024x1024_S1024x1024_0_0 _ _

/-- What the odd point's store leaves in the accumulator: `accO`. -/
theorem odd_acc (v3 : View sig .tc .vmem S1024x512 .bf16) (v4 : View sig .tc .vmem S512x1024 .bf16) (v6 : View sig .tc .vmem S1024x1024 .f32)
    (f0 : v3.ty.Contents (Elt F)) (f1 : v4.ty.Contents (Elt F)) (f6 : v6.ty.Contents (Elt F)) :
    v6.read (Elt F) (v6.writes (Elt F) f6
      [⟨rC, k0_pay2 (v3.readAt (Elt F) rA.toLoadRect f0) (v4.readAt (Elt F) rB.toLoadRect f1) (v6.readAt (Elt F) rC.toLoadRect f6)⟩])
      = accO (v3.read (Elt F) f0) (v4.read (Elt F) f1) (v6.read (Elt F) f6) := by
  have e0 : v3.readAt (Elt F) rA.toLoadRect f0 = v3.read (Elt F) f0 := readAt_whole (Val := Elt F) v3 f0 ![0, 0] off00 inb_S1024x512_S1024x512_0_0
  have e1 : v4.readAt (Elt F) rB.toLoadRect f1 = v4.read (Elt F) f1 := readAt_whole (Val := Elt F) v4 f1 ![0, 0] off00 inb_S512x1024_S512x1024_0_0
  have e6 : v6.readAt (Elt F) rC.toLoadRect f6 = v6.read (Elt F) f6 := readAt_whole (Val := Elt F) v6 f6 ![0, 0] off00 inb_S1024x1024_S1024x1024_0_0
  rw [e0, e1, e6]
  exact read_writes_whole (Val := Elt F) v6 f6 ![0, 0] off00 inb_S1024x1024_S1024x1024_0_0 _ _

/-- What the odd point's store leaves in the output window: `outO`. -/
theorem odd_out (v3 : View sig .tc .vmem S1024x512 .bf16) (v4 : View sig .tc .vmem S512x1024 .bf16) (v6 : View sig .tc .vmem S1024x1024 .f32)
    (v5 : View sig .tc .vmem S1024x1024 .bf16)
    (f0 : v3.ty.Contents (Elt F)) (f1 : v4.ty.Contents (Elt F)) (f6 : v6.ty.Contents (Elt F)) (f5 : v5.ty.Contents (Elt F)) :
    v5.read (Elt F) (v5.writes (Elt F) f5
      [⟨rC, k0_pay3 (v6.readCov
          [⟨rC, k0_pay2 (v3.readAt (Elt F) rA.toLoadRect f0) (v4.readAt (Elt F) rB.toLoadRect f1) (v6.readAt (Elt F) rC.toLoadRect f6)⟩]
          rC.toLoadRect)⟩])
      = outO (v3.read (Elt F) f0) (v4.read (Elt F) f1) (v6.read (Elt F) f6) := by
  have e0 : v3.readAt (Elt F) rA.toLoadRect f0 = v3.read (Elt F) f0 := readAt_whole (Val := Elt F) v3 f0 ![0, 0] off00 inb_S1024x512_S1024x512_0_0
  have e1 : v4.readAt (Elt F) rB.toLoadRect f1 = v4.read (Elt F) f1 := readAt_whole (Val := Elt F) v4 f1 ![0, 0] off00 inb_S512x1024_S512x1024_0_0
  have e6 : v6.readAt (Elt F) rC.toLoadRect f6 = v6.read (Elt F) f6 := readAt_whole (Val := Elt F) v6 f6 ![0, 0] off00 inb_S1024x1024_S1024x1024_0_0
  rw [e0, e1, e6]
  rw [View.readCov_unit_zero (Val := Elt F) v6 off00 inb_S1024x1024_S1024x1024_0_0 (k0_pay2 (v3.read (Elt F) f0) (v4.read (Elt F) f1) (v6.read (Elt F) f6))]
  exact read_writes_whole (Val := Elt F) v5 f5 ![0, 0] off00 inb_S1024x1024_S1024x1024_0_0 _ _

set_option maxHeartbeats 400000 in
/-- The body at a point whose innermost coordinate is 0, on whole memrefs — the inputs' at read contents, the output
    window's at `d5`, the accumulator at anything —: it leaves the inputs and the output window as they were and the
    accumulator at `accE` of the input blocks. -/
theorem sound_kernel0_even (c : Dev nD) (E : Set ℕ) (i : grid0.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc1 : cond0_1 i) (hc2 : ¬ k0_cond2 i = 1#1)
    (x0 : Vec F S1024x512 .bf16) (x1 : Vec F S512x1024 .bf16) (d5 : Vec F S1024x1024 .bf16) (K : PUnit → sProp 𝕄) :
    iprop(owns (c : Thread nD τ) arg3 fullShare x0 ∗ owns (c : Thread nD τ) arg4 fullShare x1 ∗ owns (c : Thread nD τ) arg5 fullShare d5
        ∗ (∃ d, owns (c : Thread nD τ) arg6 fullShare d)
        ∗ (iprop(owns (c : Thread nD τ) arg3 fullShare x0 ∗ owns (c : Thread nD τ) arg4 fullShare x1 ∗ owns (c : Thread nD τ) arg5 fullShare d5
            ∗ owns (c : Thread nD τ) arg6 fullShare (accE x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, H5, ⟨%d6, %f6, -, H6⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H5]; · iexact H5
  iexists _; isplitr
  swap; · iexact H6
  ipureintro
  sl_unfold_run_names
  exact even_acc _ _ _ _ _ _

set_option maxHeartbeats 400000 in
/-- The body at a point whose innermost coordinate is 1, the accumulator at `s`: it leaves the accumulator at `accO`
    and the output window at its rounding, `outO`. -/
theorem sound_kernel0_odd (c : Dev nD) (E : Set ℕ) (i : grid0.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc1 : ¬ cond0_1 i) (hc2 : k0_cond2 i = 1#1)
    (x0 : Vec F S1024x512 .bf16) (x1 : Vec F S512x1024 .bf16) (s : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (outO x0 x1 s)
            ∗ owns (c : Thread nD τ) arg6 fullShare (accO x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d5, %f5, -, H5⟩, ⟨%f6, %hf6, H6⟩, Hk⟩
  subst hf0; subst hf1; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_run_names
    exact odd_out _ _ _ _ _ _ _ _
  iexists _; isplitr
  swap; · iexact H6
  ipureintro
  sl_unfold_run_names
  exact odd_acc _ _ _ _ _ _

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulator and the output window hold point by point -/

/-- The point before `t` (itself at the first point). -/
def prev0 (t : Fin cfg0.N) : Fin cfg0.N := ⟨t.val - 1, Nat.lt_of_le_of_lt (Nat.sub_le _ _) t.isLt⟩

/-- The accumulator after the body at an even point `t`: the product of that point's blocks over the zero fill. -/
def accEAt (c : Dev nD) (t : Fin cfg0.N) : Vec F S1024x1024 .f32 :=
  accE (iblk0 V c 0 t) (iblk0 V c 1 t)

/-- The output window's buffer after the body at an odd point `t`: the rounding of the accumulator the even point
    before left with the product of this point's blocks added (at an even point the window is idle and this is not read). -/
def out0_2 (c : Dev nD) (t : Fin cfg0.N) : Vec F S1024x1024 .bf16 :=
  outO (iblk0 V c 0 t) (iblk0 V c 1 t) (accEAt V c (prev0 t))

/-- The scratch accumulator as a memref. -/
abbrev scM0 : Memref sig .tc .vmem S1024x1024 .f32 := Memref.whole cc0_scratch0

theorem pred_lt_of_odd {n N : ℕ} (h : n % 2 = 1) (hn : n ≤ N) : n - 1 < N := by omega

/-- The accumulator before position `n`: after an even point (`n` odd) at that point's `accEAt`; before an even point at
    anything (the point zeroes it). -/
def scrAt (c : Dev nD) (n : ℕ) (hn : n ≤ cfg0.N) : sProp 𝕄 :=
  if h : n % 2 = 1 then owns (c : Thread nD τ) scM0 fullShare (accEAt V c ⟨n - 1, pred_lt_of_odd h hn⟩)
  else iprop(∃ d, owns (c : Thread nD τ) scM0 fullShare d)

theorem scrAt_even (c : Dev nD) (n : ℕ) (hn : n ≤ cfg0.N) (h : n % 2 = 0) :
    scrAt V c n hn = iprop(∃ d, owns (c : Thread nD τ) scM0 fullShare d) := by
  unfold scrAt; rw [dif_neg (by omega)]

theorem scrAt_odd (c : Dev nD) (t : Fin cfg0.N) (h : t.val % 2 = 1) :
    scrAt V c t.val (Nat.le_of_lt t.isLt) = owns (c : Thread nD τ) scM0 fullShare (accEAt V c (prev0 t)) := by
  unfold scrAt; rw [dif_pos h]; rfl

theorem scrAt_succ_of_even (c : Dev nD) (t : Fin cfg0.N) (h : t.val % 2 = 0) :
    scrAt V c (t.val + 1) t.isLt = owns (c : Thread nD τ) scM0 fullShare (accEAt V c t) := by
  unfold scrAt; rw [dif_pos (by omega)]
  have e : (⟨t.val + 1 - 1, pred_lt_of_odd (by omega) t.isLt⟩ : Fin cfg0.N) = t := Fin.ext (show t.val + 1 - 1 = t.val from Nat.add_sub_cancel t.val 1)
  rw [e]

/-! ## The pipeline's proof data -/

/-- The scoped buffers that are neither a staging buffer of this pipeline nor its accumulator, at some contents each. -/
abbrev rest0 (c : Dev nD) : sProp 𝕄 :=
  Pipeline.scopedRestBut (Ix := Unit) (Name := ℕ) (U := UR sig nD τ) (Lvl := ℕ) (Val := Elt F) spec0 c [cc0_scratch0]

/-- The proof data of pipeline 0 on core `c`: the arrays as the region finds them (`V`); after the body at point `t`
    each input's buffer at its block and the output's at `out0_2`; the invariant the generator register at some state, the
    other scoped buffers at some contents and the accumulator at `scrAt`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
  Φ n := iprop((∃ r, prngReg c r) ∗ rest0 c ∗ scrAt V c n.val (Nat.le_of_lt_succ n.isLt))
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi0_castSucc (c : Dev nD) (t : Fin cfg0.N) :
    (dat0 V c).Φ t.castSucc = iprop((∃ r, prngReg c r) ∗ rest0 c ∗ scrAt V c t.val (Nat.le_of_lt t.isLt)) := by
  dsimp only [dat0]; simp only [Fin.coe_castSucc]

theorem Phi0_succ (c : Dev nD) (t : Fin cfg0.N) :
    (dat0 V c).Φ t.succ = iprop((∃ r, prngReg c r) ∗ rest0 c ∗ scrAt V c (t.val + 1) t.isLt) := by
  dsimp only [dat0]; simp only [Fin.val_succ]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- At the even points the output window is idle, -/
theorem idleAt0_2 : ∀ t : Fin cfg0.N, t.val % 2 = 0 → cfg0.idle 2 (grid0.coords t) = true :=
  (by decide +kernel : ∀ t : Fin grid0.N, t.val % 2 = 0 → idle0 2 (grid0.coords t) = true)
/-- and not written back; -/
theorem noFlush0_2 (t : Fin cfg0.N) (h : t.val % 2 = 0) : (cfg0.win 2).flush t = false := by
  cases hf : (cfg0.win 2).flush t
  · rfl
  · have := (flush0_2 t).mp hf; omega
/-- at the odd points it is live. -/
theorem liveAt0_2 : ∀ t : Fin cfg0.N, t.val % 2 = 1 → cfg0.idle 2 (grid0.coords t) = false :=
  (by decide +kernel : ∀ t : Fin grid0.N, t.val % 2 = 1 → idle0 2 (grid0.coords t) = false)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks; at an even point the invariant hands the accumulator
    at anything and takes it back at `accEAt`, the output window going back as it came; at an odd point the invariant hands
    the accumulator at what the even point before left and takes it back at anything, the output window left at `out0_2`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Phi0_castSucc, Phi0_succ]
  by_cases h : t.val % 2 = 0
  · rw [Dat.leavesExact_idle (dat0 V c) 2 t (idleAt0_2 t h) (noFlush0_2 t h)]
    rw [scrAt_even V c _ _ h, scrAt_succ_of_even V c t h]
    iintro ⟨⟨Hg, HR, HS⟩, Ho, ⟨%d0, H0⟩, ⟨%d1, H1⟩, ⟨%d2, H2⟩⟩
    iapply (sound_kernel0_even c Set.univ (grid0.coords t) _ _ _ _ _ _ _ _ ((hcond0_1 t).mpr h) (fun hc => by have := (hcond0_2 t).mp hc; omega)
      (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [Hg HR HS]
    · isplitl [Hg]; · iexact Hg
      isplitl [HR]; · iexact HR
      unfold accEAt; iexact HS
    isplitl [Ho]; · iexact Ho
    isplitl [H0]; · iexact H0
    isplitl [H1]; · iexact H1
    iexists d2; iexact H2
  · have h1 : t.val % 2 = 1 := by omega
    rw [show (dat0 V c).leavesExact 2 t = owns (c : Thread nD τ) (st0_2 t) fullShare ((dat0 V c).after 2 t) from by
      unfold Dat.leavesExact; rw [liveAt0_2 t h1], after0_2]
    rw [scrAt_odd V c t h1, scrAt_even V c (t.val + 1) _ (by omega)]
    iintro ⟨⟨Hg, HR, HS⟩, Ho, ⟨%d0, H0⟩, ⟨%d1, H1⟩, ⟨%d2, H2⟩⟩
    iapply (sound_kernel0_odd c Set.univ (grid0.coords t) _ _ _ _ _ _ _ _ (fun hc => h ((hcond0_1 t).mp hc)) ((hcond0_2 t).mpr h1)
      (iblk0 V c 0 t) (iblk0 V c 1 t) (accEAt V c (prev0 t)) _)
    isplitl [H0]; · iexact H0
    isplitl [H1]; · iexact H1
    isplitl [H2]; · iexists _; iexact H2
    isplitl [HS]; · iexact HS
    iintro ⟨H0, H1, H2, HS⟩
    isplitl [Hg HR HS]
    · isplitl [Hg]; · iexact Hg
      isplitl [HR]; · iexact HR
      iexists _; iexact HS
    isplitl [Ho]; · iexact Ho
    isplitl [H0]; · iexact H0
    isplitl [H1]; · iexact H1
    unfold out0_2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- The scoped rest split at the accumulator. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_split_of_list spec0 c [cc0_scratch0] (by decide) (by decide), bigSepL_singleton]
  simp only [scM0, owns_whole]; try rfl

/-- What the launch hands the region is the invariant before the first point: the accumulator at anything. -/
theorem hin0 (c : Dev nD) : (iprop((∃ r, prngReg c r) ∗ Pipeline.scopedRest spec0 c) : sProp 𝕄) ⊢ (dat0 V c).Φ 0 := by
  rw [show (dat0 V c).Φ 0 = iprop((∃ r, prngReg c r) ∗ rest0 c ∗ scrAt V c 0 (Nat.zero_le _)) from rfl,
    scrAt_even V c 0 _ rfl, scopedRest0_split]
  iintro ⟨Hg, HS, HR⟩
  isplitl [Hg]; · iexact Hg
  isplitl [HR]; · iexact HR
  iexact HS

/-- After the last point the invariant gives the scoped rest back: the grid has an even number of points, so the
    accumulator is at anything. -/
theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = iprop((∃ r, prngReg c r) ∗ rest0 c ∗ scrAt V c cfg0.N (Nat.le_refl _)) from rfl,
    scrAt_even V c cfg0.N _ (by rw [show cfg0.N = 48 from N_0]), scopedRest0_split]
  iintro ⟨Hg, HR, HS⟩
  isplitl [Hg]; · iexact Hg
  isplitl [HS]; · iexact HS
  iexact HR

end Cert.Kernel.Hand
-- ==== Proof.KReg1.lean ====
import proofs.«181592_j54889682043438_2_alg».proof.Proof.Gen.Kernel.Launch
import proofs.«181592_j54889682043438_2_alg».proof.Proof.Gen.Kernel.Skeleton
import proofs.«181592_j54889682043438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a parameter
variable (V : (c : Dev nD) → (b : Ref sig .tc) → Buf (Elt F) ((c : Thread nD τ).loc b))

/-! # The attention call (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key/value window's current staging buffer holds its block at every point, fetched there or not (it is
    fetched when the head changes; in between the block index does not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev r1_0 : Rect S1x1x512x192 := Rect.unit (s := S1x1x512x192) ![0, 0, 0, 0] S1x1x512x192.size inb_S1x1x512x192_S1x1x512x192_0_0_0_0
abbrev r1_1 : Rect S1x1x2048x192 := Rect.unit (s := S1x1x2048x192) ![0, 0, 0, 0] S1x1x2048x192.size inb_S1x1x2048x192_S1x1x2048x192_0_0_0_0
abbrev r1_2 : Rect S1x1x512x2048 := Rect.unit (s := S1x1x512x2048) ![0, 0, 0, 0] S1x1x512x2048.size inb_S1x1x512x2048_S1x1x512x2048_0_0_0_0
abbrev r1_3 : Rect S1x1x512x64 := Rect.unit (s := S1x1x512x64) ![0, 0, 0, 0] S1x1x512x64.size inb_S1x1x512x64_S1x1x512x64_0_0_0_0

/-! ## What the body leaves in each output window's buffer -/

/-- The probabilities' staging buffer after the body, from the two input blocks: its one whole store. -/
def out1_2 (x0 : Vec F S1x1x512x192 .bf16) (x1 : Vec F S1x1x2048x192 .bf16) : Vec F S1x1x512x2048 .f32 :=
  View.canon [⟨r1_2, k1_pay3 (View.ld x0 r1_0) (View.ld x1 r1_1)⟩]

/-- The weighted sums' staging buffer after the body, from the two input blocks: its one whole store. -/
def out1_3 (x0 : Vec F S1x1x512x192 .bf16) (x1 : Vec F S1x1x2048x192 .bf16) : Vec F S1x1x512x64 .bf16 :=
  View.canon [⟨r1_3, k1_pay4 (View.ld x0 r1_0) (View.ld x1 r1_1)⟩]

/-- The whole store covers the buffer. -/
theorem cover1_2 (p0 : Vec F S1x1x512x2048 .f32) (y : S1x1x512x2048.Idx) :
    ∃ pc ∈ ([⟨r1_2, p0⟩] : List (View.Piece (Elt F) S1x1x512x2048 .f32)), y ∈ pc.1.set :=
  View.cover_of_tiled [⟨r1_2, p0⟩] S1x1x512x2048.size (by rfl) y

theorem cover1_3 (p0 : Vec F S1x1x512x64 .bf16) (y : S1x1x512x64.Idx) :
    ∃ pc ∈ ([⟨r1_3, p0⟩] : List (View.Piece (Elt F) S1x1x512x64 .bf16)), y ∈ pc.1.set :=
  View.cover_of_tiled [⟨r1_3, p0⟩] S1x1x512x64.size (by rfl) y

/-! ## The body's triple -/

set_option maxHeartbeats 1000000 in
/-- The kernel body on whole staging memrefs, the inputs' at read contents and the outputs' at anything, runs to the
    continuation holding the inputs' as they were and each output's at its whole store of the inputs' payload. -/
theorem sound_kernel1 (c : Dev nD) (E : Set ℕ) (i : grid1.Coords)
    (arg3 : Memref sig .tc .vmem S1x1x512x192 .bf16) (harg3 : arg3.IsWhole)
    (arg4 : Memref sig .tc .vmem S1x1x2048x192 .bf16) (harg4 : arg4.IsWhole)
    (arg5 : Memref sig .tc .vmem S1x1x512x2048 .f32) (harg5 : arg5.IsWhole)
    (arg6 : Memref sig .tc .vmem S1x1x512x64 .bf16) (harg6 : arg6.IsWhole)
    (x0 : Vec F S1x1x512x192 .bf16) (x1 : Vec F S1x1x2048x192 .bf16) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out1_2 x0 x1) ∗ owns (c : Thread nD τ) arg6 fullShare (out1_3 x0 x1)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and each output's at its whole store of the input blocks' payload; the
    invariant the scoped rest and the generator register, untouched; nothing owed. The two input windows read ONE
    array, so each holds it at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- The shares the arrays are held at: the shared input array split in two halves, the outputs whole. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Entering: the generator register and the scoped rest are the invariant. -/
theorem hin1 (c : Dev nD) : (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp

/-- Leaving: the invariant gives them back. -/
theorem hout1 (c : Dev nD) : (dat1 V c).Φ (Fin.last cfg1.N) ⊢ (iprop((∃ r, prngReg c r) ∗ Pipeline.scopedRest spec1 c) : sProp 𝕄) := by
  rw [show (dat1 V c).Φ (Fin.last _) = Pipeline.ΦA spec1 c from rfl]; unfold Pipeline.ΦA
  iintro ⟨Hr, Hp⟩
  isplitl [Hp]; · iexact Hp
  iexact Hr

end Cert.Kernel.Hand
end
-- ==== Proof.KReg2.lean ====
import proofs.«181592_j54889682043438_2_alg».proof.Proof.Gen.Kernel.Launch
import proofs.«181592_j54889682043438_2_alg».proof.Proof.Gen.Kernel.Skeleton
import proofs.«181592_j54889682043438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # The output projection (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window holds its block at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window holds its block (the whole array) at every point, though it is fetched at the first
    point only: the block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

-- head `h`'s slab of the activations' block, and of the weights
abbrev ra0 : Rect S1x16x512x64 := Rect.unit (s := S1x16x512x64) ![0, 0, 0, 0] S1x1x512x64.size inb_S1x16x512x64_S1x1x512x64_0_0_0_0
abbrev ra1 : Rect S1x16x512x64 := Rect.unit (s := S1x16x512x64) ![0, 1, 0, 0] S1x1x512x64.size inb_S1x16x512x64_S1x1x512x64_0_1_0_0
abbrev ra2 : Rect S1x16x512x64 := Rect.unit (s := S1x16x512x64) ![0, 2, 0, 0] S1x1x512x64.size inb_S1x16x512x64_S1x1x512x64_0_2_0_0
abbrev ra3 : Rect S1x16x512x64 := Rect.unit (s := S1x16x512x64) ![0, 3, 0, 0] S1x1x512x64.size inb_S1x16x512x64_S1x1x512x64_0_3_0_0
abbrev ra4 : Rect S1x16x512x64 := Rect.unit (s := S1x16x512x64) ![0, 4, 0, 0] S1x1x512x64.size inb_S1x16x512x64_S1x1x512x64_0_4_0_0
abbrev ra5 : Rect S1x16x512x64 := Rect.unit (s := S1x16x512x64) ![0, 5, 0, 0] S1x1x512x64.size inb_S1x16x512x64_S1x1x512x64_0_5_0_0
abbrev ra6 : Rect S1x16x512x64 := Rect.unit (s := S1x16x512x64) ![0, 6, 0, 0] S1x1x512x64.size inb_S1x16x512x64_S1x1x512x64_0_6_0_0
abbrev ra7 : Rect S1x16x512x64 := Rect.unit (s := S1x16x512x64) ![0, 7, 0, 0] S1x1x512x64.size inb_S1x16x512x64_S1x1x512x64_0_7_0_0
abbrev ra8 : Rect S1x16x512x64 := Rect.unit (s := S1x16x512x64) ![0, 8, 0, 0] S1x1x512x64.size inb_S1x16x512x64_S1x1x512x64_0_8_0_0
abbrev ra9 : Rect S1x16x512x64 := Rect.unit (s := S1x16x512x64) ![0, 9, 0, 0] S1x1x512x64.size inb_S1x16x512x64_S1x1x512x64_0_9_0_0
abbrev ra10 : Rect S1x16x512x64 := Rect.unit (s := S1x16x512x64) ![0, 10, 0, 0] S1x1x512x64.size inb_S1x16x512x64_S1x1x512x64_0_10_0_0
abbrev ra11 : Rect S1x16x512x64 := Rect.unit (s := S1x16x512x64) ![0, 11, 0, 0] S1x1x512x64.size inb_S1x16x512x64_S1x1x512x64_0_11_0_0
abbrev ra12 : Rect S1x16x512x64 := Rect.unit (s := S1x16x512x64) ![0, 12, 0, 0] S1x1x512x64.size inb_S1x16x512x64_S1x1x512x64_0_12_0_0
abbrev ra13 : Rect S1x16x512x64 := Rect.unit (s := S1x16x512x64) ![0, 13, 0, 0] S1x1x512x64.size inb_S1x16x512x64_S1x1x512x64_0_13_0_0
abbrev ra14 : Rect S1x16x512x64 := Rect.unit (s := S1x16x512x64) ![0, 14, 0, 0] S1x1x512x64.size inb_S1x16x512x64_S1x1x512x64_0_14_0_0
abbrev ra15 : Rect S1x16x512x64 := Rect.unit (s := S1x16x512x64) ![0, 15, 0, 0] S1x1x512x64.size inb_S1x16x512x64_S1x1x512x64_0_15_0_0
abbrev rb0 : Rect S16x64x1024 := Rect.unit (s := S16x64x1024) ![0, 0, 0] S1x64x1024.size inb_S16x64x1024_S1x64x1024_0_0_0
abbrev rb1 : Rect S16x64x1024 := Rect.unit (s := S16x64x1024) ![1, 0, 0] S1x64x1024.size inb_S16x64x1024_S1x64x1024_1_0_0
abbrev rb2 : Rect S16x64x1024 := Rect.unit (s := S16x64x1024) ![2, 0, 0] S1x64x1024.size inb_S16x64x1024_S1x64x1024_2_0_0
abbrev rb3 : Rect S16x64x1024 := Rect.unit (s := S16x64x1024) ![3, 0, 0] S1x64x1024.size inb_S16x64x1024_S1x64x1024_3_0_0
abbrev rb4 : Rect S16x64x1024 := Rect.unit (s := S16x64x1024) ![4, 0, 0] S1x64x1024.size inb_S16x64x1024_S1x64x1024_4_0_0
abbrev rb5 : Rect S16x64x1024 := Rect.unit (s := S16x64x1024) ![5, 0, 0] S1x64x1024.size inb_S16x64x1024_S1x64x1024_5_0_0
abbrev rb6 : Rect S16x64x1024 := Rect.unit (s := S16x64x1024) ![6, 0, 0] S1x64x1024.size inb_S16x64x1024_S1x64x1024_6_0_0
abbrev rb7 : Rect S16x64x1024 := Rect.unit (s := S16x64x1024) ![7, 0, 0] S1x64x1024.size inb_S16x64x1024_S1x64x1024_7_0_0
abbrev rb8 : Rect S16x64x1024 := Rect.unit (s := S16x64x1024) ![8, 0, 0] S1x64x1024.size inb_S16x64x1024_S1x64x1024_8_0_0
abbrev rb9 : Rect S16x64x1024 := Rect.unit (s := S16x64x1024) ![9, 0, 0] S1x64x1024.size inb_S16x64x1024_S1x64x1024_9_0_0
abbrev rb10 : Rect S16x64x1024 := Rect.unit (s := S16x64x1024) ![10, 0, 0] S1x64x1024.size inb_S16x64x1024_S1x64x1024_10_0_0
abbrev rb11 : Rect S16x64x1024 := Rect.unit (s := S16x64x1024) ![11, 0, 0] S1x64x1024.size inb_S16x64x1024_S1x64x1024_11_0_0
abbrev rb12 : Rect S16x64x1024 := Rect.unit (s := S16x64x1024) ![12, 0, 0] S1x64x1024.size inb_S16x64x1024_S1x64x1024_12_0_0
abbrev rb13 : Rect S16x64x1024 := Rect.unit (s := S16x64x1024) ![13, 0, 0] S1x64x1024.size inb_S16x64x1024_S1x64x1024_13_0_0
abbrev rb14 : Rect S16x64x1024 := Rect.unit (s := S16x64x1024) ![14, 0, 0] S1x64x1024.size inb_S16x64x1024_S1x64x1024_14_0_0
abbrev rb15 : Rect S16x64x1024 := Rect.unit (s := S16x64x1024) ![15, 0, 0] S1x64x1024.size inb_S16x64x1024_S1x64x1024_15_0_0
abbrev ro : Rect S1x512x1024 := Rect.unit (s := S1x512x1024) ![0, 0, 0] S1x512x1024.size inb_S1x512x1024_S1x512x1024_0_0_0

/-! ## What the body leaves in the output window's buffer -/

/-- The output window's staging buffer after the body, from the two input blocks: its one whole store, whose
    payload is the sum over the sixteen heads of the head's slab of activations times the head's slab of
    weights, accumulated four heads at a time. -/
def out2_2 (x0 : Vec F S1x16x512x64 .bf16) (x1 : Vec F S16x64x1024 .bf16) : Vec F S1x512x1024 .f32 :=
  View.canon [⟨ro, k2_pay1
    (k2_pay4
      (k2_pay3
        (k2_pay2 (View.ld x0 ra0) (View.ld x1 rb0) (View.ld x0 ra1) (View.ld x1 rb1) (View.ld x0 ra2) (View.ld x1 rb2) (View.ld x0 ra3) (View.ld x1 rb3))
        (View.ld x0 ra4) (View.ld x1 rb4) (View.ld x0 ra5) (View.ld x1 rb5) (View.ld x0 ra6) (View.ld x1 rb6) (View.ld x0 ra7) (View.ld x1 rb7))
      (View.ld x0 ra8) (View.ld x1 rb8) (View.ld x0 ra9) (View.ld x1 rb9) (View.ld x0 ra10) (View.ld x1 rb10) (View.ld x0 ra11) (View.ld x1 rb11))
    (k2_pay5 (View.ld x0 ra12)) (View.ld x1 rb12)
    (View.ld x0 ra13) (View.ld x1 rb13) (View.ld x0 ra14) (View.ld x1 rb14) (View.ld x0 ra15) (View.ld x1 rb15)⟩]

/-- Its store is the whole buffer, so it covers it. -/
theorem cover2_2 (p0 : Vec F S1x512x1024 .f32) (y : S1x512x1024.Idx) :
    ∃ pc ∈ ([⟨ro, p0⟩] : List (View.Piece (Elt F) S1x512x1024 .f32)), y ∈ pc.1.set :=
  View.cover_of_tiled [⟨ro, p0⟩] S1x512x1024.size (by rfl) y

/-! ## The body's triple -/

set_option maxHeartbeats 4000000 in
/-- The kernel body on whole staging memrefs, the inputs' at read contents and the output's at anything, runs to
    the continuation holding the inputs' as they were and the output's at `out2_2` of the inputs'. -/
theorem sound_kernel2 (c : Dev nD) (E : Set ℕ) (i : grid2.Coords) (arg2 : Memref sig .tc .vmem S1x16x512x64 .bf16) (harg2 : arg2.IsWhole) (arg3 : Memref sig .tc .vmem S16x64x1024 .bf16) (harg3 : arg3.IsWhole) (arg4 : Memref sig .tc .vmem S1x512x1024 .f32) (harg4 : arg4.IsWhole)
    (x0 : Vec F S1x16x512x64 .bf16) (x1 : Vec F S16x64x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__outproj_kernel i arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out -/

theorem hin2 (c : Dev nD) : (iprop((∃ r, prngReg c r) ∗ Pipeline.scopedRest spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp

theorem hout2 (c : Dev nD) : (dat2 V c).Φ (Fin.last cfg2.N) ⊢ (iprop((∃ r, prngReg c r) ∗ Pipeline.scopedRest spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

end Cert.Kernel.Hand
end
-- ==== Proof.KRun.lean ====
import proofs.«181592_j54889682043438_2_alg».proof.Proof.KReg0
import proofs.«181592_j54889682043438_2_alg».proof.Proof.KReg1
import proofs.«181592_j54889682043438_2_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main as three kernel regions among four stretches of host operations

## The buffer contents at each boundary, a fold from the launch memory -/

/-- Core `c`'s buffers at launch. -/
abbrev W0 : Dev nD → Valuation τ sig (Elt F) := fun c b => (s₀ m ρ).mem ((c : Dev nD), b)
/-- After the first stretch (the casts, the transposed weight, the flattened rows): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its output array at what its write-backs leave, every other buffer as entered. -/
def W2 (c : Dev nD) : Valuation τ sig (Elt F) :=
  Function.update (W1 m ρ c) main_v4 ((dat0 (V1 m ρ) c).arrAt 2 cfg0.N)
abbrev V2 : (c : Dev nD) → (b : Ref sig .tc) → Buf (Elt F) ((c : Thread nD τ).loc b) := fun c b => W2 m ρ c b
/-- After the second stretch (the per-head layout): the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its two output arrays at what its write-backs leave. -/
def W4 (c : Dev nD) : Valuation τ sig (Elt F) :=
  Function.update (Function.update (W3 m ρ c) main_v7_0 ((dat1 (V3 m ρ) c).arrAt 2 cfg1.N)) main_v7_1 ((dat1 (V3 m ρ) c).arrAt 3 cfg1.N)
abbrev V4 : (c : Dev nD) → (b : Ref sig .tc) → Buf (Elt F) ((c : Thread nD τ).loc b) := fun c b => W4 m ρ c b
/-- After the third stretch (the output weight transposed and split by head): the last region's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output-projection region. -/
def W6 (c : Dev nD) : Valuation τ sig (Elt F) :=
  Function.update (W5 m ρ c) main_v11 ((dat2 (V5 m ρ) c).arrAt 2 cfg2.N)
abbrev V6 : (c : Dev nD) → (b : Ref sig .tc) → Buf (Elt F) ((c : Thread nD τ).loc b) := fun c b => W6 m ρ c b

theorem W2_out (c : Dev nD) : W2 m ρ c main_v4 = (dat0 (V1 m ρ) c).arrAt 2 cfg0.N := by
  unfold W2; exact Function.update_self ..
theorem W2_of_ne (c : Dev nD) (b : Ref sig .tc) (hb : b ≠ main_v4) : W2 m ρ c b = W1 m ρ c b := by
  unfold W2; exact Function.update_of_ne (StableHlo.devRef_ne_of_ne hb) ..
theorem W4_out0 (c : Dev nD) : W4 m ρ c main_v7_0 = (dat1 (V3 m ρ) c).arrAt 2 cfg1.N := by
  unfold W4
  rw [Function.update_of_ne (StableHlo.devRef_ne_of_ne (by decide : (main_v7_0 : Ref sig .tc) ≠ main_v7_1))]
  exact Function.update_self ..
theorem W4_out1 (c : Dev nD) : W4 m ρ c main_v7_1 = (dat1 (V3 m ρ) c).arrAt 3 cfg1.N := by
  unfold W4; exact Function.update_self ..
theorem W4_of_ne (c : Dev nD) (b : Ref sig .tc) (hb0 : b ≠ main_v7_0) (hb1 : b ≠ main_v7_1) : W4 m ρ c b = W3 m ρ c b := by
  unfold W4
  rw [Function.update_of_ne (StableHlo.devRef_ne_of_ne hb1), Function.update_of_ne (StableHlo.devRef_ne_of_ne hb0)]
theorem W6_out (c : Dev nD) : W6 m ρ c main_v11 = (dat2 (V5 m ρ) c).arrAt 2 cfg2.N := by
  unfold W6; exact Function.update_self ..
theorem W6_of_ne (c : Dev nD) (b : Ref sig .tc) (hb : b ≠ main_v11) : W6 m ρ c b = W5 m ρ c b := by
  unfold W6; exact Function.update_of_ne (StableHlo.devRef_ne_of_ne hb) ..

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W6 m ρ c) ∗ ∃ r, prngReg c r)

/-! ## The regions as segments -/

theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq0 (V1 m ρ) c 0)).trans (W2_of_ne m ρ c main_v3 (by decide)).symm
  | ⟨1, _⟩ => (((dat0 (V1 m ρ) c).arrAt_in 1 rfl _).trans (A_eq0 (V1 m ρ) c 1)).trans (W2_of_ne m ρ c main_v2 (by decide)).symm
  | ⟨2, _⟩ => (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    iintro ⟨Hp, -, Hr⟩
    isplitl [Hp]; · iexact Hp
    iexact Hr
  hout c := by
    rw [Pipeline.ownSems0_none]
    refine (hout0 (V1 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (V5 m ρ) c).arrAt w cfg2.N = V6 m ρ c (Pipeline.arrRef spec2 w) :=
  match w with
  | ⟨0, _⟩ => (((dat2 (V5 m ρ) c).arrAt_in 0 rfl _).trans (A_eq2 (V5 m ρ) c 0)).trans (W6_of_ne m ρ c main_v7_1 (by decide)).symm
  | ⟨1, _⟩ => (((dat2 (V5 m ρ) c).arrAt_in 1 rfl _).trans (A_eq2 (V5 m ρ) c 1)).trans (W6_of_ne m ρ c main_v10 (by decide)).symm
  | ⟨2, _⟩ => (W6_out m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨2, Finset.mem_univ _, e.symm⟩)

set_option backward.isDefEq.respectTransparency.types false in
/-- The output-projection region over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    iintro ⟨Hp, -, Hr⟩
    isplitl [Hp]; · iexact Hp
    iexact Hr
  hout c := by
    rw [Pipeline.ownSems0_none]
    refine (hout2 (V5 m ρ) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### The attention region: its two input windows read ONE array, each at half the share -/

/-- The buffers behind the attention region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7_0) ↦{fullShare} V main_v7_0)
          ∗ (((c : Thread nD τ).loc main_v7_1) ↦{fullShare} V main_v7_1)) := by
  unfold Pipeline.arrBufs
  exact bigSep_eq_bigSepL_of_eq [main_v6, main_v7_0, main_v7_1] (by decide) (by decide) _

/-- The region's arrays at contents `A`, window by window: the shared array at the two halves of the full share. -/
theorem arrays1_eq (c : Dev nD) (Vd : (c : Dev nD) → (b : Ref sig .tc) → Buf (Elt F) ((c : Thread nD τ).loc b))
    (A : (w : Fin cfg1.W) → Buf (Elt F) ((cfg1.win w).arr.view.loc (c : Thread nD τ))) :
    ((dat1 Vd c).arrays A : sProp 𝕄)
      = iprop((((c : Thread nD τ).loc main_v6) ↦{fullShare.left} A 0) ∗ (((c : Thread nD τ).loc main_v6) ↦{fullShare.right} A 1)
          ∗ (((c : Thread nD τ).loc main_v7_0) ↦{fullShare} A 2) ∗ (((c : Thread nD τ).loc main_v7_1) ↦{fullShare} A 3)) := by
  unfold Pipeline.Dat.arrays
  rw [bigSep_W1, share1_0, share1_1, share1_2, share1_3, (arr_whole1 0).set_eq_univ,
    (arr_whole1 2).set_eq_univ, (arr_whole1 3).set_eq_univ]

theorem W4_in (c : Dev nD) : W4 m ρ c main_v6 = W3 m ρ c main_v6 := W4_of_ne m ρ c main_v6 (by decide) (by decide)

set_option backward.isDefEq.respectTransparency.types false in
/-- The attention region over the thread state: entered from every unscoped buffer at `W3`, left at `W4`. The array
    behind its two input windows is split in two halves of the full share at the entry and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (StableHlo.held (c : Thread nD τ) (Pipeline.ucRefs τ sig) (W3 m ρ c) : sProp 𝕄)
        ⊢ iprop(Pipeline.arrBufs (Ix := Unit) (Name := ℕ) (U := UR sig nD τ) (Lvl := ℕ) spec1 c (V3 m ρ c)
            ∗ Pipeline.unscopedRest (Ix := Unit) (Name := ℕ) (U := UR sig nD τ) (Lvl := ℕ) spec1 c (V3 m ρ c)) := by
      rw [← Pipeline.unscopedBufs_held (Ix := Unit) (Name := ℕ) (U := UR sig nD τ) (Lvl := ℕ) c (W3 m ρ c)]
      exact Entails.of_eq (Pipeline.unscopedBufs_split₀ (Pipeline.pin (pcfgs (F := F)) adm) 1 winFacts₀1.arr_unscoped c (V3 m ρ c))
    rw [show ((pdats m ρ 1 c).arrays ((pdats m ρ 1 c).arrAt · 0) : sProp 𝕄)
        = (dat1 (V3 m ρ) c).arrays (fun w => V3 m ρ c (Pipeline.arrRef spec1 w)) from
      congrArg _ (funext fun w => A_eq1 (V3 m ρ) c w), arrays1_eq]
    rw [arrBufs1_eq] at hsplit
    iintro ⟨⟨Hub, Hp, HO⟩, -, -⟩
    ihave H := hsplit $$ Hub
    icases H with ⟨⟨H6, H70, H71⟩, Hrest⟩
    ihave H6' := (pointsTo_share (PosShare.mem_left_op_right fullShare)).1 $$ H6
    icases H6' with ⟨H6l, H6r⟩
    imodintro
    isplitl [H6l H6r H70 H71]
    · isplitl [H6l]; · iexact H6l
      isplitl [H6r]; · iexact H6r
      isplitl [H70]; · iexact H70
      iexact H71
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    iintro ⟨Hp, -, Hr⟩
    isplitl [Hp]; · iexact Hp
    iexact Hr
  hout c := by
    rw [Pipeline.ownSems0_none]
    refine (hout1 (V3 m ρ) c).trans ?_
    iintro ⟨Hp, Hr⟩
    isplitl [Hp]; · iexact Hp
    isplitr; · iempintro
    iexact Hr
  hexit c := by
    have e0 : (dat1 (V3 m ρ) c).arrAt 0 cfg1.N = V3 m ρ c main_v6 :=
      ((dat1 (V3 m ρ) c).arrAt_in 0 rfl _).trans (A_eq1 (V3 m ρ) c 0)
    have e1 : (dat1 (V3 m ρ) c).arrAt 1 cfg1.N = V3 m ρ c main_v6 :=
      ((dat1 (V3 m ρ) c).arrAt_in 1 rfl _).trans (A_eq1 (V3 m ρ) c 1)
    have hrestEq : (Pipeline.unscopedRest (Ix := Unit) (Name := ℕ) (U := UR sig nD τ) (Lvl := ℕ) spec1 c (V4 m ρ c) : sProp 𝕄)
        = Pipeline.unscopedRest (Ix := Unit) (Name := ℕ) (U := UR sig nD τ) (Lvl := ℕ) spec1 c (V3 m ρ c) := by
      unfold Pipeline.unscopedRest
      exact bigSep_congr fun b hb => by
        rw [show V4 m ρ c b = V3 m ρ c b from W4_of_ne m ρ c b
          (fun e => (Finset.mem_sdiff.mp hb).2 (Finset.mem_image.mpr ⟨2, Finset.mem_univ _, e.symm⟩))
          (fun e => (Finset.mem_sdiff.mp hb).2 (Finset.mem_image.mpr ⟨3, Finset.mem_univ _, e.symm⟩))]
    have hjoin : (iprop((((c : Thread nD τ).loc main_v6) ↦{fullShare} V3 m ρ c main_v6)
          ∗ (((c : Thread nD τ).loc main_v7_0) ↦{fullShare} (dat1 (V3 m ρ) c).arrAt 2 cfg1.N)
          ∗ (((c : Thread nD τ).loc main_v7_1) ↦{fullShare} (dat1 (V3 m ρ) c).arrAt 3 cfg1.N)
          ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ c) := by
      have hsp : (unscopedBufs (Ix := Unit) (Name := ℕ) (U := UR sig nD τ) (Lvl := ℕ) c (V4 m ρ c) : sProp 𝕄)
          = iprop(Pipeline.arrBufs (Ix := Unit) (Name := ℕ) (U := UR sig nD τ) (Lvl := ℕ) spec1 c (V4 m ρ c)
              ∗ Pipeline.unscopedRest (Ix := Unit) (Name := ℕ) (U := UR sig nD τ) (Lvl := ℕ) spec1 c (V4 m ρ c)) :=
        Pipeline.unscopedBufs_split₀ (Pipeline.pin (pcfgs (F := F)) adm) 1 winFacts₀1.arr_unscoped c (V4 m ρ c)
      rw [← Pipeline.unscopedBufs_held (Ix := Unit) (Name := ℕ) (U := UR sig nD τ) (Lvl := ℕ) c (W4 m ρ c), hsp, arrBufs1_eq, hrestEq,
        show V4 m ρ c main_v6 = V3 m ρ c main_v6 from W4_in m ρ c,
        show V4 m ρ c main_v7_0 = (dat1 (V3 m ρ) c).arrAt 2 cfg1.N from W4_out0 m ρ c,
        show V4 m ρ c main_v7_1 = (dat1 (V3 m ρ) c).arrAt 3 cfg1.N from W4_out1 m ρ c]
      iintro ⟨H6, H70, H71, Hr⟩
      isplitr [Hr]
      · isplitl [H6]; · iexact H6
        isplitl [H70]; · iexact H70
        iexact H71
      iexact Hr
    rw [show ((pdats m ρ 1 c).arrays ((pdats m ρ 1 c).arrAt · (Pipeline.pin (pcfgs (F := F)) adm 1).N) : sProp 𝕄)
        = (dat1 (V3 m ρ) c).arrays (fun w => (dat1 (V3 m ρ) c).arrAt w cfg1.N) from rfl, arrays1_eq]
    dsimp only
    rw [e0, e1]
    iintro ⟨⟨H6l, H6r, H70, H71⟩, HO, HY, Hrest⟩
    ihave H6 := (pointsTo_share (PosShare.mem_left_op_right fullShare)).2 $$ [H6l H6r]
    · isplitl [H6l]; · iexact H6l
      iexact H6r
    imodintro
    isplitl [H6 H70 H71 Hrest]
    · iapply hjoin
      isplitl [H6]; · iexact H6
      isplitl [H70]; · iexact H70
      isplitl [H71]; · iexact H71
      iexact Hrest
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

/-- @main's six segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final memory holds every unscoped buffer at the last boundary's contents `W6`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The arguments end as launched -/

theorem keep0 (W : Valuation τ sig (Elt F)) (b : Ref sig .tc) (h0 : b ≠ main_v0) (h1 : b ≠ main_v1) (h2 : b ≠ main_v2) (h3 : b ≠ main_v3) :
    StableHlo.after hostOps0 W b = W b :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
theorem keep1 (W : Valuation τ sig (Elt F)) (b : Ref sig .tc) (h0 : b ≠ main_v5) (h1 : b ≠ main_v6) :
    StableHlo.after hostOps1 W b = W b :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))
theorem keep2 (W : Valuation τ sig (Elt F)) (b : Ref sig .tc) (h0 : b ≠ main_v8) (h1 : b ≠ main_v9) (h2 : b ≠ main_v10) :
    StableHlo.after hostOps2 W b = W b :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1, StableHlo.devRef_ne_of_ne h2⟩))

/-- A buffer that no stretch writes and no region changes reaches the end as launched. -/
theorem W6_arg (c : Dev nD) (b : Ref sig .tc) (hb : b = main_arg0 ∨ b = main_arg1 ∨ b = main_arg2) :
    W6 m ρ c b = m ((c : Thread nD τ).loc b) := by
  have hne : b ≠ main_v0 ∧ b ≠ main_v1 ∧ b ≠ main_v2 ∧ b ≠ main_v3 ∧ b ≠ main_v4 ∧ b ≠ main_v5 ∧ b ≠ main_v6 ∧ b ≠ main_v7_0
      ∧ b ≠ main_v7_1 ∧ b ≠ main_v8 ∧ b ≠ main_v9 ∧ b ≠ main_v10 ∧ b ≠ main_v11 := by
    rcases hb with rfl | rfl | rfl <;> decide
  obtain ⟨n0, n1, n2, n3, n4, n5, n6, n70, n71, n8, n9, n10, n11⟩ := hne
  calc W6 m ρ c b
    _ = W5 m ρ c b := W6_of_ne m ρ c b n11
    _ = W4 m ρ c b := keep2 _ b n8 n9 n10
    _ = W3 m ρ c b := W4_of_ne m ρ c b n70 n71
    _ = W2 m ρ c b := keep1 _ b n5 n6
    _ = W1 m ρ c b := W2_of_ne m ρ c b n4
    _ = W0 m ρ c b := keep0 _ b n0 n1 n2 n3
    _ = m ((c : Thread nD τ).loc b) := rfl

/-- THE FRAME: every weakly fair execution of @main terminates, nothing faulting, and the three argument arrays end as
    launched — at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_arg m ρ c main_arg0 (.inl rfl)),
     (h c _ (mem_uc main_arg1 (by decide))).trans (W6_arg m ρ c main_arg1 (.inr (.inl rfl))),
     (h c _ (mem_uc main_arg2 (by decide))).trans (W6_arg m ρ c main_arg2 (.inr (.inr rfl)))⟩)
    (run m ρ)

end Cert.Kernel.Hand

end
-- ==== Proof.Reg0.lean ====
import proofs.«181592_j54889682043438_2_alg».proof.Proof.Gen.KernelIdeal.Launch
import proofs.«181592_j54889682043438_2_alg».proof.Proof.Gen.KernelIdeal.Skeleton
import proofs.«181592_j54889682043438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## Whole-buffer loads and stores -/

section Whole
variable {Val : EltTy → Type} {S : Shape} {e : EltTy} {sg : RefSig} {κ : Kind} {sp : Space}

/-- A store through the whole-shape rectangle, last, leaves its payload. -/
theorem read_writes_whole [∀ e, Nonempty (Val e)] (v : View sg κ sp S e) (f : v.ty.Contents Val) (off : Fin S.rank → Nat)
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨(⟨Rect.unit off S.size inb, w⟩ : View.Piece Val S e), List.mem_cons_self,
    View.mem_set_unit_zero h inb y⟩)).trans (View.canon_cons_unit_zero h inb w L)

/-- A load through it reads the contents. -/
theorem readAt_whole (v : View sg κ sp S e) (f : v.ty.Contents Val) (off : Fin S.rank → Nat)
    (h : off = fun _ => 0) (inb : ∀ a, off a + S.size a ≤ S.size a) :
    v.readAt Val (Rect.unit off S.size inb).toLoadRect f = v.read Val f :=
  (View.readAt_eq_ld v f (Rect.unit off S.size inb)).trans (View.ld_unit_zero h inb _)

end Whole

-- the TensorCore's buffer contents when the region is entered: a PARAMETER
variable (V : (c : Dev nD) → (b : Ref sig .tc) → Buf (Elt F) ((c : Thread nD τ).loc b))

/-! ## Region 0: the K-blocked matrix product, at the entry contents `V`

The grid is [8, 3, 2], the last axis innermost: the point `t` has innermost coordinate `t % 2`. At an even point the
accumulator (a scratch buffer) is zeroed and the product of the two input blocks is added to it; at the odd point that
follows, the product of that point's blocks is added and the accumulator's rounding is stored into the output window,
which the pipeline writes back there. -/

/-- The first conditional's test, from the grid coordinates: the innermost coordinate is 0. -/
abbrev cond0_1 (i : grid0.Coords) : Prop :=
  (Scalar.cmpi .ne (Scalar.extui (Scalar.cmpi .eq (BitVec.ofNat 32 (i 2).val) 0#32)) 0#32) = 1#1

/-- It holds at the even points, -/
theorem hcond0_1 : ∀ t : Fin cfg0.N, cond0_1 (grid0.coords t) ↔ t.val % 2 = 0 :=
  (by decide +kernel : ∀ t : Fin grid0.N, cond0_1 (grid0.coords t) ↔ t.val % 2 = 0)
/-- and the second conditional's at the odd ones. -/
theorem hcond0_2 : ∀ t : Fin cfg0.N, k0_cond2 (grid0.coords t) = 1#1 ↔ t.val % 2 = 1 :=
  (by decide +kernel : ∀ t : Fin grid0.N, k0_cond2 (grid0.coords t) = 1#1 ↔ t.val % 2 = 1)

/-- The whole-buffer rectangles the body loads and stores through. -/
abbrev rA : Rect S1024x512 := Rect.unit (s := S1024x512) ![0, 0] S1024x512.size inb_S1024x512_S1024x512_0_0
abbrev rB : Rect S512x1024 := Rect.unit (s := S512x1024) ![0, 0] S512x1024.size inb_S512x1024_S512x1024_0_0
abbrev rC : Rect S1024x1024 := Rect.unit (s := S1024x1024) ![0, 0] S1024x1024.size inb_S1024x1024_S1024x1024_0_0

theorem off00 : (![0, 0] : Fin 2 → Nat) = fun _ => 0 := by
  funext a; fin_cases a <;> rfl

/-- The accumulator after an even point: the two blocks' product added to the zero fill. -/
def accE (x0 : Vec F S1024x512 .bf16) (x1 : Vec F S512x1024 .bf16) : Vec F S1024x1024 .f32 :=
  k0_pay2 x0 x1 (k0_pay1 (F := F))

/-- The accumulator after an odd point, from what the even point before left in it (`s`). -/
def accO (x0 : Vec F S1024x512 .bf16) (x1 : Vec F S512x1024 .bf16) (s : Vec F S1024x1024 .f32) : Vec F S1024x1024 .f32 :=
  k0_pay2 x0 x1 s

/-- The output window's buffer after an odd point: the accumulator rounded. -/
def outO (x0 : Vec F S1024x512 .bf16) (x1 : Vec F S512x1024 .bf16) (s : Vec F S1024x1024 .f32) : Vec F S1024x1024 .bf16 :=
  k0_pay3 (accO x0 x1 s)

/-- What the even point's stores leave in the accumulator, read back: `accE` of the blocks. -/
theorem even_acc (v3 : View sig .tc .vmem S1024x512 .bf16) (v4 : View sig .tc .vmem S512x1024 .bf16) (v6 : View sig .tc .vmem S1024x1024 .f32)
    (f0 : v3.ty.Contents (Elt F)) (f1 : v4.ty.Contents (Elt F)) (f6 : v6.ty.Contents (Elt F)) :
    v6.read (Elt F) (v6.writes (Elt F) f6
      [⟨rC, k0_pay2 (v3.readAt (Elt F) rA.toLoadRect f0) (v4.readAt (Elt F) rB.toLoadRect f1)
          (v6.readCov [⟨rC, k0_pay1 (F := F)⟩] rC.toLoadRect)⟩, ⟨rC, k0_pay1 (F := F)⟩])
      = accE (v3.read (Elt F) f0) (v4.read (Elt F) f1) := by
  have e0 : v3.readAt (Elt F) rA.toLoadRect f0 = v3.read (Elt F) f0 := readAt_whole (Val := Elt F) v3 f0 ![0, 0] off00 inb_S1024x512_S1024x512_0_0
  have e1 : v4.readAt (Elt F) rB.toLoadRect f1 = v4.read (Elt F) f1 := readAt_whole (Val := Elt F) v4 f1 ![0, 0] off00 inb_S512x1024_S512x1024_0_0
  have e6 := View.readCov_unit_zero (Val := Elt F) v6 off00 inb_S1024x1024_S1024x1024_0_0 (k0_pay1 (F := F))
  rw [e0, e1, e6]
  exact read_writes_whole (Val := Elt F) v6 f6 ![0, 0] off00 inb_S1024x1024_S1024x1024_0_0 _ _

/-- What the odd point's store leaves in the accumulator: `accO`. -/
theorem odd_acc (v3 : View sig .tc .vmem S1024x512 .bf16) (v4 : View sig .tc .vmem S512x1024 .bf16) (v6 : View sig .tc .vmem S1024x1024 .f32)
    (f0 : v3.ty.Contents (Elt F)) (f1 : v4.ty.Contents (Elt F)) (f6 : v6.ty.Contents (Elt F)) :
    v6.read (Elt F) (v6.writes (Elt F) f6
      [⟨rC, k0_pay2 (v3.readAt (Elt F) rA.toLoadRect f0) (v4.readAt (Elt F) rB.toLoadRect f1) (v6.readAt (Elt F) rC.toLoadRect f6)⟩])
      = accO (v3.read (Elt F) f0) (v4.read (Elt F) f1) (v6.read (Elt F) f6) := by
  have e0 : v3.readAt (Elt F) rA.toLoadRect f0 = v3.read (Elt F) f0 := readAt_whole (Val := Elt F) v3 f0 ![0, 0] off00 inb_S1024x512_S1024x512_0_0
  have e1 : v4.readAt (Elt F) rB.toLoadRect f1 = v4.read (Elt F) f1 := readAt_whole (Val := Elt F) v4 f1 ![0, 0] off00 inb_S512x1024_S512x1024_0_0
  have e6 : v6.readAt (Elt F) rC.toLoadRect f6 = v6.read (Elt F) f6 := readAt_whole (Val := Elt F) v6 f6 ![0, 0] off00 inb_S1024x1024_S1024x1024_0_0
  rw [e0, e1, e6]
  exact read_writes_whole (Val := Elt F) v6 f6 ![0, 0] off00 inb_S1024x1024_S1024x1024_0_0 _ _

/-- What the odd point's store leaves in the output window: `outO`. -/
theorem odd_out (v3 : View sig .tc .vmem S1024x512 .bf16) (v4 : View sig .tc .vmem S512x1024 .bf16) (v6 : View sig .tc .vmem S1024x1024 .f32)
    (v5 : View sig .tc .vmem S1024x1024 .bf16)
    (f0 : v3.ty.Contents (Elt F)) (f1 : v4.ty.Contents (Elt F)) (f6 : v6.ty.Contents (Elt F)) (f5 : v5.ty.Contents (Elt F)) :
    v5.read (Elt F) (v5.writes (Elt F) f5
      [⟨rC, k0_pay3 (v6.readCov
          [⟨rC, k0_pay2 (v3.readAt (Elt F) rA.toLoadRect f0) (v4.readAt (Elt F) rB.toLoadRect f1) (v6.readAt (Elt F) rC.toLoadRect f6)⟩]
          rC.toLoadRect)⟩])
      = outO (v3.read (Elt F) f0) (v4.read (Elt F) f1) (v6.read (Elt F) f6) := by
  have e0 : v3.readAt (Elt F) rA.toLoadRect f0 = v3.read (Elt F) f0 := readAt_whole (Val := Elt F) v3 f0 ![0, 0] off00 inb_S1024x512_S1024x512_0_0
  have e1 : v4.readAt (Elt F) rB.toLoadRect f1 = v4.read (Elt F) f1 := readAt_whole (Val := Elt F) v4 f1 ![0, 0] off00 inb_S512x1024_S512x1024_0_0
  have e6 : v6.readAt (Elt F) rC.toLoadRect f6 = v6.read (Elt F) f6 := readAt_whole (Val := Elt F) v6 f6 ![0, 0] off00 inb_S1024x1024_S1024x1024_0_0
  rw [e0, e1, e6]
  rw [View.readCov_unit_zero (Val := Elt F) v6 off00 inb_S1024x1024_S1024x1024_0_0 (k0_pay2 (v3.read (Elt F) f0) (v4.read (Elt F) f1) (v6.read (Elt F) f6))]
  exact read_writes_whole (Val := Elt F) v5 f5 ![0, 0] off00 inb_S1024x1024_S1024x1024_0_0 _ _

set_option maxHeartbeats 400000 in
/-- The body at a point whose innermost coordinate is 0, on whole memrefs — the inputs' at read contents, the output
    window's at `d5`, the accumulator at anything —: it leaves the inputs and the output window as they were and the
    accumulator at `accE` of the input blocks. -/
theorem sound_kernel0_even (c : Dev nD) (E : Set ℕ) (i : grid0.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc1 : cond0_1 i) (hc2 : ¬ k0_cond2 i = 1#1)
    (x0 : Vec F S1024x512 .bf16) (x1 : Vec F S512x1024 .bf16) (d5 : Vec F S1024x1024 .bf16) (K : PUnit → sProp 𝕄) :
    iprop(owns (c : Thread nD τ) arg3 fullShare x0 ∗ owns (c : Thread nD τ) arg4 fullShare x1 ∗ owns (c : Thread nD τ) arg5 fullShare d5
        ∗ (∃ d, owns (c : Thread nD τ) arg6 fullShare d)
        ∗ (iprop(owns (c : Thread nD τ) arg3 fullShare x0 ∗ owns (c : Thread nD τ) arg4 fullShare x1 ∗ owns (c : Thread nD τ) arg5 fullShare d5
            ∗ owns (c : Thread nD τ) arg6 fullShare (accE x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, H5, ⟨%d6, %f6, -, H6⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H5]; · iexact H5
  iexists _; isplitr
  swap; · iexact H6
  ipureintro
  sl_unfold_run_names
  exact even_acc _ _ _ _ _ _

set_option maxHeartbeats 400000 in
/-- The body at a point whose innermost coordinate is 1, the accumulator at `s`: it leaves the accumulator at `accO`
    and the output window at its rounding, `outO`. -/
theorem sound_kernel0_odd (c : Dev nD) (E : Set ℕ) (i : grid0.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc1 : ¬ cond0_1 i) (hc2 : k0_cond2 i = 1#1)
    (x0 : Vec F S1024x512 .bf16) (x1 : Vec F S512x1024 .bf16) (s : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (outO x0 x1 s)
            ∗ owns (c : Thread nD τ) arg6 fullShare (accO x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d5, %f5, -, H5⟩, ⟨%f6, %hf6, H6⟩, Hk⟩
  subst hf0; subst hf1; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_run_names
    exact odd_out _ _ _ _ _ _ _ _
  iexists _; isplitr
  swap; · iexact H6
  ipureintro
  sl_unfold_run_names
  exact odd_acc _ _ _ _ _ _

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulator and the output window hold point by point -/

/-- The point before `t` (itself at the first point). -/
def prev0 (t : Fin cfg0.N) : Fin cfg0.N := ⟨t.val - 1, Nat.lt_of_le_of_lt (Nat.sub_le _ _) t.isLt⟩

/-- The accumulator after the body at an even point `t`: the product of that point's blocks over the zero fill. -/
def accEAt (c : Dev nD) (t : Fin cfg0.N) : Vec F S1024x1024 .f32 :=
  accE (iblk0 V c 0 t) (iblk0 V c 1 t)

/-- The output window's buffer after the body at an odd point `t`: the rounding of the accumulator the even point
    before left with the product of this point's blocks added (at an even point the window is idle and this is not read). -/
def out0_2 (c : Dev nD) (t : Fin cfg0.N) : Vec F S1024x1024 .bf16 :=
  outO (iblk0 V c 0 t) (iblk0 V c 1 t) (accEAt V c (prev0 t))

/-- The scratch accumulator as a memref. -/
abbrev scM0 : Memref sig .tc .vmem S1024x1024 .f32 := Memref.whole cc0_scratch0

theorem pred_lt_of_odd {n N : ℕ} (h : n % 2 = 1) (hn : n ≤ N) : n - 1 < N := by omega

/-- The accumulator before position `n`: after an even point (`n` odd) at that point's `accEAt`; before an even point at
    anything (the point zeroes it). -/
def scrAt (c : Dev nD) (n : ℕ) (hn : n ≤ cfg0.N) : sProp 𝕄 :=
  if h : n % 2 = 1 then owns (c : Thread nD τ) scM0 fullShare (accEAt V c ⟨n - 1, pred_lt_of_odd h hn⟩)
  else iprop(∃ d, owns (c : Thread nD τ) scM0 fullShare d)

theorem scrAt_even (c : Dev nD) (n : ℕ) (hn : n ≤ cfg0.N) (h : n % 2 = 0) :
    scrAt V c n hn = iprop(∃ d, owns (c : Thread nD τ) scM0 fullShare d) := by
  unfold scrAt; rw [dif_neg (by omega)]

theorem scrAt_odd (c : Dev nD) (t : Fin cfg0.N) (h : t.val % 2 = 1) :
    scrAt V c t.val (Nat.le_of_lt t.isLt) = owns (c : Thread nD τ) scM0 fullShare (accEAt V c (prev0 t)) := by
  unfold scrAt; rw [dif_pos h]; rfl

theorem scrAt_succ_of_even (c : Dev nD) (t : Fin cfg0.N) (h : t.val % 2 = 0) :
    scrAt V c (t.val + 1) t.isLt = owns (c : Thread nD τ) scM0 fullShare (accEAt V c t) := by
  unfold scrAt; rw [dif_pos (by omega)]
  have e : (⟨t.val + 1 - 1, pred_lt_of_odd (by omega) t.isLt⟩ : Fin cfg0.N) = t := Fin.ext (show t.val + 1 - 1 = t.val from Nat.add_sub_cancel t.val 1)
  rw [e]

/-! ## The pipeline's proof data -/

/-- The scoped buffers that are neither a staging buffer of this pipeline nor its accumulator, at some contents each. -/
abbrev rest0 (c : Dev nD) : sProp 𝕄 :=
  Pipeline.scopedRestBut (Ix := Unit) (Name := ℕ) (U := UR sig nD τ) (Lvl := ℕ) (Val := Elt F) spec0 c [cc0_scratch0]

/-- The proof data of pipeline 0 on core `c`: the arrays as the region finds them (`V`); after the body at point `t`
    each input's buffer at its block and the output's at `out0_2`; the invariant the generator register at some state, the
    other scoped buffers at some contents and the accumulator at `scrAt`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
  Φ n := iprop((∃ r, prngReg c r) ∗ rest0 c ∗ scrAt V c n.val (Nat.le_of_lt_succ n.isLt))
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi0_castSucc (c : Dev nD) (t : Fin cfg0.N) :
    (dat0 V c).Φ t.castSucc = iprop((∃ r, prngReg c r) ∗ rest0 c ∗ scrAt V c t.val (Nat.le_of_lt t.isLt)) := by
  dsimp only [dat0]; simp only [Fin.coe_castSucc]

theorem Phi0_succ (c : Dev nD) (t : Fin cfg0.N) :
    (dat0 V c).Φ t.succ = iprop((∃ r, prngReg c r) ∗ rest0 c ∗ scrAt V c (t.val + 1) t.isLt) := by
  dsimp only [dat0]; simp only [Fin.val_succ]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- At the even points the output window is idle, -/
theorem idleAt0_2 : ∀ t : Fin cfg0.N, t.val % 2 = 0 → cfg0.idle 2 (grid0.coords t) = true :=
  (by decide +kernel : ∀ t : Fin grid0.N, t.val % 2 = 0 → idle0 2 (grid0.coords t) = true)
/-- and not written back; -/
theorem noFlush0_2 (t : Fin cfg0.N) (h : t.val % 2 = 0) : (cfg0.win 2).flush t = false := by
  cases hf : (cfg0.win 2).flush t
  · rfl
  · have := (flush0_2 t).mp hf; omega
/-- at the odd points it is live. -/
theorem liveAt0_2 : ∀ t : Fin cfg0.N, t.val % 2 = 1 → cfg0.idle 2 (grid0.coords t) = false :=
  (by decide +kernel : ∀ t : Fin grid0.N, t.val % 2 = 1 → idle0 2 (grid0.coords t) = false)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks; at an even point the invariant hands the accumulator
    at anything and takes it back at `accEAt`, the output window going back as it came; at an odd point the invariant hands
    the accumulator at what the even point before left and takes it back at anything, the output window left at `out0_2`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Phi0_castSucc, Phi0_succ]
  by_cases h : t.val % 2 = 0
  · rw [Dat.leavesExact_idle (dat0 V c) 2 t (idleAt0_2 t h) (noFlush0_2 t h)]
    rw [scrAt_even V c _ _ h, scrAt_succ_of_even V c t h]
    iintro ⟨⟨Hg, HR, HS⟩, Ho, ⟨%d0, H0⟩, ⟨%d1, H1⟩, ⟨%d2, H2⟩⟩
    iapply (sound_kernel0_even c Set.univ (grid0.coords t) _ _ _ _ _ _ _ _ ((hcond0_1 t).mpr h) (fun hc => by have := (hcond0_2 t).mp hc; omega)
      (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [Hg HR HS]
    · isplitl [Hg]; · iexact Hg
      isplitl [HR]; · iexact HR
      unfold accEAt; iexact HS
    isplitl [Ho]; · iexact Ho
    isplitl [H0]; · iexact H0
    isplitl [H1]; · iexact H1
    iexists d2; iexact H2
  · have h1 : t.val % 2 = 1 := by omega
    rw [show (dat0 V c).leavesExact 2 t = owns (c : Thread nD τ) (st0_2 t) fullShare ((dat0 V c).after 2 t) from by
      unfold Dat.leavesExact; rw [liveAt0_2 t h1], after0_2]
    rw [scrAt_odd V c t h1, scrAt_even V c (t.val + 1) _ (by omega)]
    iintro ⟨⟨Hg, HR, HS⟩, Ho, ⟨%d0, H0⟩, ⟨%d1, H1⟩, ⟨%d2, H2⟩⟩
    iapply (sound_kernel0_odd c Set.univ (grid0.coords t) _ _ _ _ _ _ _ _ (fun hc => h ((hcond0_1 t).mp hc)) ((hcond0_2 t).mpr h1)
      (iblk0 V c 0 t) (iblk0 V c 1 t) (accEAt V c (prev0 t)) _)
    isplitl [H0]; · iexact H0
    isplitl [H1]; · iexact H1
    isplitl [H2]; · iexists _; iexact H2
    isplitl [HS]; · iexact HS
    iintro ⟨H0, H1, H2, HS⟩
    isplitl [Hg HR HS]
    · isplitl [Hg]; · iexact Hg
      isplitl [HR]; · iexact HR
      iexists _; iexact HS
    isplitl [Ho]; · iexact Ho
    isplitl [H0]; · iexact H0
    isplitl [H1]; · iexact H1
    unfold out0_2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- The scoped rest split at the accumulator. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_split_of_list spec0 c [cc0_scratch0] (by decide) (by decide), bigSepL_singleton]
  simp only [scM0, owns_whole]; try rfl

/-- What the launch hands the region is the invariant before the first point: the accumulator at anything. -/
theorem hin0 (c : Dev nD) : (iprop((∃ r, prngReg c r) ∗ Pipeline.scopedRest spec0 c) : sProp 𝕄) ⊢ (dat0 V c).Φ 0 := by
  rw [show (dat0 V c).Φ 0 = iprop((∃ r, prngReg c r) ∗ rest0 c ∗ scrAt V c 0 (Nat.zero_le _)) from rfl,
    scrAt_even V c 0 _ rfl, scopedRest0_split]
  iintro ⟨Hg, HS, HR⟩
  isplitl [Hg]; · iexact Hg
  isplitl [HR]; · iexact HR
  iexact HS

/-- After the last point the invariant gives the scoped rest back: the grid has an even number of points, so the
    accumulator is at anything. -/
theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = iprop((∃ r, prngReg c r) ∗ rest0 c ∗ scrAt V c cfg0.N (Nat.le_refl _)) from rfl,
    scrAt_even V c cfg0.N _ (by rw [show cfg0.N = 48 from N_0]), scopedRest0_split]
  iintro ⟨Hg, HR, HS⟩
  isplitl [Hg]; · iexact Hg
  isplitl [HS]; · iexact HS
  iexact HR

end Cert.KernelIdeal.Hand
-- ==== Proof.Reg1.lean ====
import proofs.«181592_j54889682043438_2_alg».proof.Proof.Gen.KernelIdeal.Launch
import proofs.«181592_j54889682043438_2_alg».proof.Proof.Gen.KernelIdeal.Skeleton
import proofs.«181592_j54889682043438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a parameter
variable (V : (c : Dev nD) → (b : Ref sig .tc) → Buf (Elt F) ((c : Thread nD τ).loc b))

/-! # The attention call (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key/value window's current staging buffer holds its block at every point, fetched there or not (it is
    fetched when the head changes; in between the block index does not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev r1_0 : Rect S1x1x512x192 := Rect.unit (s := S1x1x512x192) ![0, 0, 0, 0] S1x1x512x192.size inb_S1x1x512x192_S1x1x512x192_0_0_0_0
abbrev r1_1 : Rect S1x1x2048x192 := Rect.unit (s := S1x1x2048x192) ![0, 0, 0, 0] S1x1x2048x192.size inb_S1x1x2048x192_S1x1x2048x192_0_0_0_0
abbrev r1_2 : Rect S1x1x512x2048 := Rect.unit (s := S1x1x512x2048) ![0, 0, 0, 0] S1x1x512x2048.size inb_S1x1x512x2048_S1x1x512x2048_0_0_0_0
abbrev r1_3 : Rect S1x1x512x64 := Rect.unit (s := S1x1x512x64) ![0, 0, 0, 0] S1x1x512x64.size inb_S1x1x512x64_S1x1x512x64_0_0_0_0

/-! ## What the body leaves in each output window's buffer -/

/-- The probabilities' staging buffer after the body, from the two input blocks: its one whole store. -/
def out1_2 (x0 : Vec F S1x1x512x192 .bf16) (x1 : Vec F S1x1x2048x192 .bf16) : Vec F S1x1x512x2048 .f32 :=
  View.canon [⟨r1_2, k1_pay3 (View.ld x0 r1_0) (View.ld x1 r1_1)⟩]

/-- The weighted sums' staging buffer after the body, from the two input blocks: its one whole store. -/
def out1_3 (x0 : Vec F S1x1x512x192 .bf16) (x1 : Vec F S1x1x2048x192 .bf16) : Vec F S1x1x512x64 .bf16 :=
  View.canon [⟨r1_3, k1_pay4 (View.ld x0 r1_0) (View.ld x1 r1_1)⟩]

/-- The whole store covers the buffer. -/
theorem cover1_2 (p0 : Vec F S1x1x512x2048 .f32) (y : S1x1x512x2048.Idx) :
    ∃ pc ∈ ([⟨r1_2, p0⟩] : List (View.Piece (Elt F) S1x1x512x2048 .f32)), y ∈ pc.1.set :=
  View.cover_of_tiled [⟨r1_2, p0⟩] S1x1x512x2048.size (by rfl) y

theorem cover1_3 (p0 : Vec F S1x1x512x64 .bf16) (y : S1x1x512x64.Idx) :
    ∃ pc ∈ ([⟨r1_3, p0⟩] : List (View.Piece (Elt F) S1x1x512x64 .bf16)), y ∈ pc.1.set :=
  View.cover_of_tiled [⟨r1_3, p0⟩] S1x1x512x64.size (by rfl) y

/-! ## The body's triple -/

set_option maxHeartbeats 1000000 in
/-- The kernel body on whole staging memrefs, the inputs' at read contents and the outputs' at anything, runs to the
    continuation holding the inputs' as they were and each output's at its whole store of the inputs' payload. -/
theorem sound_kernel1 (c : Dev nD) (E : Set ℕ) (i : grid1.Coords)
    (arg3 : Memref sig .tc .vmem S1x1x512x192 .bf16) (harg3 : arg3.IsWhole)
    (arg4 : Memref sig .tc .vmem S1x1x2048x192 .bf16) (harg4 : arg4.IsWhole)
    (arg5 : Memref sig .tc .vmem S1x1x512x2048 .f32) (harg5 : arg5.IsWhole)
    (arg6 : Memref sig .tc .vmem S1x1x512x64 .bf16) (harg6 : arg6.IsWhole)
    (x0 : Vec F S1x1x512x192 .bf16) (x1 : Vec F S1x1x2048x192 .bf16) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out1_2 x0 x1) ∗ owns (c : Thread nD τ) arg6 fullShare (out1_3 x0 x1)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and each output's at its whole store of the input blocks' payload; the
    invariant the scoped rest and the generator register, untouched; nothing owed. The two input windows read ONE
    array, so each holds it at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- The shares the arrays are held at: the shared input array split in two halves, the outputs whole. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Entering: the generator register and the scoped rest are the invariant. -/
theorem hin1 (c : Dev nD) : (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp

/-- Leaving: the invariant gives them back. -/
theorem hout1 (c : Dev nD) : (dat1 V c).Φ (Fin.last cfg1.N) ⊢ (iprop((∃ r, prngReg c r) ∗ Pipeline.scopedRest spec1 c) : sProp 𝕄) := by
  rw [show (dat1 V c).Φ (Fin.last _) = Pipeline.ΦA spec1 c from rfl]; unfold Pipeline.ΦA
  iintro ⟨Hr, Hp⟩
  isplitl [Hp]; · iexact Hp
  iexact Hr

end Cert.KernelIdeal.Hand
end
-- ==== Proof.Reg2.lean ====
import proofs.«181592_j54889682043438_2_alg».proof.Proof.Gen.KernelIdeal.Launch
import proofs.«181592_j54889682043438_2_alg».proof.Proof.Gen.KernelIdeal.Skeleton
import proofs.«181592_j54889682043438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # The output projection (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window holds its block at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window holds its block (the whole array) at every point, though it is fetched at the first
    point only: the block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

-- head `h`'s slab of the activations' block, and of the weights
abbrev ra0 : Rect S1x16x512x64 := Rect.unit (s := S1x16x512x64) ![0, 0, 0, 0] S1x1x512x64.size inb_S1x16x512x64_S1x1x512x64_0_0_0_0
abbrev ra1 : Rect S1x16x512x64 := Rect.unit (s := S1x16x512x64) ![0, 1, 0, 0] S1x1x512x64.size inb_S1x16x512x64_S1x1x512x64_0_1_0_0
abbrev ra2 : Rect S1x16x512x64 := Rect.unit (s := S1x16x512x64) ![0, 2, 0, 0] S1x1x512x64.size inb_S1x16x512x64_S1x1x512x64_0_2_0_0
abbrev ra3 : Rect S1x16x512x64 := Rect.unit (s := S1x16x512x64) ![0, 3, 0, 0] S1x1x512x64.size inb_S1x16x512x64_S1x1x512x64_0_3_0_0
abbrev ra4 : Rect S1x16x512x64 := Rect.unit (s := S1x16x512x64) ![0, 4, 0, 0] S1x1x512x64.size inb_S1x16x512x64_S1x1x512x64_0_4_0_0
abbrev ra5 : Rect S1x16x512x64 := Rect.unit (s := S1x16x512x64) ![0, 5, 0, 0] S1x1x512x64.size inb_S1x16x512x64_S1x1x512x64_0_5_0_0
abbrev ra6 : Rect S1x16x512x64 := Rect.unit (s := S1x16x512x64) ![0, 6, 0, 0] S1x1x512x64.size inb_S1x16x512x64_S1x1x512x64_0_6_0_0
abbrev ra7 : Rect S1x16x512x64 := Rect.unit (s := S1x16x512x64) ![0, 7, 0, 0] S1x1x512x64.size inb_S1x16x512x64_S1x1x512x64_0_7_0_0
abbrev ra8 : Rect S1x16x512x64 := Rect.unit (s := S1x16x512x64) ![0, 8, 0, 0] S1x1x512x64.size inb_S1x16x512x64_S1x1x512x64_0_8_0_0
abbrev ra9 : Rect S1x16x512x64 := Rect.unit (s := S1x16x512x64) ![0, 9, 0, 0] S1x1x512x64.size inb_S1x16x512x64_S1x1x512x64_0_9_0_0
abbrev ra10 : Rect S1x16x512x64 := Rect.unit (s := S1x16x512x64) ![0, 10, 0, 0] S1x1x512x64.size inb_S1x16x512x64_S1x1x512x64_0_10_0_0
abbrev ra11 : Rect S1x16x512x64 := Rect.unit (s := S1x16x512x64) ![0, 11, 0, 0] S1x1x512x64.size inb_S1x16x512x64_S1x1x512x64_0_11_0_0
abbrev ra12 : Rect S1x16x512x64 := Rect.unit (s := S1x16x512x64) ![0, 12, 0, 0] S1x1x512x64.size inb_S1x16x512x64_S1x1x512x64_0_12_0_0
abbrev ra13 : Rect S1x16x512x64 := Rect.unit (s := S1x16x512x64) ![0, 13, 0, 0] S1x1x512x64.size inb_S1x16x512x64_S1x1x512x64_0_13_0_0
abbrev ra14 : Rect S1x16x512x64 := Rect.unit (s := S1x16x512x64) ![0, 14, 0, 0] S1x1x512x64.size inb_S1x16x512x64_S1x1x512x64_0_14_0_0
abbrev ra15 : Rect S1x16x512x64 := Rect.unit (s := S1x16x512x64) ![0, 15, 0, 0] S1x1x512x64.size inb_S1x16x512x64_S1x1x512x64_0_15_0_0
abbrev rb0 : Rect S16x64x1024 := Rect.unit (s := S16x64x1024) ![0, 0, 0] S1x64x1024.size inb_S16x64x1024_S1x64x1024_0_0_0
abbrev rb1 : Rect S16x64x1024 := Rect.unit (s := S16x64x1024) ![1, 0, 0] S1x64x1024.size inb_S16x64x1024_S1x64x1024_1_0_0
abbrev rb2 : Rect S16x64x1024 := Rect.unit (s := S16x64x1024) ![2, 0, 0] S1x64x1024.size inb_S16x64x1024_S1x64x1024_2_0_0
abbrev rb3 : Rect S16x64x1024 := Rect.unit (s := S16x64x1024) ![3, 0, 0] S1x64x1024.size inb_S16x64x1024_S1x64x1024_3_0_0
abbrev rb4 : Rect S16x64x1024 := Rect.unit (s := S16x64x1024) ![4, 0, 0] S1x64x1024.size inb_S16x64x1024_S1x64x1024_4_0_0
abbrev rb5 : Rect S16x64x1024 := Rect.unit (s := S16x64x1024) ![5, 0, 0] S1x64x1024.size inb_S16x64x1024_S1x64x1024_5_0_0
abbrev rb6 : Rect S16x64x1024 := Rect.unit (s := S16x64x1024) ![6, 0, 0] S1x64x1024.size inb_S16x64x1024_S1x64x1024_6_0_0
abbrev rb7 : Rect S16x64x1024 := Rect.unit (s := S16x64x1024) ![7, 0, 0] S1x64x1024.size inb_S16x64x1024_S1x64x1024_7_0_0
abbrev rb8 : Rect S16x64x1024 := Rect.unit (s := S16x64x1024) ![8, 0, 0] S1x64x1024.size inb_S16x64x1024_S1x64x1024_8_0_0
abbrev rb9 : Rect S16x64x1024 := Rect.unit (s := S16x64x1024) ![9, 0, 0] S1x64x1024.size inb_S16x64x1024_S1x64x1024_9_0_0
abbrev rb10 : Rect S16x64x1024 := Rect.unit (s := S16x64x1024) ![10, 0, 0] S1x64x1024.size inb_S16x64x1024_S1x64x1024_10_0_0
abbrev rb11 : Rect S16x64x1024 := Rect.unit (s := S16x64x1024) ![11, 0, 0] S1x64x1024.size inb_S16x64x1024_S1x64x1024_11_0_0
abbrev rb12 : Rect S16x64x1024 := Rect.unit (s := S16x64x1024) ![12, 0, 0] S1x64x1024.size inb_S16x64x1024_S1x64x1024_12_0_0
abbrev rb13 : Rect S16x64x1024 := Rect.unit (s := S16x64x1024) ![13, 0, 0] S1x64x1024.size inb_S16x64x1024_S1x64x1024_13_0_0
abbrev rb14 : Rect S16x64x1024 := Rect.unit (s := S16x64x1024) ![14, 0, 0] S1x64x1024.size inb_S16x64x1024_S1x64x1024_14_0_0
abbrev rb15 : Rect S16x64x1024 := Rect.unit (s := S16x64x1024) ![15, 0, 0] S1x64x1024.size inb_S16x64x1024_S1x64x1024_15_0_0
abbrev ro : Rect S1x512x1024 := Rect.unit (s := S1x512x1024) ![0, 0, 0] S1x512x1024.size inb_S1x512x1024_S1x512x1024_0_0_0

/-! ## What the body leaves in the output window's buffer -/

/-- The output window's staging buffer after the body, from the two input blocks: its one whole store, whose
    payload is the sum over the sixteen heads of the head's slab of activations times the head's slab of
    weights, accumulated four heads at a time. -/
def out2_2 (x0 : Vec F S1x16x512x64 .bf16) (x1 : Vec F S16x64x1024 .bf16) : Vec F S1x512x1024 .f32 :=
  View.canon [⟨ro, k2_pay1
    (k2_pay4
      (k2_pay3
        (k2_pay2 (View.ld x0 ra0) (View.ld x1 rb0) (View.ld x0 ra1) (View.ld x1 rb1) (View.ld x0 ra2) (View.ld x1 rb2) (View.ld x0 ra3) (View.ld x1 rb3))
        (View.ld x0 ra4) (View.ld x1 rb4) (View.ld x0 ra5) (View.ld x1 rb5) (View.ld x0 ra6) (View.ld x1 rb6) (View.ld x0 ra7) (View.ld x1 rb7))
      (View.ld x0 ra8) (View.ld x1 rb8) (View.ld x0 ra9) (View.ld x1 rb9) (View.ld x0 ra10) (View.ld x1 rb10) (View.ld x0 ra11) (View.ld x1 rb11))
    (k2_pay5 (View.ld x0 ra12)) (View.ld x1 rb12)
    (View.ld x0 ra13) (View.ld x1 rb13) (View.ld x0 ra14) (View.ld x1 rb14) (View.ld x0 ra15) (View.ld x1 rb15)⟩]

/-- Its store is the whole buffer, so it covers it. -/
theorem cover2_2 (p0 : Vec F S1x512x1024 .f32) (y : S1x512x1024.Idx) :
    ∃ pc ∈ ([⟨ro, p0⟩] : List (View.Piece (Elt F) S1x512x1024 .f32)), y ∈ pc.1.set :=
  View.cover_of_tiled [⟨ro, p0⟩] S1x512x1024.size (by rfl) y

/-! ## The body's triple -/

set_option maxHeartbeats 4000000 in
/-- The kernel body on whole staging memrefs, the inputs' at read contents and the output's at anything, runs to
    the continuation holding the inputs' as they were and the output's at `out2_2` of the inputs'. -/
theorem sound_kernel2 (c : Dev nD) (E : Set ℕ) (i : grid2.Coords) (arg2 : Memref sig .tc .vmem S1x16x512x64 .bf16) (harg2 : arg2.IsWhole) (arg3 : Memref sig .tc .vmem S16x64x1024 .bf16) (harg3 : arg3.IsWhole) (arg4 : Memref sig .tc .vmem S1x512x1024 .f32) (harg4 : arg4.IsWhole)
    (x0 : Vec F S1x16x512x64 .bf16) (x1 : Vec F S16x64x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__outproj_kernel i arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out -/

theorem hin2 (c : Dev nD) : (iprop((∃ r, prngReg c r) ∗ Pipeline.scopedRest spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp

theorem hout2 (c : Dev nD) : (dat2 V c).Φ (Fin.last cfg2.N) ⊢ (iprop((∃ r, prngReg c r) ∗ Pipeline.scopedRest spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand
end
-- ==== Proof.Run.lean ====
import proofs.«181592_j54889682043438_2_alg».proof.Proof.Reg0
import proofs.«181592_j54889682043438_2_alg».proof.Proof.Reg1
import proofs.«181592_j54889682043438_2_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main as three kernel regions among four stretches of host operations

## The buffer contents at each boundary, a fold from the launch memory -/

/-- Core `c`'s buffers at launch. -/
abbrev W0 : Dev nD → Valuation τ sig (Elt F) := fun c b => (s₀ m ρ).mem ((c : Dev nD), b)
/-- After the first stretch (the casts, the transposed weight, the flattened rows): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its output array at what its write-backs leave, every other buffer as entered. -/
def W2 (c : Dev nD) : Valuation τ sig (Elt F) :=
  Function.update (W1 m ρ c) main_v4 ((dat0 (V1 m ρ) c).arrAt 2 cfg0.N)
abbrev V2 : (c : Dev nD) → (b : Ref sig .tc) → Buf (Elt F) ((c : Thread nD τ).loc b) := fun c b => W2 m ρ c b
/-- After the second stretch (the per-head layout): the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its two output arrays at what its write-backs leave. -/
def W4 (c : Dev nD) : Valuation τ sig (Elt F) :=
  Function.update (Function.update (W3 m ρ c) main_v7_0 ((dat1 (V3 m ρ) c).arrAt 2 cfg1.N)) main_v7_1 ((dat1 (V3 m ρ) c).arrAt 3 cfg1.N)
abbrev V4 : (c : Dev nD) → (b : Ref sig .tc) → Buf (Elt F) ((c : Thread nD τ).loc b) := fun c b => W4 m ρ c b
/-- After the third stretch (the output weight transposed and split by head): the last region's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output-projection region. -/
def W6 (c : Dev nD) : Valuation τ sig (Elt F) :=
  Function.update (W5 m ρ c) main_v11 ((dat2 (V5 m ρ) c).arrAt 2 cfg2.N)
abbrev V6 : (c : Dev nD) → (b : Ref sig .tc) → Buf (Elt F) ((c : Thread nD τ).loc b) := fun c b => W6 m ρ c b

theorem W2_out (c : Dev nD) : W2 m ρ c main_v4 = (dat0 (V1 m ρ) c).arrAt 2 cfg0.N := by
  unfold W2; exact Function.update_self ..
theorem W2_of_ne (c : Dev nD) (b : Ref sig .tc) (hb : b ≠ main_v4) : W2 m ρ c b = W1 m ρ c b := by
  unfold W2; exact Function.update_of_ne (StableHlo.devRef_ne_of_ne hb) ..
theorem W4_out0 (c : Dev nD) : W4 m ρ c main_v7_0 = (dat1 (V3 m ρ) c).arrAt 2 cfg1.N := by
  unfold W4
  rw [Function.update_of_ne (StableHlo.devRef_ne_of_ne (by decide : (main_v7_0 : Ref sig .tc) ≠ main_v7_1))]
  exact Function.update_self ..
theorem W4_out1 (c : Dev nD) : W4 m ρ c main_v7_1 = (dat1 (V3 m ρ) c).arrAt 3 cfg1.N := by
  unfold W4; exact Function.update_self ..
theorem W4_of_ne (c : Dev nD) (b : Ref sig .tc) (hb0 : b ≠ main_v7_0) (hb1 : b ≠ main_v7_1) : W4 m ρ c b = W3 m ρ c b := by
  unfold W4
  rw [Function.update_of_ne (StableHlo.devRef_ne_of_ne hb1), Function.update_of_ne (StableHlo.devRef_ne_of_ne hb0)]
theorem W6_out (c : Dev nD) : W6 m ρ c main_v11 = (dat2 (V5 m ρ) c).arrAt 2 cfg2.N := by
  unfold W6; exact Function.update_self ..
theorem W6_of_ne (c : Dev nD) (b : Ref sig .tc) (hb : b ≠ main_v11) : W6 m ρ c b = W5 m ρ c b := by
  unfold W6; exact Function.update_of_ne (StableHlo.devRef_ne_of_ne hb) ..

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W6 m ρ c) ∗ ∃ r, prngReg c r)

/-! ## The regions as segments -/

theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq0 (V1 m ρ) c 0)).trans (W2_of_ne m ρ c main_v3 (by decide)).symm
  | ⟨1, _⟩ => (((dat0 (V1 m ρ) c).arrAt_in 1 rfl _).trans (A_eq0 (V1 m ρ) c 1)).trans (W2_of_ne m ρ c main_v2 (by decide)).symm
  | ⟨2, _⟩ => (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    iintro ⟨Hp, -, Hr⟩
    isplitl [Hp]; · iexact Hp
    iexact Hr
  hout c := by
    rw [Pipeline.ownSems0_none]
    refine (hout0 (V1 m ρ) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (V5 m ρ) c).arrAt w cfg2.N = V6 m ρ c (Pipeline.arrRef spec2 w) :=
  match w with
  | ⟨0, _⟩ => (((dat2 (V5 m ρ) c).arrAt_in 0 rfl _).trans (A_eq2 (V5 m ρ) c 0)).trans (W6_of_ne m ρ c main_v7_1 (by decide)).symm
  | ⟨1, _⟩ => (((dat2 (V5 m ρ) c).arrAt_in 1 rfl _).trans (A_eq2 (V5 m ρ) c 1)).trans (W6_of_ne m ρ c main_v10 (by decide)).symm
  | ⟨2, _⟩ => (W6_out m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨2, Finset.mem_univ _, e.symm⟩)

set_option backward.isDefEq.respectTransparency.types false in
/-- The output-projection region over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    iintro ⟨Hp, -, Hr⟩
    isplitl [Hp]; · iexact Hp
    iexact Hr
  hout c := by
    rw [Pipeline.ownSems0_none]
    refine (hout2 (V5 m ρ) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### The attention region: its two input windows read ONE array, each at half the share -/

/-- The buffers behind the attention region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7_0) ↦{fullShare} V main_v7_0)
          ∗ (((c : Thread nD τ).loc main_v7_1) ↦{fullShare} V main_v7_1)) := by
  unfold Pipeline.arrBufs
  exact bigSep_eq_bigSepL_of_eq [main_v6, main_v7_0, main_v7_1] (by decide) (by decide) _

/-- The region's arrays at contents `A`, window by window: the shared array at the two halves of the full share. -/
theorem arrays1_eq (c : Dev nD) (Vd : (c : Dev nD) → (b : Ref sig .tc) → Buf (Elt F) ((c : Thread nD τ).loc b))
    (A : (w : Fin cfg1.W) → Buf (Elt F) ((cfg1.win w).arr.view.loc (c : Thread nD τ))) :
    ((dat1 Vd c).arrays A : sProp 𝕄)
      = iprop((((c : Thread nD τ).loc main_v6) ↦{fullShare.left} A 0) ∗ (((c : Thread nD τ).loc main_v6) ↦{fullShare.right} A 1)
          ∗ (((c : Thread nD τ).loc main_v7_0) ↦{fullShare} A 2) ∗ (((c : Thread nD τ).loc main_v7_1) ↦{fullShare} A 3)) := by
  unfold Pipeline.Dat.arrays
  rw [bigSep_W1, share1_0, share1_1, share1_2, share1_3, (arr_whole1 0).set_eq_univ,
    (arr_whole1 2).set_eq_univ, (arr_whole1 3).set_eq_univ]

theorem W4_in (c : Dev nD) : W4 m ρ c main_v6 = W3 m ρ c main_v6 := W4_of_ne m ρ c main_v6 (by decide) (by decide)

set_option backward.isDefEq.respectTransparency.types false in
/-- The attention region over the thread state: entered from every unscoped buffer at `W3`, left at `W4`. The array
    behind its two input windows is split in two halves of the full share at the entry and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (StableHlo.held (c : Thread nD τ) (Pipeline.ucRefs τ sig) (W3 m ρ c) : sProp 𝕄)
        ⊢ iprop(Pipeline.arrBufs (Ix := Unit) (Name := ℕ) (U := UR sig nD τ) (Lvl := ℕ) spec1 c (V3 m ρ c)
            ∗ Pipeline.unscopedRest (Ix := Unit) (Name := ℕ) (U := UR sig nD τ) (Lvl := ℕ) spec1 c (V3 m ρ c)) := by
      rw [← Pipeline.unscopedBufs_held (Ix := Unit) (Name := ℕ) (U := UR sig nD τ) (Lvl := ℕ) c (W3 m ρ c)]
      exact Entails.of_eq (Pipeline.unscopedBufs_split₀ (Pipeline.pin (pcfgs (F := F)) adm) 1 winFacts₀1.arr_unscoped c (V3 m ρ c))
    rw [show ((pdats m ρ 1 c).arrays ((pdats m ρ 1 c).arrAt · 0) : sProp 𝕄)
        = (dat1 (V3 m ρ) c).arrays (fun w => V3 m ρ c (Pipeline.arrRef spec1 w)) from
      congrArg _ (funext fun w => A_eq1 (V3 m ρ) c w), arrays1_eq]
    rw [arrBufs1_eq] at hsplit
    iintro ⟨⟨Hub, Hp, HO⟩, -, -⟩
    ihave H := hsplit $$ Hub
    icases H with ⟨⟨H6, H70, H71⟩, Hrest⟩
    ihave H6' := (pointsTo_share (PosShare.mem_left_op_right fullShare)).1 $$ H6
    icases H6' with ⟨H6l, H6r⟩
    imodintro
    isplitl [H6l H6r H70 H71]
    · isplitl [H6l]; · iexact H6l
      isplitl [H6r]; · iexact H6r
      isplitl [H70]; · iexact H70
      iexact H71
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    iintro ⟨Hp, -, Hr⟩
    isplitl [Hp]; · iexact Hp
    iexact Hr
  hout c := by
    rw [Pipeline.ownSems0_none]
    refine (hout1 (V3 m ρ) c).trans ?_
    iintro ⟨Hp, Hr⟩
    isplitl [Hp]; · iexact Hp
    isplitr; · iempintro
    iexact Hr
  hexit c := by
    have e0 : (dat1 (V3 m ρ) c).arrAt 0 cfg1.N = V3 m ρ c main_v6 :=
      ((dat1 (V3 m ρ) c).arrAt_in 0 rfl _).trans (A_eq1 (V3 m ρ) c 0)
    have e1 : (dat1 (V3 m ρ) c).arrAt 1 cfg1.N = V3 m ρ c main_v6 :=
      ((dat1 (V3 m ρ) c).arrAt_in 1 rfl _).trans (A_eq1 (V3 m ρ) c 1)
    have hrestEq : (Pipeline.unscopedRest (Ix := Unit) (Name := ℕ) (U := UR sig nD τ) (Lvl := ℕ) spec1 c (V4 m ρ c) : sProp 𝕄)
        = Pipeline.unscopedRest (Ix := Unit) (Name := ℕ) (U := UR sig nD τ) (Lvl := ℕ) spec1 c (V3 m ρ c) := by
      unfold Pipeline.unscopedRest
      exact bigSep_congr fun b hb => by
        rw [show V4 m ρ c b = V3 m ρ c b from W4_of_ne m ρ c b
          (fun e => (Finset.mem_sdiff.mp hb).2 (Finset.mem_image.mpr ⟨2, Finset.mem_univ _, e.symm⟩))
          (fun e => (Finset.mem_sdiff.mp hb).2 (Finset.mem_image.mpr ⟨3, Finset.mem_univ _, e.symm⟩))]
    have hjoin : (iprop((((c : Thread nD τ).loc main_v6) ↦{fullShare} V3 m ρ c main_v6)
          ∗ (((c : Thread nD τ).loc main_v7_0) ↦{fullShare} (dat1 (V3 m ρ) c).arrAt 2 cfg1.N)
          ∗ (((c : Thread nD τ).loc main_v7_1) ↦{fullShare} (dat1 (V3 m ρ) c).arrAt 3 cfg1.N)
          ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ c) := by
      have hsp : (unscopedBufs (Ix := Unit) (Name := ℕ) (U := UR sig nD τ) (Lvl := ℕ) c (V4 m ρ c) : sProp 𝕄)
          = iprop(Pipeline.arrBufs (Ix := Unit) (Name := ℕ) (U := UR sig nD τ) (Lvl := ℕ) spec1 c (V4 m ρ c)
              ∗ Pipeline.unscopedRest (Ix := Unit) (Name := ℕ) (U := UR sig nD τ) (Lvl := ℕ) spec1 c (V4 m ρ c)) :=
        Pipeline.unscopedBufs_split₀ (Pipeline.pin (pcfgs (F := F)) adm) 1 winFacts₀1.arr_unscoped c (V4 m ρ c)
      rw [← Pipeline.unscopedBufs_held (Ix := Unit) (Name := ℕ) (U := UR sig nD τ) (Lvl := ℕ) c (W4 m ρ c), hsp, arrBufs1_eq, hrestEq,
        show V4 m ρ c main_v6 = V3 m ρ c main_v6 from W4_in m ρ c,
        show V4 m ρ c main_v7_0 = (dat1 (V3 m ρ) c).arrAt 2 cfg1.N from W4_out0 m ρ c,
        show V4 m ρ c main_v7_1 = (dat1 (V3 m ρ) c).arrAt 3 cfg1.N from W4_out1 m ρ c]
      iintro ⟨H6, H70, H71, Hr⟩
      isplitr [Hr]
      · isplitl [H6]; · iexact H6
        isplitl [H70]; · iexact H70
        iexact H71
      iexact Hr
    rw [show ((pdats m ρ 1 c).arrays ((pdats m ρ 1 c).arrAt · (Pipeline.pin (pcfgs (F := F)) adm 1).N) : sProp 𝕄)
        = (dat1 (V3 m ρ) c).arrays (fun w => (dat1 (V3 m ρ) c).arrAt w cfg1.N) from rfl, arrays1_eq]
    dsimp only
    rw [e0, e1]
    iintro ⟨⟨H6l, H6r, H70, H71⟩, HO, HY, Hrest⟩
    ihave H6 := (pointsTo_share (PosShare.mem_left_op_right fullShare)).2 $$ [H6l H6r]
    · isplitl [H6l]; · iexact H6l
      iexact H6r
    imodintro
    isplitl [H6 H70 H71 Hrest]
    · iapply hjoin
      isplitl [H6]; · iexact H6
      isplitl [H70]; · iexact H70
      isplitl [H71]; · iexact H71
      iexact Hrest
    isplitl [HY]; · iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

/-- @main's six segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final memory holds every unscoped buffer at the last boundary's contents `W6`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The arguments end as launched -/

theorem keep0 (W : Valuation τ sig (Elt F)) (b : Ref sig .tc) (h0 : b ≠ main_v0) (h1 : b ≠ main_v1) (h2 : b ≠ main_v2) (h3 : b ≠ main_v3) :
    StableHlo.after hostOps0 W b = W b :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
theorem keep1 (W : Valuation τ sig (Elt F)) (b : Ref sig .tc) (h0 : b ≠ main_v5) (h1 : b ≠ main_v6) :
    StableHlo.after hostOps1 W b = W b :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))
theorem keep2 (W : Valuation τ sig (Elt F)) (b : Ref sig .tc) (h0 : b ≠ main_v8) (h1 : b ≠ main_v9) (h2 : b ≠ main_v10) :
    StableHlo.after hostOps2 W b = W b :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1, StableHlo.devRef_ne_of_ne h2⟩))

/-- A buffer that no stretch writes and no region changes reaches the end as launched. -/
theorem W6_arg (c : Dev nD) (b : Ref sig .tc) (hb : b = main_arg0 ∨ b = main_arg1 ∨ b = main_arg2) :
    W6 m ρ c b = m ((c : Thread nD τ).loc b) := by
  have hne : b ≠ main_v0 ∧ b ≠ main_v1 ∧ b ≠ main_v2 ∧ b ≠ main_v3 ∧ b ≠ main_v4 ∧ b ≠ main_v5 ∧ b ≠ main_v6 ∧ b ≠ main_v7_0
      ∧ b ≠ main_v7_1 ∧ b ≠ main_v8 ∧ b ≠ main_v9 ∧ b ≠ main_v10 ∧ b ≠ main_v11 := by
    rcases hb with rfl | rfl | rfl <;> decide
  obtain ⟨n0, n1, n2, n3, n4, n5, n6, n70, n71, n8, n9, n10, n11⟩ := hne
  calc W6 m ρ c b
    _ = W5 m ρ c b := W6_of_ne m ρ c b n11
    _ = W4 m ρ c b := keep2 _ b n8 n9 n10
    _ = W3 m ρ c b := W4_of_ne m ρ c b n70 n71
    _ = W2 m ρ c b := keep1 _ b n5 n6
    _ = W1 m ρ c b := W2_of_ne m ρ c b n4
    _ = W0 m ρ c b := keep0 _ b n0 n1 n2 n3
    _ = m ((c : Thread nD τ).loc b) := rfl

/-- THE FRAME: every weakly fair execution of @main terminates, nothing faulting, and the three argument arrays end as
    launched — at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_arg m ρ c main_arg0 (.inl rfl)),
     (h c _ (mem_uc main_arg1 (by decide))).trans (W6_arg m ρ c main_arg1 (.inr (.inl rfl))),
     (h c _ (mem_uc main_arg2 (by decide))).trans (W6_arg m ρ c main_arg2 (.inr (.inr rfl)))⟩)
    (run m ρ)

end Cert.KernelIdeal.Hand

end
-- ==== Proof.Spec.lean ====
/-
  The function both programs compute at the exact instance (extended reals), in three layers that follow the data flow:

    mm a b [r,o]        = Σ_k a[r,k] · b[k,o]                                   (the fused projection on flattened rows)
    per-head layout g[b,h,s,e], e = p·64 + d for part p ∈ {query, key, value} and lane d:
    score g [b,h,q,k]   = (Σ_d g[b,h,q,d] · g[b,h,k,64+d]) · 1/8
    rowmax g [b,h,q]    = max over k of score            (a fold of max from -∞)
    pexp = exp(score − rowmax),  denom = Σ_k pexp,  attn = pexp / denom          (the soft-max over keys)
    aoArr g [b,h,q,d]   = Σ_k attn[b,h,q,k] · g[b,h,k,128+d]
    proj a w [b,s,o]    = Σ_h Σ_d a[b,h,s,d] · w[h,d,o]                          (heads summed into the output projection)

  and the two arrays the layers are applied to, from the arguments x[4,2048,1024], Wqkv[3072,1024], Wo[1024,1024]:

    headQKV x Wqkv [b,h,s,e] = Σ_c x[b,s,c] · Wqkv[h·192+e, c],      headWo Wo [h,d,o] = Wo[o, h·64+d].

  The results are  proj (aoArr (headQKV x Wqkv)) (headWo Wo)  and  attnArr (headQKV x Wqkv).
-/
import Idealize.ShloMosaic.PureOps.Ideal
import Idealize.ShloMosaic.Lib.ValueIdx

noncomputable section

namespace Cert.Attn

open Idealize.ShloMosaic Idealize.ShloMosaic.ValueIdx

abbrev TX : Shape := ⟨3, ![4, 2048, 1024]⟩
abbrev TWq : Shape := ⟨2, ![3072, 1024]⟩
abbrev TWo : Shape := ⟨2, ![1024, 1024]⟩
abbrev TA : Shape := ⟨2, ![8192, 1024]⟩
abbrev TB : Shape := ⟨2, ![1024, 3072]⟩
abbrev TC : Shape := ⟨2, ![8192, 3072]⟩
abbrev TG : Shape := ⟨4, ![4, 16, 2048, 192]⟩
abbrev TP : Shape := ⟨4, ![4, 16, 2048, 2048]⟩
abbrev TO : Shape := ⟨4, ![4, 16, 2048, 64]⟩
abbrev TW : Shape := ⟨3, ![16, 64, 1024]⟩

/-- The scale 1/√64 as the kernel spells it: the f32 word of 0.125. -/
def scale : EReal := Ideal.ofBits .f32 0x3E000000#32

/-- −∞, the word the row maximum starts from. -/
def negInf : EReal := Ideal.ofBits .f32 0xFF800000#32

/-- Lane `d` of part `p` (0 = query, 1 = key, 2 = value) inside a head's 192 columns. -/
def lane (p : Fin 3) (d : Fin 64) : Fin 192 := ⟨p.val * 64 + d.val, by omega⟩

/-- The column of the fused projection behind head `h`, position `e`; the concatenated column behind head `h`, lane `d`. -/
def colOf (h : Fin 16) (e : Fin 192) : Fin 3072 := ⟨h.val * 192 + e.val, by omega⟩
def catOf (h : Fin 16) (d : Fin 64) : Fin 1024 := ⟨h.val * 64 + d.val, by omega⟩

/-! ## Layer 0: the projection on flattened rows -/

def mm (a : TA.Idx → EReal) (b : TB.Idx → EReal) : TC.Idx → EReal :=
  fun i => ∑ k : Fin 1024, a (ix2 (i 0) k) * b (ix2 k (i 1))

theorem mm_apply (a : TA.Idx → EReal) (b : TB.Idx → EReal) (r : Fin 8192) (o : Fin 3072) :
    mm a b (ix2 r o) = ∑ k : Fin 1024, a (ix2 r k) * b (ix2 k o) := rfl

/-! ## Layer 1: attention inside one head, over the per-head layout -/

section
variable (g : TG.Idx → EReal)

def score (b : Fin 4) (h : Fin 16) (q k : Fin 2048) : EReal :=
  (∑ d : Fin 64, g (ix4 b h q (lane 0 d)) * g (ix4 b h k (lane 1 d))) * scale

def rowmax (b : Fin 4) (h : Fin 16) (q : Fin 2048) : EReal :=
  Finset.univ.fold max negInf (fun k : Fin 2048 => score g b h q k)

def pexp (b : Fin 4) (h : Fin 16) (q k : Fin 2048) : EReal :=
  Ideal.exp (score g b h q k - rowmax g b h q)

def denom (b : Fin 4) (h : Fin 16) (q : Fin 2048) : EReal :=
  ∑ k : Fin 2048, pexp g b h q k

def attn (b : Fin 4) (h : Fin 16) (q k : Fin 2048) : EReal :=
  Ideal.div (pexp g b h q k) (denom g b h q)

def attnArr : TP.Idx → EReal := fun i => attn g (i 0) (i 1) (i 2) (i 3)

def aoArr : TO.Idx → EReal :=
  fun i => ∑ k : Fin 2048, attn g (i 0) (i 1) (i 2) k * g (ix4 (i 0) (i 1) k (lane 2 (i 3)))

theorem attnArr_apply (b : Fin 4) (h : Fin 16) (q k : Fin 2048) : attnArr g (ix4 b h q k) = attn g b h q k := rfl

theorem aoArr_apply (b : Fin 4) (h : Fin 16) (q : Fin 2048) (d : Fin 64) :
    aoArr g (ix4 b h q d) = ∑ k : Fin 2048, attn g b h q k * g (ix4 b h k (lane 2 d)) := rfl

end

/-! ## Layer 2: the output projection, the heads summed -/

def proj (a : TO.Idx → EReal) (w : TW.Idx → EReal) : TX.Idx → EReal :=
  fun i => ∑ h : Fin 16, ∑ d : Fin 64, a (ix4 (i 0) h (i 1) d) * w (ix3 h d (i 2))

theorem proj_apply (a : TO.Idx → EReal) (w : TW.Idx → EReal) (b : Fin 4) (s : Fin 2048) (o : Fin 1024) :
    proj a w (ix3 b s o) = ∑ h : Fin 16, ∑ d : Fin 64, a (ix4 b h s d) * w (ix3 h d o) := rfl

/-! ## The arrays the layers are applied to -/

def headQKV (x : TX.Idx → EReal) (wq : TWq.Idx → EReal) : TG.Idx → EReal :=
  fun i => ∑ c : Fin 1024, x (ix3 (i 0) (i 2) c) * wq (ix2 (colOf (i 1) (i 3)) c)

theorem headQKV_apply (x : TX.Idx → EReal) (wq : TWq.Idx → EReal) (b : Fin 4) (h : Fin 16) (s : Fin 2048) (e : Fin 192) :
    headQKV x wq (ix4 b h s e) = ∑ c : Fin 1024, x (ix3 b s c) * wq (ix2 (colOf h e) c) := rfl

def headWo (wo : TWo.Idx → EReal) : TW.Idx → EReal :=
  fun i => wo (ix2 (i 2) (catOf (i 0) (i 1)))

theorem headWo_apply (wo : TWo.Idx → EReal) (h : Fin 16) (d : Fin 64) (o : Fin 1024) :
    headWo wo (ix3 h d o) = wo (ix2 o (catOf h d)) := rfl

/-- The two results. -/
def outArr (x : TX.Idx → EReal) (wq : TWq.Idx → EReal) (wo : TWo.Idx → EReal) : TX.Idx → EReal :=
  proj (aoArr (headQKV x wq)) (headWo wo)
def attnOut (x : TX.Idx → EReal) (wq : TWq.Idx → EReal) : TP.Idx → EReal :=
  attnArr (headQKV x wq)

end Cert.Attn

end
-- ==== Proof.Pay0.lean ====
/-
  The first region's three stored values, at the exact instance, read at an index: the zero array the accumulator starts
  from; one step of the K-blocked product, the accumulator plus Σ_k a[p,k] · b[k,q] over the block's 512 columns (a
  matrix product into a zero accumulator is the sum over its one contracted axis; a cast to the same shape is the
  identity); the result stored with its format changed, which is the identity on the extended reals. And the splitting of
  a sum over 1024 positions into its two halves, the two blocks of the contraction.
-/
import proofs.«181592_j54889682043438_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

namespace Pay0

/-- The matrix product's operand indices at an output index and a contraction position. -/
theorem mm0_l0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mm0_l1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem mm0_r0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem mm0_r1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A matrix product into the zero accumulator, at (p, q): the sum over the contracted axis of the products. -/
theorem mm0_apply (lhs : FVec Ideal S1024x512 .bf16) (rhs : FVec Ideal S512x1024 .bf16) (p : Fin 1024) (q : Fin 1024) :
    matmul dot_S1024x512_S512x1024_S1024x1024_1_0_0_1_n_n none lhs rhs (constant S1024x1024 .f32 0x00000000#32) (ix2 p q)
      = ∑ k : Fin 512, lhs (ix2 p k) * rhs (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact mm0_l0 _ _
    | ⟨1, _⟩ => exact (mm0_l1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (mm0_r0 _ _).trans hk
    | ⟨1, _⟩ => exact mm0_r1 _ _)
  rw [el, er]

end Pay0

/-- The accumulator's first value: the zero array. -/
theorem pay1_apply (j : S1024x1024.Idx) : (k0_pay1 (F := Ideal)) j = 0 := by
  unfold k0_pay1
  rw [shapeCast_self]
  exact Ideal.ofBits_zero_f32

/-- One step of the blocked product: the accumulator plus this block's products summed. -/
theorem pay2_apply (v3 : Vec Ideal S1024x512 .bf16) (v5 : Vec Ideal S512x1024 .bf16) (v7 : Vec Ideal S1024x1024 .f32)
    (p q : Fin 1024) :
    k0_pay2 v3 v5 v7 (ix2 p q) = v7 (ix2 p q) + ∑ k : Fin 512, v3 (ix2 p k) * v5 (ix2 k q) := by
  unfold k0_pay2
  rw [shapeCast_self, shapeCast_self, shapeCast_self]
  exact congrArg (v7 (ix2 p q) + ·) (Pay0.mm0_apply v3 v5 p q)

/-- The stored result: the accumulator, its format changed (the identity on the extended reals). -/
theorem pay3_apply (v16 : Vec Ideal S1024x1024 .f32) (j : S1024x1024.Idx) : k0_pay3 v16 j = v16 j := rfl

/-- A sum over 1024 positions is the sum over the first 512 plus the sum over the last 512. -/
theorem sum_split_half {M : Type*} [AddCommMonoid M] (f : Fin 1024 → M) :
    ∑ k : Fin 1024, f k = ∑ k : Fin 512, f ⟨k.val, by omega⟩ + ∑ k : Fin 512, f ⟨512 + k.val, by omega⟩ := by
  rw [show (∑ k : Fin 1024, f k) = ∑ k : Fin (512 + 512), f ⟨k.val, by omega⟩ from rfl, Fin.sum_univ_add]
  rfl

end Cert.KernelIdeal.Hand

end
-- ==== Proof.Val0.lean ====
import proofs.«181592_j54889682043438_2_alg».proof.Proof.Reg0
import proofs.«181592_j54889682043438_2_alg».proof.Proof.Spec
import proofs.«181592_j54889682043438_2_alg».proof.Proof.Pay0
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The blocked matrix product's array after the run, index by index -/

namespace Out0

/-! ## The stored value at an index -/

/-- The value an odd point stores, at row `p` and column `q` of its block, when the even point before it read the
    first half of the contraction (`hy0`, `hy1`) and the odd point reads the second half (`hx0`, `hx1`): the whole
    contraction of the arrays at the block's row and column. -/
theorem point_eq (A : Cert.Attn.TA.Idx → EReal) (B : Cert.Attn.TB.Idx → EReal)
    (x0 y0 : Vec Ideal S1024x512 .bf16) (x1 y1 : Vec Ideal S512x1024 .bf16)
    (R : Fin 1024 → Fin 8192) (O : Fin 1024 → Fin 3072)
    (hy0 : ∀ (p : Fin 1024) (k : Fin 512), y0 (ix2 p k) = A (ix2 (R p) (⟨k.val, by omega⟩ : Fin 1024)))
    (hy1 : ∀ (k : Fin 512) (q : Fin 1024), y1 (ix2 k q) = B (ix2 (⟨k.val, by omega⟩ : Fin 1024) (O q)))
    (hx0 : ∀ (p : Fin 1024) (k : Fin 512), x0 (ix2 p k) = A (ix2 (R p) (⟨512 + k.val, by omega⟩ : Fin 1024)))
    (hx1 : ∀ (k : Fin 512) (q : Fin 1024), x1 (ix2 k q) = B (ix2 (⟨512 + k.val, by omega⟩ : Fin 1024) (O q)))
    (p q : Fin 1024) :
    outO x0 x1 (accE y0 y1) (ix2 p q) = Cert.Attn.mm A B (ix2 (R p) (O q)) := by
  unfold outO accO accE
  rw [pay3_apply, pay2_apply, pay2_apply, pay1_apply, zero_add, Cert.Attn.mm_apply, sum_split_half]
  refine congrArg₂ (· + ·) (Finset.sum_congr rfl fun k _ => ?_) (Finset.sum_congr rfl fun k _ => ?_)
  · rw [hy0, hy1]
  · rw [hx0, hx1]

/-! ## From blocks to the array -/

/-- The printed index maps, decided over the grid, at an odd point and the even point before it: the left operand's
    block is on the output's row block and on the second, resp. first, half of the contraction; the right operand's on
    that half and on the output's column block; the output's block indices stay in their ranges. -/
theorem idx_facts0 : ∀ t : Fin cfg0.N, t.val % 2 = 1 →
    win0_0.index t (0 : Fin 2) = win0_2.index t (0 : Fin 2) ∧ win0_0.index t (1 : Fin 2) = 1
    ∧ win0_0.index (prev0 t) (0 : Fin 2) = win0_2.index t (0 : Fin 2) ∧ win0_0.index (prev0 t) (1 : Fin 2) = 0
    ∧ win0_1.index t (0 : Fin 2) = 1 ∧ win0_1.index t (1 : Fin 2) = win0_2.index t (1 : Fin 2)
    ∧ win0_1.index (prev0 t) (0 : Fin 2) = 0 ∧ win0_1.index (prev0 t) (1 : Fin 2) = win0_2.index t (1 : Fin 2)
    ∧ win0_2.index t (0 : Fin 2) ≤ 7 ∧ win0_2.index t (1 : Fin 2) ≤ 2 :=
  (by decide +kernel : ∀ t : Fin grid0.N, t.val % 2 = 1 → _)

/-- Every block of the output array is some odd point's. -/
theorem idx_onto0 : ∀ (q0 : Fin 8) (q1 : Fin 3), ∃ t : Fin cfg0.N, t.val % 2 = 1 ∧ win0_2.index t = ![q0.val, q1.val] :=
  (by decide +kernel : ∀ (q0 : Fin 8) (q1 : Fin 3), ∃ t : Fin grid0.N, t.val % 2 = 1 ∧ win0_2.index t = ![q0.val, q1.val])

/-- What an odd point `t` writes back is block `t` of the product of the arrays as the region finds them. -/
theorem flushed0_eq (V : (c : Dev nD) → (b : Ref sig .tc) → Buf (Elt Ideal) ((c : Thread nD τ).loc b)) (c : Dev nD) (t : Fin cfg0.N)
    (ht : t.val % 2 = 1) :
    (dat0 (F := Ideal) V c).flushed 2 t = ((cfg0.win 2).blk t).view.read (Elt Ideal) (Cert.Attn.mm (V c main_v3) (V c main_v2)) := by
  show (cfg0.win 2).cut (grid0.coords t) ((dat0 V c).after 2 t) = _
  rw [after0_2]
  obtain ⟨e0, e1, e2, e3, e4, e5, e6, e7, e8, e9⟩ := idx_facts0 t ht
  funext j
  obtain ⟨p, q, rfl⟩ : ∃ (p : Fin 1024) (q : Fin 1024), j = ix2 p q := ⟨j 0, j 1, eq_ix2 j⟩
  have hR : ∀ p : Fin 1024, win0_2.index t (0 : Fin 2) * 1024 + p.val < 8192 := fun p => by have := p.isLt; omega
  have hO : ∀ q : Fin 1024, win0_2.index t (1 : Fin 2) * 1024 + q.val < 3072 := fun q => by have := q.isLt; omega
  show out0_2 V c t (ix2 p q) = Cert.Attn.mm (V c main_v3) (V c main_v2) (((cfg0.win 2).blk t).view.emb (ix2 p q))
  have hemb : ((cfg0.win 2).blk t).view.emb (ix2 p q) = ix2 (⟨win0_2.index t (0 : Fin 2) * 1024 + p.val, hR p⟩ : Fin 8192) (⟨win0_2.index t (1 : Fin 2) * 1024 + q.val, hO q⟩ : Fin 3072) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = win0_2.index t (1 : Fin 2) * 1024 + q.val; omega
  rw [hemb]
  unfold out0_2 accEAt
  refine point_eq (V c main_v3) (V c main_v2) (iblk0 V c 0 t) (iblk0 V c 0 (prev0 t)) (iblk0 V c 1 t) (iblk0 V c 1 (prev0 t))
    (fun p => ⟨_, hR p⟩) (fun q => ⟨_, hO q⟩) ?_ ?_ ?_ ?_ p q
  · intro p k
    show V c main_v3 (((cfg0.win 0).blk (prev0 t)).view.emb (ix2 p k)) = V c main_v3 _
    refine congrArg _ (funext fun a => Fin.ext ?_)
    match a with
    | ⟨0, _⟩ => show win0_0.index (prev0 t) (0 : Fin 2) * 1024 + 1 * p.val = win0_2.index t (0 : Fin 2) * 1024 + p.val; omega
    | ⟨1, _⟩ => show win0_0.index (prev0 t) (1 : Fin 2) * 512 + 1 * k.val = k.val; omega
  · intro k q
    show V c main_v2 (((cfg0.win 1).blk (prev0 t)).view.emb (ix2 k q)) = V c main_v2 _
    refine congrArg _ (funext fun a => Fin.ext ?_)
    match a with
    | ⟨0, _⟩ => show win0_1.index (prev0 t) (0 : Fin 2) * 512 + 1 * k.val = k.val; omega
    | ⟨1, _⟩ => show win0_1.index (prev0 t) (1 : Fin 2) * 1024 + 1 * q.val = win0_2.index t (1 : Fin 2) * 1024 + q.val; omega
  · intro p k
    show V c main_v3 (((cfg0.win 0).blk t).view.emb (ix2 p k)) = V c main_v3 _
    refine congrArg _ (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 512 + 1 * k.val = 512 + k.val; omega
  · intro k q
    show V c main_v2 (((cfg0.win 1).blk t).view.emb (ix2 k q)) = V c main_v2 _
    refine congrArg _ (funext fun a => Fin.ext ?_)
    match a with
    | ⟨0, _⟩ => show win0_1.index t (0 : Fin 2) * 512 + 1 * k.val = 512 + k.val; omega
    | ⟨1, _⟩ => show win0_1.index t (1 : Fin 2) * 1024 + 1 * q.val = win0_2.index t (1 : Fin 2) * 1024 + q.val; omega

/-- An index of the array is in point `t`'s block iff each coordinate is in the block's range on its axis. -/
theorem mem_blk0 (t : Fin cfg0.N) (i : S8192x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- Every index of the output array is in some writing point's block: the odd point of its row block and column block. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, hodd, ht⟩ := idx_onto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, (flush0_2 t).mpr hodd, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

end Out0

/-- The output array after all write-backs: index by index, the whole contraction of the two operands. -/
theorem final0 (V : (c : Dev nD) → (b : Ref sig .tc) → Buf (Elt Ideal) ((c : Thread nD τ).loc b)) (c : Dev nD) :
    (dat0 (F := Ideal) V c).arrAt 2 cfg0.N = Cert.Attn.mm (V c main_v3) (V c main_v2) :=
  (dat0 (F := Ideal) V c).arrAt_eq_of_cover 2 (Cert.Attn.mm (V c main_v3) (V c main_v2))
    (fun t hf => Out0.flushed0_eq V c t ((flush0_2 t).mp hf)) Out0.cover0

end Cert.KernelIdeal.Hand
end
-- ==== Proof.Pay1.lean ====
/-
  The attention body's arithmetic at the exact instance, read at coordinates: the layout operations it uses (blocks
  `[1,1,a,b]` viewed as matrices and back, a row statistic kept as a column and broadcast along the rows), the body cut
  into its steps (the query, key and value lanes of the blocks; the scaled query·key products; the soft-max of each row;
  the probability·value products), and each step at an index.
-/
import proofs.«181592_j54889682043438_2_alg».proof.Proof.Gen.KernelIdeal.Skeleton
import proofs.«181592_j54889682043438_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand.Out1
open Cert.KernelIdeal Cert.KernelIdeal.Gen
open Idealize.ShloMosaic Idealize.ShloMosaic.ValueIdx
open Cert.Attn

/-! ## Layout operations of the body, read at coordinates -/

section Layout
variable {α : Type}

/-- A `[1, 1, a, b]` block viewed `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- An `[a, b]` matrix stored as a `[1, 1, a, b]` block reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp only [Nat.zero_mul, Nat.zero_add, Nat.add_zero])

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The keepdims column of a row statistic: the vector, as a column, broadcast along the rows. -/
theorem column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

end Layout

/-! ## The body's arithmetic, in steps: the three parts of a block, the scaled products, the soft-max over keys,
    the weighted sum -/

/-- The query·key product's dimension numbers (rows of both operands contracted over their 64 lanes) and the
    probability·value product's. -/
abbrev DQK := dot_S512x64_S2048x64_S512x2048_1_1_0_0_n_n
abbrev DPV := dot_S512x2048_S2048x64_S512x64_1_0_0_1_n_n

/-- The query lanes of a query block; the key lanes and the value lanes of a head's block. -/
def qrows (x0 : Vec Ideal S1x1x512x192 .bf16) : FVec Ideal S512x64 .bf16 :=
  extractStridedSlice S512x64 ![0, 0] (shapeCast S512x192 x0 shapeCasts_S1x1x512x192_S512x192 : FVec Ideal S512x192 .bf16) slices_S512x192_o0_0_S512x64
def krows (x1 : Vec Ideal S1x1x2048x192 .bf16) : FVec Ideal S2048x64 .bf16 :=
  extractStridedSlice S2048x64 ![0, 64] (k1_pay1 x1) slices_S2048x192_o0_64_S2048x64
def vrows (x1 : Vec Ideal S1x1x2048x192 .bf16) : FVec Ideal S2048x64 .bf16 :=
  extractStridedSlice S2048x64 ![0, 128] (k1_pay1 x1) slices_S2048x192_o0_128_S2048x64

/-- The query·key products of a query block (rows) against a head's keys (columns), and scaled. -/
def mmQK (x0 : Vec Ideal S1x1x512x192 .bf16) (x1 : Vec Ideal S1x1x2048x192 .bf16) : FVec Ideal S512x2048 .f32 :=
  matmul DQK none (qrows x0) (krows x1) (constant S512x2048 .f32 0x00000000#32)
def qk (x0 : Vec Ideal S1x1x512x192 .bf16) (x1 : Vec Ideal S1x1x2048x192 .bf16) : FVec Ideal S512x2048 .f32 :=
  mulf (mmQK x0 x1) (broadcast S512x2048 (Scalar.ofBits .f32 0x3E000000#32))

/-- The probability·value products. -/
def pv (p : FVec Ideal S512x2048 .f32) (x1 : Vec Ideal S1x1x2048x192 .bf16) : FVec Ideal S512x64 .f32 :=
  matmul DPV none (truncf .bf16 p bitsLt_bf16_f32 : FVec Ideal S512x2048 .bf16) (vrows x1) (constant S512x64 .f32 0x00000000#32)
/-- Each row's maximum. -/
def rowMaxOf (s : FVec Ideal S512x2048 .f32) : FVec Ideal S512 .f32 :=
  multiReduction .maximumf [1] S512 s 0xFF800000#32 reduces_S512x2048_S512 (.inl rfl) rfl

/-- The exponentials of a matrix's entries less their row's maximum. -/
def expOf (s : FVec Ideal S512x2048 .f32) : FVec Ideal S512x2048 .f32 :=
  exp (subf s (broadcastTo S512x2048 (shapeCast S512x1 (rowMaxOf s) shapeCasts_S512_S512x1) broadcasts_S512x1_S512x2048))

/-- Each row's sum of exponentials. -/
def rowSumOf (s : FVec Ideal S512x2048 .f32) : FVec Ideal S512 .f32 :=
  multiReduction .add [1] S512 (expOf s) 0x00000000#32 reduces_S512x2048_S512 (.inl rfl) rfl

/-- The soft-max of each row. -/
def smax (s : FVec Ideal S512x2048 .f32) : FVec Ideal S512x2048 .f32 :=
  divf (expOf s) (broadcastTo S512x2048 (shapeCast S512x1 (rowSumOf s) shapeCasts_S512_S512x1) broadcasts_S512x1_S512x2048)

/-- The body's probabilities are the soft-max of the scaled products. -/
theorem pay2_eq (x0 : Vec Ideal S1x1x512x192 .bf16) (x1 : Vec Ideal S1x1x2048x192 .bf16) :
    k1_pay2 (F := Ideal) x0 x1 = smax (qk x0 x1) := rfl

theorem lift_row (q : Fin 512) (k : Fin 2048) : reduces_S512x2048_S512.lift (ix1 q) k = ix2 q k :=
  funext fun a => Fin.ext (by match a with | ⟨0, _⟩ => rfl | ⟨1, _⟩ => rfl)

theorem rowMaxOf_apply (s : FVec Ideal S512x2048 .f32) (q : Fin 512) :
    rowMaxOf s (ix1 q) = Finset.univ.fold max negInf (fun k : Fin 2048 => s (ix2 q k)) := by
  unfold rowMaxOf
  refine (Ideal.multiReduction_maximumf_single s _ reduces_S512x2048_S512 _ _ (ix1 q)).trans ?_
  have e : (s ∘ reduces_S512x2048_S512.lift (ix1 q)) = fun k : Fin 2048 => s (ix2 q k) :=
    funext fun k => congrArg s (lift_row q k)
  rw [e]
  rfl

theorem expOf_apply (s : FVec Ideal S512x2048 .f32) (q : Fin 512) (k : Fin 2048) :
    expOf s (ix2 q k) = Ideal.exp (s (ix2 q k) - Finset.univ.fold max negInf (fun k' : Fin 2048 => s (ix2 q k'))) := by
  unfold expOf
  show Ideal.exp (s (ix2 q k) - _) = _
  rw [column_apply, rowMaxOf_apply]

theorem rowSumOf_apply (s : FVec Ideal S512x2048 .f32) (q : Fin 512) :
    rowSumOf s (ix1 q) = ∑ k : Fin 2048, expOf s (ix2 q k) := by
  unfold rowSumOf
  refine (Ideal.multiReduction_add_single (expOf s) _ reduces_S512x2048_S512 _ _ (ix1 q)).trans ?_
  exact Finset.sum_congr rfl fun k _ => congrArg (expOf s) (lift_row q k)

theorem smax_apply (s : FVec Ideal S512x2048 .f32) (q : Fin 512) (k : Fin 2048) :
    smax s (ix2 q k) = Ideal.div (expOf s (ix2 q k)) (∑ k' : Fin 2048, expOf s (ix2 q k')) := by
  unfold smax
  show Ideal.div (expOf s (ix2 q k)) _ = _
  rw [column_apply, rowSumOf_apply]

/-- The body's weighted sums are the probability·value products of its probabilities, stored as a block. -/
theorem pay4_eq (x0 : Vec Ideal S1x1x512x192 .bf16) (x1 : Vec Ideal S1x1x2048x192 .bf16) :
    k1_pay4 (F := Ideal) x0 x1
      = shapeCast S1x1x512x64 (truncf .bf16 (pv (k1_pay2 x0 x1) x1) bitsLt_bf16_f32 : FVec Ideal S512x64 .bf16) shapeCasts_S512x64_S1x1x512x64 := rfl

end Cert.KernelIdeal.Hand.Out1
end
-- ==== Proof.Pay2.lean ====
/-
  The attention body against the specification on one query block of one head: the parts of the blocks and the two
  matrix products at coordinates, and from them the stored probabilities and weighted sums as the specification's
  `attn` and its weighted sum over the head's keys.
-/
import proofs.«181592_j54889682043438_2_alg».proof.Proof.Pay1
set_option maxRecDepth 16384
noncomputable section
namespace Cert.KernelIdeal.Hand.Out1
open Cert.KernelIdeal Cert.KernelIdeal.Gen
open Idealize.ShloMosaic Idealize.ShloMosaic.ValueIdx
open Cert.Attn

/-! ## The parts and the two products at coordinates -/

theorem qrows_apply (x0 : Vec Ideal S1x1x512x192 .bf16) (q : Fin 512) (d : Fin 64) :
    qrows x0 (ix2 q d) = x0 (ix4 (0 : Fin 1) (0 : Fin 1) q (lane 0 d)) := by
  unfold qrows
  refine (slice2_axis1_apply 0 _ slices_S512x192_o0_0_S512x64 q d (lane 0 d) ?_).trans ?_
  · show 0 * 64 + d.val = 0 + d.val; omega
  · exact shapeCast_11ab_ab_apply x0 shapeCasts_S1x1x512x192_S512x192 q (lane 0 d)

theorem krows_apply (x1 : Vec Ideal S1x1x2048x192 .bf16) (k : Fin 2048) (d : Fin 64) :
    krows x1 (ix2 k d) = x1 (ix4 (0 : Fin 1) (0 : Fin 1) k (lane 1 d)) := by
  unfold krows k1_pay1
  refine (slice2_axis1_apply 64 _ slices_S2048x192_o0_64_S2048x64 k d (lane 1 d) ?_).trans ?_
  · show 1 * 64 + d.val = 64 + d.val; omega
  · exact shapeCast_11ab_ab_apply x1 shapeCasts_S1x1x2048x192_S2048x192 k (lane 1 d)

theorem vrows_apply (x1 : Vec Ideal S1x1x2048x192 .bf16) (k : Fin 2048) (d : Fin 64) :
    vrows x1 (ix2 k d) = x1 (ix4 (0 : Fin 1) (0 : Fin 1) k (lane 2 d)) := by
  unfold vrows k1_pay1
  refine (slice2_axis1_apply 128 _ slices_S2048x192_o0_128_S2048x64 k d (lane 2 d) ?_).trans ?_
  · show 2 * 64 + d.val = 128 + d.val; omega
  · exact shapeCast_11ab_ab_apply x1 shapeCasts_S1x1x2048x192_S2048x192 k (lane 2 d)

/-- The operands' indices of the two products, coordinate by coordinate: a kept axis follows the output's index, the
    contracted axis the contraction index. -/
theorem DQK_lhs0 (j : S512x2048.Idx) (q : DQK.contr.Idx) :
    (DQK.lhsIdx j q 0).val = (j 0).val := by
  unfold DotDims.lhsIdx
  rw [dif_neg (show ¬(0 : Fin S512x64.rank) ∈ DQK.lhsBatch by decide), dif_pos (show (0 : Fin S512x64.rank) ∈ DQK.lhsNonContracting by decide)]
  rfl
theorem DQK_lhs1 (j : S512x2048.Idx) (q : DQK.contr.Idx) :
    (DQK.lhsIdx j q 1).val = (q ⟨0, by decide⟩).val :=
  DQK.lhsIdx_val_of_single rfl j q
theorem DQK_rhs0 (j : S512x2048.Idx) (q : DQK.contr.Idx) :
    (DQK.rhsIdx j q 0).val = (j 1).val := by
  unfold DotDims.rhsIdx
  rw [dif_neg (show ¬(0 : Fin S2048x64.rank) ∈ DQK.rhsBatch by decide), dif_pos (show (0 : Fin S2048x64.rank) ∈ DQK.rhsNonContracting by decide)]
  rfl
theorem DQK_rhs1 (j : S512x2048.Idx) (q : DQK.contr.Idx) :
    (DQK.rhsIdx j q 1).val = (q ⟨0, by decide⟩).val :=
  DQK.rhsIdx_val_of_single rfl j q
theorem DPV_lhs0 (j : S512x64.Idx) (q : DPV.contr.Idx) :
    (DPV.lhsIdx j q 0).val = (j 0).val := by
  unfold DotDims.lhsIdx
  rw [dif_neg (show ¬(0 : Fin S512x2048.rank) ∈ DPV.lhsBatch by decide), dif_pos (show (0 : Fin S512x2048.rank) ∈ DPV.lhsNonContracting by decide)]
  rfl
theorem DPV_lhs1 (j : S512x64.Idx) (q : DPV.contr.Idx) :
    (DPV.lhsIdx j q 1).val = (q ⟨0, by decide⟩).val :=
  DPV.lhsIdx_val_of_single rfl j q
theorem DPV_rhs0 (j : S512x64.Idx) (q : DPV.contr.Idx) :
    (DPV.rhsIdx j q 0).val = (q ⟨0, by decide⟩).val :=
  DPV.rhsIdx_val_of_single rfl j q
theorem DPV_rhs1 (j : S512x64.Idx) (q : DPV.contr.Idx) :
    (DPV.rhsIdx j q 1).val = (j 1).val := by
  unfold DotDims.rhsIdx
  rw [dif_neg (show ¬(1 : Fin S2048x64.rank) ∈ DPV.rhsBatch by decide), dif_pos (show (1 : Fin S2048x64.rank) ∈ DPV.rhsNonContracting by decide)]
  rfl

/-- At output `(q, k)` and lane `d` the query·key product reads `(q, d)` and `(k, d)`. -/
theorem DQK_lhsIdx (q : Fin 512) (k : Fin 2048) (d : Fin 64) :
    DQK.lhsIdx (ix2 q k) ((contrEquiv1 DQK 64 rfl rfl).symm d) = ix2 q d :=
  funext fun a => Fin.ext (by
    have hk := contrEquiv1_symm_val DQK 64 rfl rfl d
    match a with
    | ⟨0, _⟩ => exact DQK_lhs0 _ _
    | ⟨1, _⟩ => exact (DQK_lhs1 _ _).trans hk)

theorem DQK_rhsIdx (q : Fin 512) (k : Fin 2048) (d : Fin 64) :
    DQK.rhsIdx (ix2 q k) ((contrEquiv1 DQK 64 rfl rfl).symm d) = ix2 k d :=
  funext fun a => Fin.ext (by
    have hk := contrEquiv1_symm_val DQK 64 rfl rfl d
    match a with
    | ⟨0, _⟩ => exact DQK_rhs0 _ _
    | ⟨1, _⟩ => exact (DQK_rhs1 _ _).trans hk)

/-- At output `(q, d)` and key `k` the probability·value product reads `(q, k)` and `(k, d)`. -/
theorem DPV_lhsIdx (q : Fin 512) (d : Fin 64) (k : Fin 2048) :
    DPV.lhsIdx (ix2 q d) ((contrEquiv1 DPV 2048 rfl rfl).symm k) = ix2 q k :=
  funext fun a => Fin.ext (by
    have hk := contrEquiv1_symm_val DPV 2048 rfl rfl k
    match a with
    | ⟨0, _⟩ => exact DPV_lhs0 _ _
    | ⟨1, _⟩ => exact (DPV_lhs1 _ _).trans hk)

theorem DPV_rhsIdx (q : Fin 512) (d : Fin 64) (k : Fin 2048) :
    DPV.rhsIdx (ix2 q d) ((contrEquiv1 DPV 2048 rfl rfl).symm k) = ix2 k d :=
  funext fun a => Fin.ext (by
    have hk := contrEquiv1_symm_val DPV 2048 rfl rfl k
    match a with
    | ⟨0, _⟩ => exact (DPV_rhs0 _ _).trans hk
    | ⟨1, _⟩ => exact DPV_rhs1 _ _)

theorem mmQK_apply (x0 : Vec Ideal S1x1x512x192 .bf16) (x1 : Vec Ideal S1x1x2048x192 .bf16) (q : Fin 512) (k : Fin 2048) :
    mmQK x0 x1 (ix2 q k) = ∑ d : Fin 64, x0 (ix4 (0 : Fin 1) (0 : Fin 1) q (lane 0 d)) * x1 (ix4 (0 : Fin 1) (0 : Fin 1) k (lane 1 d)) := by
  unfold mmQK
  refine (Ideal.matmul_constant_zero_apply DQK none (qrows x0) (krows x1) (ix2 q k)).trans ?_
  rw [← Equiv.sum_comp (contrEquiv1 DQK 64 rfl rfl).symm]
  refine Finset.sum_congr rfl fun d _ => ?_
  rw [DQK_lhsIdx, DQK_rhsIdx, qrows_apply, krows_apply]

theorem qk_apply (x0 : Vec Ideal S1x1x512x192 .bf16) (x1 : Vec Ideal S1x1x2048x192 .bf16) (q : Fin 512) (k : Fin 2048) :
    qk x0 x1 (ix2 q k)
      = (∑ d : Fin 64, x0 (ix4 (0 : Fin 1) (0 : Fin 1) q (lane 0 d)) * x1 (ix4 (0 : Fin 1) (0 : Fin 1) k (lane 1 d))) * scale := by
  rw [← mmQK_apply]; rfl

theorem pv_apply (p : FVec Ideal S512x2048 .f32) (x1 : Vec Ideal S1x1x2048x192 .bf16) (q : Fin 512) (d : Fin 64) :
    pv p x1 (ix2 q d) = ∑ k : Fin 2048, p (ix2 q k) * x1 (ix4 (0 : Fin 1) (0 : Fin 1) k (lane 2 d)) := by
  unfold pv
  refine (Ideal.matmul_constant_zero_apply DPV none _ (vrows x1) (ix2 q d)).trans ?_
  rw [← Equiv.sum_comp (contrEquiv1 DPV 2048 rfl rfl).symm]
  refine Finset.sum_congr rfl fun k _ => ?_
  rw [DPV_lhsIdx, DPV_rhsIdx, vrows_apply]
  rfl

/-! ## The body against the specification, on a query block of a head

A point of the grid is a batch entry `b`, a head `h` and a query block `qb`; its two input blocks are rows
`qb·512 … qb·512 + 511` of the head (the queries) and all 2048 rows of the head (the keys and values). -/

/-- Row `q` of query block `qb` in the head. -/
def qrow (qb : Fin 4) (q : Fin 512) : Fin 2048 := ⟨qb.val * 512 + q.val, by omega⟩

section Point
variable (g : TG.Idx → EReal) (b : Fin 4) (h : Fin 16) (qb : Fin 4)
  (x0 : Vec Ideal S1x1x512x192 .bf16) (x1 : Vec Ideal S1x1x2048x192 .bf16)
  (hx0 : ∀ (q : Fin 512) (e : Fin 192), x0 (ix4 (0 : Fin 1) (0 : Fin 1) q e) = g (ix4 b h (qrow qb q) e))
  (hx1 : ∀ (k : Fin 2048) (e : Fin 192), x1 (ix4 (0 : Fin 1) (0 : Fin 1) k e) = g (ix4 b h k e))
include hx0 hx1

theorem qk_eq_score (q : Fin 512) (k : Fin 2048) : qk x0 x1 (ix2 q k) = score g b h (qrow qb q) k := by
  rw [qk_apply]; unfold score
  simp only [hx0, hx1]

theorem expOf_eq_pexp (q : Fin 512) (k : Fin 2048) : expOf (qk x0 x1) (ix2 q k) = pexp g b h (qrow qb q) k := by
  rw [expOf_apply]; unfold pexp rowmax
  simp only [qk_eq_score g b h qb x0 x1 hx0 hx1]

theorem smax_eq_attn (q : Fin 512) (k : Fin 2048) : smax (qk x0 x1) (ix2 q k) = attn g b h (qrow qb q) k := by
  rw [smax_apply]; unfold attn denom
  simp only [expOf_eq_pexp g b h qb x0 x1 hx0 hx1]

/-- The stored probabilities. -/
theorem pay3_eq_attn (u v : Fin 1) (q : Fin 512) (k : Fin 2048) :
    k1_pay3 (F := Ideal) x0 x1 (ix4 u v q k) = attn g b h (qrow qb q) k :=
  ((shapeCast_ab_11ab_apply (k1_pay2 (F := Ideal) x0 x1) shapeCasts_S512x2048_S1x1x512x2048 u v q k).trans
    (congrFun (pay2_eq x0 x1) _)).trans (smax_eq_attn g b h qb x0 x1 hx0 hx1 q k)

/-- The stored weighted sums. -/
theorem pay4_eq_ao (u v : Fin 1) (q : Fin 512) (d : Fin 64) :
    k1_pay4 (F := Ideal) x0 x1 (ix4 u v q d) = ∑ k : Fin 2048, attn g b h (qrow qb q) k * g (ix4 b h k (lane 2 d)) := by
  rw [pay4_eq]
  refine (shapeCast_ab_11ab_apply _ shapeCasts_S512x64_S1x1x512x64 u v q d).trans ?_
  show pv (k1_pay2 (F := Ideal) x0 x1) x1 (ix2 q d) = _
  rw [pv_apply, pay2_eq]
  simp only [smax_eq_attn g b h qb x0 x1 hx0 hx1, hx1]

end Point

end Cert.KernelIdeal.Hand.Out1
end
-- ==== Proof.Val1.lean ====
/-
  The attention call's two output arrays after the region, at the exact instance: every grid point (a batch entry, a
  head, a block of 512 queries) writes back its block of the specification's probabilities and of its weighted sums
  — the point's input blocks are the queries' rows and the whole head of the per-head layout —, and the blocks of the
  256 points cover both arrays.
-/
import proofs.«181592_j54889682043438_2_alg».proof.Proof.Reg1
import proofs.«181592_j54889682043438_2_alg».proof.Proof.Pay2
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand.Out1
open Cert.KernelIdeal Cert.KernelIdeal.Gen
open Idealize.ShloMosaic Idealize.ShloMosaic.TcCoe Idealize.ShloMosaic.ValueIdx Idealize.SL.Sem
open Idealize.ShloMosaic.Pipeline (Dat)
open Cert.Attn
variable (V : (c : Dev nD) → (b : Ref sig .tc) → Buf (Elt Ideal) ((c : Thread nD τ).loc b))

/-! ## The grid's points and the windows' blocks -/

theorem hz4 : (![0, 0, 0, 0] : Fin 4 → Nat) = fun _ => 0 := funext fun a => by fin_cases a <;> rfl

/-- Point `t` is batch entry `t / 64`, head `t / 4 % 16`, query block `t % 4`: the query window and the two output
    windows sit at that (entry, head, block), the key/value window at that (entry, head). Decided over the grid. -/
theorem idx_facts1 : ∀ t : Fin cfg1.N,
    (win1_0.index t (0 : Fin 4) = t.val / 64 ∧ win1_0.index t (1 : Fin 4) = t.val / 4 % 16 ∧ win1_0.index t (2 : Fin 4) = t.val % 4 ∧ win1_0.index t (3 : Fin 4) = 0)
    ∧ (win1_1.index t (0 : Fin 4) = t.val / 64 ∧ win1_1.index t (1 : Fin 4) = t.val / 4 % 16 ∧ win1_1.index t (2 : Fin 4) = 0 ∧ win1_1.index t (3 : Fin 4) = 0)
    ∧ (win1_2.index t (0 : Fin 4) = t.val / 64 ∧ win1_2.index t (1 : Fin 4) = t.val / 4 % 16 ∧ win1_2.index t (2 : Fin 4) = t.val % 4 ∧ win1_2.index t (3 : Fin 4) = 0)
    ∧ (win1_3.index t (0 : Fin 4) = t.val / 64 ∧ win1_3.index t (1 : Fin 4) = t.val / 4 % 16 ∧ win1_3.index t (2 : Fin 4) = t.val % 4 ∧ win1_3.index t (3 : Fin 4) = 0) :=
  (by decide +kernel : ∀ t : Fin grid1.N, _)

theorem lt_N1 (t : Fin cfg1.N) : t.val < 256 := Nat.lt_of_lt_of_eq t.isLt (N_1 : cfg1.N = 256)

/-- The query window's block at point `t` is rows `(t % 4)·512 …` of head `t / 4 % 16` of entry `t / 64`. -/
theorem iblk1_0_apply (c : Dev nD) (t : Fin cfg1.N) (y : S1x1x512x192.Idx) (i : S4x16x2048x192.Idx)
    (h0 : (i 0).val = t.val / 64) (h1 : (i 1).val = t.val / 4 % 16) (h2 : (i 2).val = t.val % 4 * 512 + (y 2).val) (h3 : (i 3).val = (y 3).val) :
    (iblk1 V c 0 t : Vec Ideal S1x1x512x192 .bf16) y = (V c main_v6 : S4x16x2048x192.Idx → EReal) i := by
  obtain ⟨⟨e0, e1, e2, e3⟩, -⟩ := idx_facts1 t
  unfold iblk1
  rw [View.read_apply]
  show V c main_v6 _ = V c main_v6 _
  refine congrArg _ (funext fun a => Fin.ext ?_)
  match a with
  | ⟨0, _⟩ => show win1_0.index t 0 * 1 + 1 * (y 0).val = (i 0).val; have : (y 0).val < 1 := (y 0).isLt; omega
  | ⟨1, _⟩ => show win1_0.index t 1 * 1 + 1 * (y 1).val = (i 1).val; have : (y 1).val < 1 := (y 1).isLt; omega
  | ⟨2, _⟩ => show win1_0.index t 2 * 512 + 1 * (y 2).val = (i 2).val; omega
  | ⟨3, _⟩ => show win1_0.index t 3 * 192 + 1 * (y 3).val = (i 3).val; omega

/-- The key/value window's block at point `t` is head `t / 4 % 16` of entry `t / 64`, all its rows. -/
theorem iblk1_1_apply (c : Dev nD) (t : Fin cfg1.N) (y : S1x1x2048x192.Idx) (i : S4x16x2048x192.Idx)
    (h0 : (i 0).val = t.val / 64) (h1 : (i 1).val = t.val / 4 % 16) (h2 : (i 2).val = (y 2).val) (h3 : (i 3).val = (y 3).val) :
    (iblk1 V c 1 t : Vec Ideal S1x1x2048x192 .bf16) y = (V c main_v6 : S4x16x2048x192.Idx → EReal) i := by
  obtain ⟨-, ⟨e0, e1, e2, e3⟩, -⟩ := idx_facts1 t
  unfold iblk1
  rw [View.read_apply]
  show V c main_v6 _ = V c main_v6 _
  refine congrArg _ (funext fun a => Fin.ext ?_)
  match a with
  | ⟨0, _⟩ => show win1_1.index t 0 * 1 + 1 * (y 0).val = (i 0).val; have : (y 0).val < 1 := (y 0).isLt; omega
  | ⟨1, _⟩ => show win1_1.index t 1 * 1 + 1 * (y 1).val = (i 1).val; have : (y 1).val < 1 := (y 1).isLt; omega
  | ⟨2, _⟩ => show win1_1.index t 2 * 2048 + 1 * (y 2).val = (i 2).val; omega
  | ⟨3, _⟩ => show win1_1.index t 3 * 192 + 1 * (y 3).val = (i 3).val; omega

/-! ## What a point stores, at an index of the array -/

/-- The stored probabilities of the point at (entry `b`, head `h`, query block `qb`), read at the array index its
    block's index `j` sits at. -/
theorem pay3_point (g : TG.Idx → EReal) (b : Fin 4) (h : Fin 16) (qb : Fin 4)
    (x0 : Vec Ideal S1x1x512x192 .bf16) (x1 : Vec Ideal S1x1x2048x192 .bf16)
    (hx0 : ∀ (q : Fin 512) (e : Fin 192), x0 (ix4 (0 : Fin 1) (0 : Fin 1) q e) = g (ix4 b h (qrow qb q) e))
    (hx1 : ∀ (k : Fin 2048) (e : Fin 192), x1 (ix4 (0 : Fin 1) (0 : Fin 1) k e) = g (ix4 b h k e))
    (j : S1x1x512x2048.Idx) (i : TP.Idx)
    (h0 : (i 0).val = b.val) (h1 : (i 1).val = h.val) (h2 : (i 2).val = qb.val * 512 + (j 2).val) (h3 : (i 3).val = (j 3).val) :
    k1_pay3 (F := Ideal) x0 x1 j = attnArr g i := by
  obtain ⟨u, v, q, k, rfl⟩ : ∃ (u v : Fin 1) (q : Fin 512) (k : Fin 2048), j = ix4 u v q k := ⟨j 0, j 1, j 2, j 3, eq_ix4 j⟩
  have hi : i = ix4 b h (qrow qb q) k := funext fun a => Fin.ext (by
    match a with
    | ⟨0, _⟩ => exact h0
    | ⟨1, _⟩ => exact h1
    | ⟨2, _⟩ => exact h2
    | ⟨3, _⟩ => exact h3)
  rw [hi, attnArr_apply]
  exact pay3_eq_attn g b h qb x0 x1 hx0 hx1 u v q k

/-- The stored weighted sums likewise. -/
theorem pay4_point (g : TG.Idx → EReal) (b : Fin 4) (h : Fin 16) (qb : Fin 4)
    (x0 : Vec Ideal S1x1x512x192 .bf16) (x1 : Vec Ideal S1x1x2048x192 .bf16)
    (hx0 : ∀ (q : Fin 512) (e : Fin 192), x0 (ix4 (0 : Fin 1) (0 : Fin 1) q e) = g (ix4 b h (qrow qb q) e))
    (hx1 : ∀ (k : Fin 2048) (e : Fin 192), x1 (ix4 (0 : Fin 1) (0 : Fin 1) k e) = g (ix4 b h k e))
    (j : S1x1x512x64.Idx) (i : TO.Idx)
    (h0 : (i 0).val = b.val) (h1 : (i 1).val = h.val) (h2 : (i 2).val = qb.val * 512 + (j 2).val) (h3 : (i 3).val = (j 3).val) :
    k1_pay4 (F := Ideal) x0 x1 j = aoArr g i := by
  obtain ⟨u, v, q, d, rfl⟩ : ∃ (u v : Fin 1) (q : Fin 512) (d : Fin 64), j = ix4 u v q d := ⟨j 0, j 1, j 2, j 3, eq_ix4 j⟩
  have hi : i = ix4 b h (qrow qb q) d := funext fun a => Fin.ext (by
    match a with
    | ⟨0, _⟩ => exact h0
    | ⟨1, _⟩ => exact h1
    | ⟨2, _⟩ => exact h2
    | ⟨3, _⟩ => exact h3)
  rw [hi, aoArr_apply]
  exact pay4_eq_ao g b h qb x0 x1 hx0 hx1 u v q d

/-! ## What each point writes back is its block of the specification's arrays -/

/-- The input blocks of point `t` are the rows the point lemmas ask for. -/
theorem hx0_at (c : Dev nD) (t : Fin cfg1.N) (q : Fin 512) (e : Fin 192) :
    (iblk1 V c 0 t : Vec Ideal S1x1x512x192 .bf16) (ix4 (0 : Fin 1) (0 : Fin 1) q e)
      = (V c main_v6 : TG.Idx → EReal) (ix4 (⟨t.val / 64, by have := lt_N1 t; omega⟩ : Fin 4) (⟨t.val / 4 % 16, by omega⟩ : Fin 16)
          (qrow (⟨t.val % 4, by omega⟩ : Fin 4) q) e) :=
  iblk1_0_apply V c t _ _ rfl rfl rfl rfl

theorem hx1_at (c : Dev nD) (t : Fin cfg1.N) (k : Fin 2048) (e : Fin 192) :
    (iblk1 V c 1 t : Vec Ideal S1x1x2048x192 .bf16) (ix4 (0 : Fin 1) (0 : Fin 1) k e)
      = (V c main_v6 : TG.Idx → EReal) (ix4 (⟨t.val / 64, by have := lt_N1 t; omega⟩ : Fin 4) (⟨t.val / 4 % 16, by omega⟩ : Fin 16) k e) :=
  iblk1_1_apply V c t _ _ rfl rfl rfl rfl

/-- Point `t` writes back block `t` of the probabilities. -/
theorem flushed1_2_eq (c : Dev nD) (t : Fin cfg1.N) :
    (dat1 (F := Ideal) V c).flushed 2 t = ((cfg1.win 2).blk t).view.read (Elt Ideal) (attnArr (V c main_v6)) := by
  show (cfg1.win 2).cut (grid1.coords t) ((dat1 V c).after 2 t) = _
  rw [after1_2]
  unfold out1_2
  rw [View.canon_unit_zero hz4]
  simp only [View.ld_unit_zero (S := S1x1x512x192) hz4, View.ld_unit_zero (S := S1x1x2048x192) hz4]
  obtain ⟨-, -, ⟨e0, e1, e2, e3⟩, -⟩ := idx_facts1 t
  funext j
  show k1_pay3 (F := Ideal) (iblk1 V c 0 t) (iblk1 V c 1 t) j = attnArr (V c main_v6) (((cfg1.win 2).blk t).view.emb j)
  refine pay3_point (V c main_v6) _ _ _ (iblk1 V c 0 t) (iblk1 V c 1 t) (hx0_at V c t) (hx1_at V c t) j _ ?_ ?_ ?_ ?_
  · show win1_2.index t 0 * 1 + 1 * (j 0).val = t.val / 64; have : (j 0).val < 1 := (j 0).isLt; omega
  · show win1_2.index t 1 * 1 + 1 * (j 1).val = t.val / 4 % 16; have : (j 1).val < 1 := (j 1).isLt; omega
  · show win1_2.index t 2 * 512 + 1 * (j 2).val = t.val % 4 * 512 + (j 2).val; omega
  · show win1_2.index t 3 * 2048 + 1 * (j 3).val = (j 3).val; omega

/-- Point `t` writes back block `t` of the weighted sums. -/
theorem flushed1_3_eq (c : Dev nD) (t : Fin cfg1.N) :
    (dat1 (F := Ideal) V c).flushed 3 t = ((cfg1.win 3).blk t).view.read (Elt Ideal) (aoArr (V c main_v6)) := by
  show (cfg1.win 3).cut (grid1.coords t) ((dat1 V c).after 3 t) = _
  rw [after1_3]
  unfold out1_3
  rw [View.canon_unit_zero hz4]
  simp only [View.ld_unit_zero (S := S1x1x512x192) hz4, View.ld_unit_zero (S := S1x1x2048x192) hz4]
  obtain ⟨-, -, -, ⟨e0, e1, e2, e3⟩⟩ := idx_facts1 t
  funext j
  show k1_pay4 (F := Ideal) (iblk1 V c 0 t) (iblk1 V c 1 t) j = aoArr (V c main_v6) (((cfg1.win 3).blk t).view.emb j)
  refine pay4_point (V c main_v6) _ _ _ (iblk1 V c 0 t) (iblk1 V c 1 t) (hx0_at V c t) (hx1_at V c t) j _ ?_ ?_ ?_ ?_
  · show win1_3.index t 0 * 1 + 1 * (j 0).val = t.val / 64; have : (j 0).val < 1 := (j 0).isLt; omega
  · show win1_3.index t 1 * 1 + 1 * (j 1).val = t.val / 4 % 16; have : (j 1).val < 1 := (j 1).isLt; omega
  · show win1_3.index t 2 * 512 + 1 * (j 2).val = t.val % 4 * 512 + (j 2).val; omega
  · show win1_3.index t 3 * 64 + 1 * (j 3).val = (j 3).val; omega

/-! ## The blocks cover the arrays -/

/-- An index of an output array is in point `t`'s block iff each coordinate is in the block's range on its axis. -/
theorem mem_blk1_2 (t : Fin cfg1.N) (i : S4x16x2048x2048.Idx) :
    i ∈ ((cfg1.win 2).blk t).view.set ↔ ∀ a : Fin 4, win1_2.index t a * S1x1x512x2048.size a ≤ (i a).val ∧ (i a).val < win1_2.index t a * S1x1x512x2048.size a + S1x1x512x2048.size a := by
  show i ∈ ((View.whole main_v7_0).slice (win1_2.rect t)).set ↔ _
  rw [View.set_slice_whole, Rect.mem_set_unit]
  exact Iff.rfl

theorem mem_blk1_3 (t : Fin cfg1.N) (i : S4x16x2048x64.Idx) :
    i ∈ ((cfg1.win 3).blk t).view.set ↔ ∀ a : Fin 4, win1_3.index t a * S1x1x512x64.size a ≤ (i a).val ∧ (i a).val < win1_3.index t a * S1x1x512x64.size a + S1x1x512x64.size a := by
  show i ∈ ((View.whole main_v7_1).slice (win1_3.rect t)).set ↔ _
  rw [View.set_slice_whole, Rect.mem_set_unit]
  exact Iff.rfl

/-- The point that covers (entry `b`, head `h`, row `s`) is `b·64 + h·4 + s / 512`. -/
theorem point_of (b h s : Nat) (hb : b < 4) (hh : h < 16) (hs : s < 2048) :
    ∃ t : Fin cfg1.N, t.val / 64 = b ∧ t.val / 4 % 16 = h ∧ t.val % 4 = s / 512 :=
  ⟨⟨b * 64 + h * 4 + s / 512, by rw [show cfg1.N = 256 from N_1]; omega⟩, by show (b * 64 + h * 4 + s / 512) / 64 = b; omega,
    by show (b * 64 + h * 4 + s / 512) / 4 % 16 = h; omega, by show (b * 64 + h * 4 + s / 512) % 4 = s / 512; omega⟩

theorem cover1_2_arr (i : S4x16x2048x2048.Idx) : ∃ t : Fin cfg1.N, (cfg1.win 2).flush t = true ∧ i ∈ ((cfg1.win 2).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, p0, p1, p2⟩ := point_of (i 0).val (i 1).val (i 2).val hi0 hi1 hi2
  obtain ⟨-, -, ⟨e0, e1, e2, e3⟩, -⟩ := idx_facts1 t
  refine ⟨t, flush1_2 t, ?_⟩
  rw [mem_blk1_2]
  intro a
  match a with
  | ⟨0, _⟩ => show win1_2.index t 0 * 1 ≤ (i 0).val ∧ (i 0).val < win1_2.index t 0 * 1 + 1; omega
  | ⟨1, _⟩ => show win1_2.index t 1 * 1 ≤ (i 1).val ∧ (i 1).val < win1_2.index t 1 * 1 + 1; omega
  | ⟨2, _⟩ => show win1_2.index t 2 * 512 ≤ (i 2).val ∧ (i 2).val < win1_2.index t 2 * 512 + 512; omega
  | ⟨3, _⟩ => show win1_2.index t 3 * 2048 ≤ (i 3).val ∧ (i 3).val < win1_2.index t 3 * 2048 + 2048; omega

theorem cover1_3_arr (i : S4x16x2048x64.Idx) : ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, p0, p1, p2⟩ := point_of (i 0).val (i 1).val (i 2).val hi0 hi1 hi2
  obtain ⟨-, -, -, ⟨e0, e1, e2, e3⟩⟩ := idx_facts1 t
  refine ⟨t, flush1_3 t, ?_⟩
  rw [mem_blk1_3]
  intro a
  match a with
  | ⟨0, _⟩ => show win1_3.index t 0 * 1 ≤ (i 0).val ∧ (i 0).val < win1_3.index t 0 * 1 + 1; omega
  | ⟨1, _⟩ => show win1_3.index t 1 * 1 ≤ (i 1).val ∧ (i 1).val < win1_3.index t 1 * 1 + 1; omega
  | ⟨2, _⟩ => show win1_3.index t 2 * 512 ≤ (i 2).val ∧ (i 2).val < win1_3.index t 2 * 512 + 512; omega
  | ⟨3, _⟩ => show win1_3.index t 3 * 64 ≤ (i 3).val ∧ (i 3).val < win1_3.index t 3 * 64 + 64; omega

end Cert.KernelIdeal.Hand.Out1

namespace Cert.KernelIdeal.Hand
open Cert.KernelIdeal Cert.KernelIdeal.Gen
open Idealize.ShloMosaic Idealize.ShloMosaic.TcCoe Idealize.SL.Sem
open Out1

/-! ## The two output arrays after the region -/

/-- The probabilities' array ends holding the specification's soft-max of the per-head layout the region found. -/
theorem final1_2 (V : (c : Dev nD) → (b : Ref sig .tc) → Buf (Elt Ideal) ((c : Thread nD τ).loc b)) (c : Dev nD) :
    (dat1 (F := Ideal) V c).arrAt 2 cfg1.N = Cert.Attn.attnArr (V c main_v6) :=
  (dat1 (F := Ideal) V c).arrAt_eq_of_cover 2 (Cert.Attn.attnArr (V c main_v6)) (fun t _ => flushed1_2_eq V c t) cover1_2_arr

/-- The weighted sums' array ends holding the specification's. -/
theorem final1_3 (V : (c : Dev nD) → (b : Ref sig .tc) → Buf (Elt Ideal) ((c : Thread nD τ).loc b)) (c : Dev nD) :
    (dat1 (F := Ideal) V c).arrAt 3 cfg1.N = Cert.Attn.aoArr (V c main_v6) :=
  (dat1 (F := Ideal) V c).arrAt_eq_of_cover 3 (Cert.Attn.aoArr (V c main_v6)) (fun t _ => flushed1_3_eq V c t) cover1_3_arr

end Cert.KernelIdeal.Hand
end
-- ==== Proof.Val2.lean ====
import proofs.«181592_j54889682043438_2_alg».proof.Proof.Reg2
import proofs.«181592_j54889682043438_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat)

namespace Out2

/-! # The output projection's array after the run, index by index -/

/-! ## One head's product at an index -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem dd_lhs0 (i : S512x1024.Idx) (q : (dot_S512x64_S64x1024_S512x1024_1_0_0_1_n_n).contr.Idx) :
    ((dot_S512x64_S64x1024_S512x1024_1_0_0_1_n_n).lhsIdx i q 0).val = (i 0).val := by
  unfold DotDims.lhsIdx
  rw [dif_neg (show ¬(0 : Fin S512x64.rank) ∈ (dot_S512x64_S64x1024_S512x1024_1_0_0_1_n_n).lhsBatch by decide), dif_pos (show (0 : Fin S512x64.rank) ∈ (dot_S512x64_S64x1024_S512x1024_1_0_0_1_n_n).lhsNonContracting by decide)]
  rfl
theorem dd_lhs1 (i : S512x1024.Idx) (q : (dot_S512x64_S64x1024_S512x1024_1_0_0_1_n_n).contr.Idx) :
    ((dot_S512x64_S64x1024_S512x1024_1_0_0_1_n_n).lhsIdx i q 1).val = (q ⟨0, by decide⟩).val :=
  (dot_S512x64_S64x1024_S512x1024_1_0_0_1_n_n).lhsIdx_val_of_single rfl i q
theorem dd_rhs0 (i : S512x1024.Idx) (q : (dot_S512x64_S64x1024_S512x1024_1_0_0_1_n_n).contr.Idx) :
    ((dot_S512x64_S64x1024_S512x1024_1_0_0_1_n_n).rhsIdx i q 0).val = (q ⟨0, by decide⟩).val :=
  (dot_S512x64_S64x1024_S512x1024_1_0_0_1_n_n).rhsIdx_val_of_single rfl i q
theorem dd_rhs1 (i : S512x1024.Idx) (q : (dot_S512x64_S64x1024_S512x1024_1_0_0_1_n_n).contr.Idx) :
    ((dot_S512x64_S64x1024_S512x1024_1_0_0_1_n_n).rhsIdx i q 1).val = (i 1).val := by
  unfold DotDims.rhsIdx
  rw [dif_neg (show ¬(1 : Fin S64x1024.rank) ∈ (dot_S512x64_S64x1024_S512x1024_1_0_0_1_n_n).rhsBatch by decide), dif_pos (show (1 : Fin S64x1024.rank) ∈ (dot_S512x64_S64x1024_S512x1024_1_0_0_1_n_n).rhsNonContracting by decide)]
  rfl

/-- One head's matmul into the zero accumulator, at row `s` and column `o`: the sum over the 64 lanes of the
    head's slab of activations times its slab of weights. -/
theorem head_apply (a : Vec Ideal S1x1x512x64 .bf16) (b : Vec Ideal S1x64x1024 .bf16) (s : Fin 512) (o : Fin 1024) :
    matmul dot_S512x64_S64x1024_S512x1024_1_0_0_1_n_n none (shapeCast S512x64 a shapeCasts_S1x1x512x64_S512x64 : FVec Ideal S512x64 .bf16)
        (shapeCast S64x1024 b shapeCasts_S1x64x1024_S64x1024 : FVec Ideal S64x1024 .bf16) (constant (F := Ideal) S512x1024 .f32 0x00000000#32) (ix2 s o)
      = ∑ d : Fin 64, a (ix4 (0 : Fin 1) (0 : Fin 1) s d) * b (ix3 (0 : Fin 1) d o) := by
  refine (Ideal.matmul_constant_zero_apply dot_S512x64_S64x1024_S512x1024_1_0_0_1_n_n none _ _ (ix2 s o)).trans ?_
  rw [← Equiv.sum_comp (ValueIdx.contrEquiv1 dot_S512x64_S64x1024_S512x1024_1_0_0_1_n_n 64 rfl rfl).symm]
  refine Finset.sum_congr rfl fun k _ => ?_
  have hk := ValueIdx.contrEquiv1_symm_val dot_S512x64_S64x1024_S512x1024_1_0_0_1_n_n 64 rfl rfl k
  have el : (dot_S512x64_S64x1024_S512x1024_1_0_0_1_n_n).lhsIdx (ix2 s o) ((ValueIdx.contrEquiv1 dot_S512x64_S64x1024_S512x1024_1_0_0_1_n_n 64 rfl rfl).symm k) = ix2 s k := funext fun a => Fin.ext (by
    match a with
    | ⟨0, _⟩ => exact dd_lhs0 _ _
    | ⟨1, _⟩ => exact (dd_lhs1 _ _).trans hk)
  have er : (dot_S512x64_S64x1024_S512x1024_1_0_0_1_n_n).rhsIdx (ix2 s o) ((ValueIdx.contrEquiv1 dot_S512x64_S64x1024_S512x1024_1_0_0_1_n_n 64 rfl rfl).symm k) = ix2 k o := funext fun a => Fin.ext (by
    match a with
    | ⟨0, _⟩ => exact (dd_rhs0 _ _).trans hk
    | ⟨1, _⟩ => exact dd_rhs1 _ _)
  rw [el, er, shapeCast_11ab_ab_apply, shapeCast_1ab_ab_apply]

/-! ## The body's stored value at an index -/

/-- Head `h`'s contribution to row `s`, column `o` of the block's product: the sum over the 64 lanes. -/
def headTerm (x0 : Vec Ideal S1x16x512x64 .bf16) (x1 : Vec Ideal S16x64x1024 .bf16) (s : Fin 512) (o : Fin 1024) (h : Fin 16) : EReal :=
  ∑ d : Fin 64, x0 (ix4 (0 : Fin 1) h s d) * x1 (ix3 h d o)

/-- Head `hn`'s matmul, its operands loaded through the head's slabs of the two blocks. -/
theorem head_ld (x0 : Vec Ideal S1x16x512x64 .bf16) (x1 : Vec Ideal S16x64x1024 .bf16) (hn : ℕ) (hh : hn < 16)
    (ia : ∀ a, (![0, hn, 0, 0] : Fin 4 → ℕ) a + S1x1x512x64.size a ≤ S1x16x512x64.size a)
    (ib : ∀ a, (![hn, 0, 0] : Fin 3 → ℕ) a + S1x64x1024.size a ≤ S16x64x1024.size a) (s : Fin 512) (o : Fin 1024) :
    matmul dot_S512x64_S64x1024_S512x1024_1_0_0_1_n_n none
        (shapeCast S512x64 (View.ld x0 (Rect.unit (s := S1x16x512x64) ![0, hn, 0, 0] S1x1x512x64.size ia)) shapeCasts_S1x1x512x64_S512x64 : FVec Ideal S512x64 .bf16)
        (shapeCast S64x1024 (View.ld x1 (Rect.unit (s := S16x64x1024) ![hn, 0, 0] S1x64x1024.size ib)) shapeCasts_S1x64x1024_S64x1024 : FVec Ideal S64x1024 .bf16)
        (constant (F := Ideal) S512x1024 .f32 0x00000000#32) (ix2 s o)
      = headTerm x0 x1 s o ⟨hn, hh⟩ := by
  refine (head_apply _ _ s o).trans ?_
  unfold headTerm
  refine Finset.sum_congr rfl fun d _ => ?_
  refine congrArg₂ (· * ·) (congrArg x0 (funext fun a => Fin.ext ?_)) (congrArg x1 (funext fun a => Fin.ext ?_))
  · match a with
    | ⟨0, _⟩ => show 0 + 1 * 0 = 0; omega
    | ⟨1, _⟩ => show hn + 1 * 0 = hn; omega
    | ⟨2, _⟩ => show 0 + 1 * s.val = s.val; omega
    | ⟨3, _⟩ => show 0 + 1 * d.val = d.val; omega
  · match a with
    | ⟨0, _⟩ => show hn + 1 * 0 = hn; omega
    | ⟨1, _⟩ => show 0 + 1 * d.val = d.val; omega
    | ⟨2, _⟩ => show 0 + 1 * o.val = o.val; omega

/-- A sum over sixteen heads, written out from zero in the order the body accumulates it. -/
theorem sum16 {M : Type} [AddCommMonoid M] (f : Fin 16 → M) :
    ∑ h, f h = 0 + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ := by
  simp only [Fin.sum_univ_castSucc, Fin.sum_univ_zero]
  rfl

theorem hz3 : (![0, 0, 0] : Fin 3 → Nat) = fun _ => 0 := funext fun a => by fin_cases a <;> rfl

/-- The body's stored value at row `s`, column `o` of the output block: the sixteen heads' contributions summed. -/
theorem out2_apply (x0 : Vec Ideal S1x16x512x64 .bf16) (x1 : Vec Ideal S16x64x1024 .bf16) (s : Fin 512) (o : Fin 1024) :
    out2_2 x0 x1 (ix3 (0 : Fin 1) s o) = ∑ h : Fin 16, headTerm x0 x1 s o h := by
  rw [sum16]
  unfold out2_2
  rw [View.canon_unit_zero hz3]
  unfold k2_pay1 k2_pay2 k2_pay3 k2_pay4 k2_pay5
  refine (shapeCast_ab_1ab_apply _ _ (0 : Fin 1) s o).trans ?_
  have e0 : (broadcast S512x1024 (Scalar.ofBits .f32 0x00000000#32 : Ideal .f32) : FVec Ideal S512x1024 .f32) (ix2 s o) = 0 := Ideal.ofBits_zero_f32
  have e1 := congrArg₂ (· + ·) e0 (head_ld x0 x1 0 (by decide) inb_S1x16x512x64_S1x1x512x64_0_0_0_0 inb_S16x64x1024_S1x64x1024_0_0_0 s o)
  have e2 := congrArg₂ (· + ·) e1 (head_ld x0 x1 1 (by decide) inb_S1x16x512x64_S1x1x512x64_0_1_0_0 inb_S16x64x1024_S1x64x1024_1_0_0 s o)
  have e3 := congrArg₂ (· + ·) e2 (head_ld x0 x1 2 (by decide) inb_S1x16x512x64_S1x1x512x64_0_2_0_0 inb_S16x64x1024_S1x64x1024_2_0_0 s o)
  have e4 := congrArg₂ (· + ·) e3 (head_ld x0 x1 3 (by decide) inb_S1x16x512x64_S1x1x512x64_0_3_0_0 inb_S16x64x1024_S1x64x1024_3_0_0 s o)
  have e5 := congrArg₂ (· + ·) e4 (head_ld x0 x1 4 (by decide) inb_S1x16x512x64_S1x1x512x64_0_4_0_0 inb_S16x64x1024_S1x64x1024_4_0_0 s o)
  have e6 := congrArg₂ (· + ·) e5 (head_ld x0 x1 5 (by decide) inb_S1x16x512x64_S1x1x512x64_0_5_0_0 inb_S16x64x1024_S1x64x1024_5_0_0 s o)
  have e7 := congrArg₂ (· + ·) e6 (head_ld x0 x1 6 (by decide) inb_S1x16x512x64_S1x1x512x64_0_6_0_0 inb_S16x64x1024_S1x64x1024_6_0_0 s o)
  have e8 := congrArg₂ (· + ·) e7 (head_ld x0 x1 7 (by decide) inb_S1x16x512x64_S1x1x512x64_0_7_0_0 inb_S16x64x1024_S1x64x1024_7_0_0 s o)
  have e9 := congrArg₂ (· + ·) e8 (head_ld x0 x1 8 (by decide) inb_S1x16x512x64_S1x1x512x64_0_8_0_0 inb_S16x64x1024_S1x64x1024_8_0_0 s o)
  have e10 := congrArg₂ (· + ·) e9 (head_ld x0 x1 9 (by decide) inb_S1x16x512x64_S1x1x512x64_0_9_0_0 inb_S16x64x1024_S1x64x1024_9_0_0 s o)
  have e11 := congrArg₂ (· + ·) e10 (head_ld x0 x1 10 (by decide) inb_S1x16x512x64_S1x1x512x64_0_10_0_0 inb_S16x64x1024_S1x64x1024_10_0_0 s o)
  have e12 := congrArg₂ (· + ·) e11 (head_ld x0 x1 11 (by decide) inb_S1x16x512x64_S1x1x512x64_0_11_0_0 inb_S16x64x1024_S1x64x1024_11_0_0 s o)
  have e13 := congrArg₂ (· + ·) e12 (head_ld x0 x1 12 (by decide) inb_S1x16x512x64_S1x1x512x64_0_12_0_0 inb_S16x64x1024_S1x64x1024_12_0_0 s o)
  have e14 := congrArg₂ (· + ·) e13 (head_ld x0 x1 13 (by decide) inb_S1x16x512x64_S1x1x512x64_0_13_0_0 inb_S16x64x1024_S1x64x1024_13_0_0 s o)
  have e15 := congrArg₂ (· + ·) e14 (head_ld x0 x1 14 (by decide) inb_S1x16x512x64_S1x1x512x64_0_14_0_0 inb_S16x64x1024_S1x64x1024_14_0_0 s o)
  have e16 := congrArg₂ (· + ·) e15 (head_ld x0 x1 15 (by decide) inb_S1x16x512x64_S1x1x512x64_0_15_0_0 inb_S16x64x1024_S1x64x1024_15_0_0 s o)
  exact e16

/-! ## From blocks to the array -/

/-- The printed index maps, decided over the grid: the activations' block moves with the output's on the batch and
    row axes and stays at the first head and lane block; the weights' block never moves; the output's block indices
    stay in their ranges. -/
theorem idx_facts2 : ∀ t : Fin cfg2.N,
    win2_0.index t (0 : Fin 4) = win2_2.index t (0 : Fin 3) ∧ win2_0.index t (1 : Fin 4) = 0
    ∧ win2_0.index t (2 : Fin 4) = win2_2.index t (1 : Fin 3) ∧ win2_0.index t (3 : Fin 4) = 0
    ∧ win2_1.index t (0 : Fin 3) = 0 ∧ win2_1.index t (1 : Fin 3) = 0 ∧ win2_1.index t (2 : Fin 3) = 0
    ∧ win2_2.index t (0 : Fin 3) ≤ 3 ∧ win2_2.index t (1 : Fin 3) ≤ 3 ∧ win2_2.index t (2 : Fin 3) = 0 :=
  (by decide +kernel : ∀ t : Fin grid2.N, _)

/-- Every block of the output array is some point's. -/
theorem idx_onto2 : ∀ (q0 : Fin 4) (q1 : Fin 4), ∃ t : Fin cfg2.N, win2_2.index t = ![q0.val, q1.val, 0] :=
  (by decide +kernel : ∀ (q0 : Fin 4) (q1 : Fin 4), ∃ t : Fin grid2.N, win2_2.index t = ![q0.val, q1.val, 0])

/-- The body's stored value at a point whose input blocks are the batch's rows of the activations (`h0`) and the
    whole weights (`h1`): the projection at that batch and row. -/
theorem point_eq (A : Cert.Attn.TO.Idx → EReal) (W : Cert.Attn.TW.Idx → EReal)
    (x0 : Vec Ideal S1x16x512x64 .bf16) (x1 : Vec Ideal S16x64x1024 .bf16) (b : Fin 4) (S : Fin 512 → Fin 2048)
    (h0 : ∀ (h : Fin 16) (s : Fin 512) (d : Fin 64), x0 (ix4 (0 : Fin 1) h s d) = A (ix4 b h (S s) d))
    (h1 : ∀ (h : Fin 16) (d : Fin 64) (o : Fin 1024), x1 (ix3 h d o) = W (ix3 h d o))
    (s : Fin 512) (o : Fin 1024) :
    out2_2 x0 x1 (ix3 (0 : Fin 1) s o) = Cert.Attn.proj A W (ix3 b (S s) o) := by
  rw [out2_apply, Cert.Attn.proj_apply]
  refine Finset.sum_congr rfl fun h _ => ?_
  unfold headTerm
  refine Finset.sum_congr rfl fun d _ => ?_
  rw [h0, h1]

/-- What point `t` writes back is block `t` of the projection of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Cert.Attn.proj (V c main_v7_1) (V c main_v10)) := by
  show (cfg2.win 2).cut (grid2.coords t) ((dat2 V c).after 2 t) = _
  rw [after2_2]
  obtain ⟨e0, e1, e2, e3, e4, e5, e6, e7, e8, e9⟩ := idx_facts2 t
  funext j
  obtain ⟨u, s, o, rfl⟩ : ∃ (u : Fin 1) (s : Fin 512) (o : Fin 1024), j = ix3 u s o := ⟨j 0, j 1, j 2, eq_ix3 j⟩
  obtain rfl : u = 0 := Subsingleton.elim _ _
  have hb : win2_2.index t (0 : Fin 3) < 4 := by omega
  have hS : ∀ s : Fin 512, win2_2.index t (1 : Fin 3) * 512 + s.val < 2048 := fun s => by have := s.isLt; omega
  show out2_2 (iblk2 V c 0 t) (iblk2 V c 1 t) (ix3 (0 : Fin 1) s o) = Cert.Attn.proj (V c main_v7_1) (V c main_v10) (((cfg2.win 2).blk t).view.emb (ix3 (0 : Fin 1) s o))
  have hemb : ((cfg2.win 2).blk t).view.emb (ix3 (0 : Fin 1) s o) = ix3 (⟨win2_2.index t (0 : Fin 3), hb⟩ : Fin 4) (⟨win2_2.index t (1 : Fin 3) * 512 + s.val, hS s⟩ : Fin 2048) o := by
    funext a; apply Fin.ext
    match a with
    | ⟨0, _⟩ => show win2_2.index t (0 : Fin 3) * 1 + 1 * 0 = win2_2.index t (0 : Fin 3); omega
    | ⟨1, _⟩ => show win2_2.index t (1 : Fin 3) * 512 + 1 * s.val = win2_2.index t (1 : Fin 3) * 512 + s.val; omega
    | ⟨2, _⟩ => show win2_2.index t (2 : Fin 3) * 1024 + 1 * o.val = o.val; omega
  rw [hemb]
  refine point_eq (V c main_v7_1) (V c main_v10) (iblk2 V c 0 t) (iblk2 V c 1 t) ⟨_, hb⟩ (fun s => ⟨_, hS s⟩) ?_ ?_ s o
  · intro h s d
    show V c main_v7_1 (((cfg2.win 0).blk t).view.emb (ix4 (0 : Fin 1) h s d)) = V c main_v7_1 _
    refine congrArg _ (funext fun a => Fin.ext ?_)
    match a with
    | ⟨0, _⟩ => show win2_0.index t (0 : Fin 4) * 1 + 1 * 0 = win2_2.index t (0 : Fin 3); omega
    | ⟨1, _⟩ => show win2_0.index t (1 : Fin 4) * 16 + 1 * h.val = h.val; omega
    | ⟨2, _⟩ => show win2_0.index t (2 : Fin 4) * 512 + 1 * s.val = win2_2.index t (1 : Fin 3) * 512 + s.val; omega
    | ⟨3, _⟩ => show win2_0.index t (3 : Fin 4) * 64 + 1 * d.val = d.val; omega
  · intro h d o
    show V c main_v10 (((cfg2.win 1).blk t).view.emb (ix3 h d o)) = V c main_v10 _
    refine congrArg _ (funext fun a => Fin.ext ?_)
    match a with
    | ⟨0, _⟩ => show win2_1.index t (0 : Fin 3) * 16 + 1 * h.val = h.val; omega
    | ⟨1, _⟩ => show win2_1.index t (1 : Fin 3) * 64 + 1 * d.val = d.val; omega
    | ⟨2, _⟩ => show win2_1.index t (2 : Fin 3) * 1024 + 1 * o.val = o.val; omega

/-- An index of the array is in point `t`'s block iff each coordinate is in the block's range on its axis. -/
theorem mem_blk2 (t : Fin cfg2.N) (i : S4x2048x1024.Idx) :
    i ∈ ((cfg2.win 2).blk t).view.set ↔ ∀ a : Fin 3, win2_2.index t a * S1x512x1024.size a ≤ (i a).val ∧ (i a).val < win2_2.index t a * S1x512x1024.size a + S1x512x1024.size a := by
  show i ∈ ((View.whole main_v11).slice (win2_2.rect t)).set ↔ _
  rw [View.set_slice_whole, Rect.mem_set_unit]
  exact Iff.rfl

/-- Every index of the output array is in some point's block: the point of its batch and its row's block. -/
theorem cover2 (i : S4x2048x1024.Idx) : ∃ t : Fin cfg2.N, (cfg2.win 2).flush t = true ∧ i ∈ ((cfg2.win 2).blk t).view.set := by
  have hi0 : (i 0).val < 4 := (i 0).isLt
  have hi1 : (i 1).val < 2048 := (i 1).isLt
  have hi2 : (i 2).val < 1024 := (i 2).isLt
  obtain ⟨t, ht⟩ := idx_onto2 ⟨(i 0).val, hi0⟩ ⟨(i 1).val / 512, by omega⟩
  have q0 : win2_2.index t (0 : Fin 3) = (i 0).val := congrFun ht 0
  have q1 : win2_2.index t (1 : Fin 3) = (i 1).val / 512 := congrFun ht 1
  have q2 : win2_2.index t (2 : Fin 3) = 0 := congrFun ht 2
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 512 ≤ (i 1).val ∧ (i 1).val < win2_2.index t (1 : Fin 3) * 512 + 512; omega
  | ⟨2, _⟩ => show win2_2.index t (2 : Fin 3) * 1024 ≤ (i 2).val ∧ (i 2).val < win2_2.index t (2 : Fin 3) * 1024 + 1024; omega

end Out2

/-- The output array after all write-backs: index by index, the heads summed into the projection. -/
theorem final2 (V : (c : Dev nD) → (b : Ref sig .tc) → Buf (Elt Ideal) ((c : Thread nD τ).loc b)) (c : Dev nD) :
    (dat2 (F := Ideal) V c).arrAt 2 cfg2.N = Cert.Attn.proj (V c main_v7_1) (V c main_v10) :=
  (dat2 (F := Ideal) V c).arrAt_eq_of_cover 2 (Cert.Attn.proj (V c main_v7_1) (V c main_v10)) (fun t _ => Out2.flushed2_eq V c t) Out2.cover2

end Cert.KernelIdeal.Hand
end
-- ==== Proof.Bridge.lean ====
/-
  What the kernel program's host operations between its three regions leave in the buffers the regions read, at the
  exact instance (a change of float format is the identity on the extended reals), read at an index:
    before the first region: the first argument's rows flattened ([4,2048,1024] → [8192,1024]: row r is (r / 2048, r % 2048)), and
      the second argument transposed;
    before the second region: the first region's result [8192,3072] reshaped to [4,2048,16,192] and transposed to
      [4,16,2048,192]: (b, h, s, e) is row b·2048 + s, column h·192 + e;
    before the third region: the third argument transposed and reshaped [1024,1024] → [16,64,1024]: (h, d, o) is row o,
      column h·64 + d.
  Then, as pure facts about arrays: the product of the flattened rows with the transposed weights, in that layout, is the
  per-head layout of the specification, and the reshaped transposed output weights are its per-head weights.
-/
import proofs.«181592_j54889682043438_2_alg».proof.Proof.Gen.KernelIdeal.Regions
import proofs.«181592_j54889682043438_2_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx

section Host
variable (W : Valuation τ sig (Elt Ideal))

/-- The first host stretch leaves in its last buffer the converted first argument, reshaped to flattened rows. -/
theorem host0_v3_term :
    (StableHlo.after (hostOps0 (F := Ideal)) W (Proc.devRef .tc main_v3) : S8192x1024.Idx → EReal)
      = shapeCast S8192x1024 (truncf (F := Ideal) .bf16 (W (Proc.devRef .tc main_arg0) : FVec Ideal S4x2048x1024 .f32) bitsLt_bf16_f32)
          shapeCasts_S4x2048x1024_S8192x1024 := by
  dsimp only [hostOps0]; after_results <;> rfl

/-- Row r of the flattened rows is row (r / 2048, r % 2048) of the first argument. -/
theorem host0_v3 (r : Fin 8192) (k : Fin 1024) :
    (StableHlo.after (hostOps0 (F := Ideal)) W (Proc.devRef .tc main_v3) : S8192x1024.Idx → EReal) (ix2 r k)
      = (W (Proc.devRef .tc main_arg0) : S4x2048x1024.Idx → EReal)
          (ix3 ⟨r.val / 2048, by have := r.isLt; omega⟩ ⟨r.val % 2048, by omega⟩ k) := by
  have hr := r.isLt
  rw [host0_v3_term, shapeCast_apply _ shapeCasts_S4x2048x1024_S8192x1024 (ix2 r k)
    (ix3 ⟨r.val / 2048, by omega⟩ ⟨r.val % 2048, by omega⟩ k)
    (by rw [Shape.rowMajor_val_three, Shape.rowMajor_val_two]
        show (r.val / 2048 * 2048 + r.val % 2048) * 1024 + k.val = r.val * 1024 + k.val; omega)]
  rfl

theorem host0_v2_term :
    (StableHlo.after (hostOps0 (F := Ideal)) W (Proc.devRef .tc main_v2) : S1024x3072.Idx → EReal)
      = truncf (F := Ideal) .bf16 (transpose S1024x3072 [1, 0] (W (Proc.devRef .tc main_arg1) : FVec Ideal S3072x1024 .f32)
          transposes_S3072x1024_S1024x3072_1_0) bitsLt_bf16_f32 := by
  dsimp only [hostOps0]; after_results <;> rfl

/-- The second argument, transposed. -/
theorem host0_v2 (k : Fin 1024) (o : Fin 3072) :
    (StableHlo.after (hostOps0 (F := Ideal)) W (Proc.devRef .tc main_v2) : S1024x3072.Idx → EReal) (ix2 k o)
      = (W (Proc.devRef .tc main_arg1) : S3072x1024.Idx → EReal) (ix2 o k) := by
  rw [host0_v2_term]
  show transpose S1024x3072 [1, 0] _ transposes_S3072x1024_S1024x3072_1_0 (ix2 k o) = _
  exact transpose_apply [1, 0] _ transposes_S3072x1024_S1024x3072_1_0 (ix2 k o) (ix2 o k) (fun b => match b with
    | ⟨0, _⟩ => rfl
    | ⟨1, _⟩ => rfl)

theorem host1_v6_term :
    (StableHlo.after (hostOps1 (F := Ideal)) W (Proc.devRef .tc main_v6) : S4x16x2048x192.Idx → EReal)
      = transpose S4x16x2048x192 [0, 2, 1, 3]
          (shapeCast S4x2048x16x192 (W (Proc.devRef .tc main_v4) : S8192x3072.Idx → EReal) shapeCasts_S8192x3072_S4x2048x16x192)
          transposes_S4x2048x16x192_S4x16x2048x192_0_2_1_3 := by
  dsimp only [hostOps1]; after_results <;> rfl

/-- The fused projection's rows, reshaped to heads and transposed: (b, h, s, e) is row b·2048 + s, column h·192 + e. -/
theorem host1_v6 (b : Fin 4) (h : Fin 16) (s : Fin 2048) (e : Fin 192) :
    (StableHlo.after (hostOps1 (F := Ideal)) W (Proc.devRef .tc main_v6) : S4x16x2048x192.Idx → EReal) (ix4 b h s e)
      = (W (Proc.devRef .tc main_v4) : S8192x3072.Idx → EReal)
          (ix2 ⟨b.val * 2048 + s.val, by have := b.isLt; have := s.isLt; omega⟩ (Cert.Attn.colOf h e)) := by
  have hb := b.isLt; have hh := h.isLt; have hs := s.isLt; have he := e.isLt
  rw [host1_v6_term, transpose_apply [0, 2, 1, 3] _ transposes_S4x2048x16x192_S4x16x2048x192_0_2_1_3 (ix4 b h s e) (ix4 b s h e)
    (fun a => match a with
      | ⟨0, _⟩ => rfl
      | ⟨1, _⟩ => rfl
      | ⟨2, _⟩ => rfl
      | ⟨3, _⟩ => rfl),
    shapeCast_apply _ shapeCasts_S8192x3072_S4x2048x16x192 (ix4 b s h e)
      (ix2 ⟨b.val * 2048 + s.val, by omega⟩ (Cert.Attn.colOf h e))
      (by rw [Shape.rowMajor_val_two, Shape.rowMajor_val_four]
          show (b.val * 2048 + s.val) * 3072 + (h.val * 192 + e.val) = ((b.val * 2048 + s.val) * 16 + h.val) * 192 + e.val; omega)]

theorem host2_v10_term :
    (StableHlo.after (hostOps2 (F := Ideal)) W (Proc.devRef .tc main_v10) : S16x64x1024.Idx → EReal)
      = shapeCast S16x64x1024 (truncf (F := Ideal) .bf16 (transpose S1024x1024 [1, 0] (W (Proc.devRef .tc main_arg2) : FVec Ideal S1024x1024 .f32)
          transposes_S1024x1024_S1024x1024_1_0) bitsLt_bf16_f32) shapeCasts_S1024x1024_S16x64x1024 := by
  dsimp only [hostOps2]; after_results <;> rfl

/-- The third argument, transposed and split into heads: (h, d, o) is row o, column h·64 + d. -/
theorem host2_v10 (h : Fin 16) (d : Fin 64) (o : Fin 1024) :
    (StableHlo.after (hostOps2 (F := Ideal)) W (Proc.devRef .tc main_v10) : S16x64x1024.Idx → EReal) (ix3 h d o)
      = (W (Proc.devRef .tc main_arg2) : S1024x1024.Idx → EReal) (ix2 o (Cert.Attn.catOf h d)) := by
  have hh := h.isLt; have hd := d.isLt; have ho := o.isLt
  rw [host2_v10_term, shapeCast_apply _ shapeCasts_S1024x1024_S16x64x1024 (ix3 h d o) (ix2 (Cert.Attn.catOf h d) o)
    (by rw [Shape.rowMajor_val_two, Shape.rowMajor_val_three]
        show (h.val * 64 + d.val) * 1024 + o.val = (h.val * 64 + d.val) * 1024 + o.val; rfl)]
  show transpose S1024x1024 [1, 0] _ transposes_S1024x1024_S1024x1024_1_0 (ix2 (Cert.Attn.catOf h d) o) = _
  exact transpose_apply [1, 0] _ transposes_S1024x1024_S1024x1024_1_0 (ix2 (Cert.Attn.catOf h d) o) (ix2 o (Cert.Attn.catOf h d))
    (fun b => match b with
      | ⟨0, _⟩ => rfl
      | ⟨1, _⟩ => rfl)

end Host

/-! ## The arrays the regions read, from the arguments -/

/-- The per-head layout of the fused projection: the product of the flattened rows of x with the transposed weights,
    read at row b·2048 + s and column h·192 + e, is Σ_c x[b,s,c] · Wqkv[h·192 + e, c]. -/
theorem headQKV_of_mm (x : Cert.Attn.TX.Idx → EReal) (wq : Cert.Attn.TWq.Idx → EReal) (A : Cert.Attn.TA.Idx → EReal)
    (B : Cert.Attn.TB.Idx → EReal)
    (hA : ∀ (r : Fin 8192) (k : Fin 1024),
      A (ix2 r k) = x (ix3 ⟨r.val / 2048, by have := r.isLt; omega⟩ ⟨r.val % 2048, by omega⟩ k))
    (hB : ∀ (k : Fin 1024) (o : Fin 3072), B (ix2 k o) = wq (ix2 o k))
    (G : Cert.Attn.TG.Idx → EReal)
    (hG : ∀ (b : Fin 4) (h : Fin 16) (s : Fin 2048) (e : Fin 192),
      G (ix4 b h s e) = Cert.Attn.mm A B (ix2 ⟨b.val * 2048 + s.val, by have := b.isLt; have := s.isLt; omega⟩ (Cert.Attn.colOf h e))) :
    G = Cert.Attn.headQKV x wq := by
  funext i
  obtain ⟨b, h, s, e, rfl⟩ : ∃ (b : Fin 4) (h : Fin 16) (s : Fin 2048) (e : Fin 192), i = ix4 b h s e :=
    ⟨i 0, i 1, i 2, i 3, eq_ix4 i⟩
  have hb := b.isLt; have hs := s.isLt
  rw [hG, Cert.Attn.mm_apply, Cert.Attn.headQKV_apply]
  refine Finset.sum_congr rfl fun c _ => ?_
  rw [hA, hB]
  refine congrArg (· * _) (congrArg x (funext fun a => Fin.ext ?_))
  match a with
  | ⟨0, _⟩ => show (b.val * 2048 + s.val) / 2048 = b.val; omega
  | ⟨1, _⟩ => show (b.val * 2048 + s.val) % 2048 = s.val; omega
  | ⟨2, _⟩ => rfl

/-- The output weights split into heads. -/
theorem headWo_of (wo : Cert.Attn.TWo.Idx → EReal) (Wt : Cert.Attn.TW.Idx → EReal)
    (h : ∀ (h : Fin 16) (d : Fin 64) (o : Fin 1024), Wt (ix3 h d o) = wo (ix2 o (Cert.Attn.catOf h d))) :
    Wt = Cert.Attn.headWo wo := by
  funext i
  obtain ⟨a, d, o, rfl⟩ : ∃ (a : Fin 16) (d : Fin 64) (o : Fin 1024), i = ix3 a d o := ⟨i 0, i 1, i 2, eq_ix3 i⟩
  rw [h, Cert.Attn.headWo_apply]

end Cert.KernelIdeal.Hand

end
-- ==== Proof.KernelValue.lean ====
/-
  The idealized kernel's two results, read off its run: the buffer contents at the last boundary are, index by index,
  the specification's layers applied in the order of the data flow — the fused projection on flattened rows, the
  per-head layout, attention inside each head, the heads summed into the output projection.
-/
import proofs.«181592_j54889682043438_2_alg».proof.Proof.Run
import proofs.«181592_j54889682043438_2_alg».proof.Proof.Val0
import proofs.«181592_j54889682043438_2_alg».proof.Proof.Val1
import proofs.«181592_j54889682043438_2_alg».proof.Proof.Val2
import proofs.«181592_j54889682043438_2_alg».proof.Proof.Bridge
import proofs.«181592_j54889682043438_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The per-head layout the attention region is entered with is the specification's, of the launch arguments. -/
theorem entry_qkv : (V3 (F := Ideal) m ρ c main_v6 : Cert.Attn.TG.Idx → EReal)
    = Cert.Attn.headQKV (m ((c : Thread nD τ).loc main_arg0)) (m ((c : Thread nD τ).loc main_arg1)) := by
  refine headQKV_of_mm _ _ (V1 (F := Ideal) m ρ c main_v3) (V1 (F := Ideal) m ρ c main_v2)
    (fun r k => host0_v3 (W0 (F := Ideal) m ρ c) r k) (fun k o => host0_v2 (W0 (F := Ideal) m ρ c) k o) _ (fun b h s e => ?_)
  refine (host1_v6 (W2 (F := Ideal) m ρ c) b h s e).trans ?_
  rw [W2_out, final0]

/-- The attention weights. -/
theorem kernel_attn : (W6 (F := Ideal) m ρ c main_v7_0 : Cert.Attn.TP.Idx → EReal)
    = Cert.Attn.attnOut (m ((c : Thread nD τ).loc main_arg0)) (m ((c : Thread nD τ).loc main_arg1)) := by
  rw [W6_of_ne m ρ c main_v7_0 (by decide)]
  refine (keep2 _ main_v7_0 (by decide) (by decide) (by decide)).trans ?_
  rw [W4_out0, final1_2]
  unfold Cert.Attn.attnOut
  exact congrArg _ (entry_qkv m ρ c)

/-- The output weight as the last region finds it, split by head. -/
theorem entry_wo : (V5 (F := Ideal) m ρ c main_v10 : Cert.Attn.TW.Idx → EReal)
    = Cert.Attn.headWo (m ((c : Thread nD τ).loc main_arg2)) := by
  refine headWo_of _ _ (fun h d o => ?_)
  refine (host2_v10 (W4 (F := Ideal) m ρ c) h d o).trans ?_
  have e : W4 (F := Ideal) m ρ c main_arg2 = m ((c : Thread nD τ).loc main_arg2) :=
    calc W4 (F := Ideal) m ρ c main_arg2
      _ = W3 m ρ c main_arg2 := W4_of_ne m ρ c main_arg2 (by decide) (by decide)
      _ = W2 m ρ c main_arg2 := keep1 _ main_arg2 (by decide) (by decide)
      _ = W1 m ρ c main_arg2 := W2_of_ne m ρ c main_arg2 (by decide)
      _ = W0 m ρ c main_arg2 := keep0 _ main_arg2 (by decide) (by decide) (by decide) (by decide)
      _ = m ((c : Thread nD τ).loc main_arg2) := rfl
  rw [e]

/-- The projected output. -/
theorem kernel_out : (W6 (F := Ideal) m ρ c main_v11 : Cert.Attn.TX.Idx → EReal)
    = Cert.Attn.outArr (m ((c : Thread nD τ).loc main_arg0)) (m ((c : Thread nD τ).loc main_arg1)) (m ((c : Thread nD τ).loc main_arg2)) := by
  rw [W6_out, final2]
  unfold Cert.Attn.outArr
  have e1 : (V5 (F := Ideal) m ρ c main_v7_1 : Cert.Attn.TO.Idx → EReal)
      = Cert.Attn.aoArr (Cert.Attn.headQKV (m ((c : Thread nD τ).loc main_arg0)) (m ((c : Thread nD τ).loc main_arg1))) := by
    refine (keep2 _ main_v7_1 (by decide) (by decide) (by decide)).trans ?_
    rw [W4_out1, final1_3]
    exact congrArg _ (entry_qkv m ρ c)
  rw [e1, entry_wo]

end Cert.KernelIdeal.Hand

end
-- ==== Proof.RefConsts.lean ====
import Idealize.ShloMosaic.PureOps.Ideal
import proofs.«181592_j54889682043438_2_alg».proof.Proof.Spec

noncomputable section

namespace Cert.ReferenceIdeal.RefConsts

open Idealize.ShloMosaic

/-- The word of 64.0 denotes the real 64. -/
theorem ofBits_64 : Ideal.ofBits .f32 0x42800000#32 = ((64 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of 0.125 denotes 1/8. -/
theorem ofBits_eighth : Ideal.ofBits .f32 0x3E000000#32 = ((1 / 8 : ℝ) : EReal) := by
  simp [Ideal.ofBits, Ideal.ieee, -EReal.coe_mul]; norm_num

/-- The word 0xFF800000 denotes −∞, the least extended real. -/
theorem ofBits_negInf : Ideal.ofBits .f32 0xFF800000#32 = (⊥ : EReal) := by
  simp [Ideal.ofBits, Ideal.ieee]

/-- The word of +0.0 denotes 0. -/
theorem ofBits_zero : Ideal.ofBits .f32 0x00000000#32 = (0 : EReal) := by
  simp [Ideal.ofBits, Ideal.ieee]

/-- √64 = 8. -/
theorem sqrt_64 : Real.sqrt 64 = 8 := by
  rw [show (64 : ℝ) = 8 ^ 2 by norm_num, Real.sqrt_sq (by norm_num)]

/-- 1/√64, computed on the extended reals from the words of 1.0 and 64.0, is the word of 0.125. -/
theorem scale_eq : Ideal.div (Ideal.ofBits .f32 0x3F800000#32) (Ideal.sqrt (Ideal.ofBits .f32 0x42800000#32)) = Cert.Attn.scale := by
  rw [Cert.Attn.scale, ofBits_64, ofBits_one, ofBits_eighth, Ideal.sqrt_coe, if_neg (by norm_num), sqrt_64,
    Ideal.div_coe (by norm_num), ← EReal.coe_mul, one_mul]

theorem negInf_eq : Cert.Attn.negInf = (⊥ : EReal) := ofBits_negInf

end Cert.ReferenceIdeal.RefConsts

end
-- ==== Proof.Ref.lean ====
/-
  The reference program's two results, at the exact instance (extended reals), are the specification's arrays.

  Read one operation at a time, at an index split into its coordinates:
    the fused projection, reshaped [4,2048,3072] → [4,2048,16,192] and transposed to [4,16,2048,192], at (b, h, s, e) is
      Σ_c x[b,s,c] · Wqkv[h·192 + e, c]   (flat position ((b·2048 + s)·16 + h)·192 + e has row (b, s), column h·192 + e);
    its three slices are lanes e = d, 64 + d, 128 + d of a head's 192 columns;
    1/√64 on the extended reals is the real 1/8, the value of the word of 0.125;
    the row maximum is a fold of max from −∞ over the keys, and the further maximum with −∞ = ⊥ changes nothing;
    the sum of the exponentials starts from the word of +0.0, which is 0;
    the concatenation [4,2048,16,64] → [4,2048,1024] puts head h's lane d in column h·64 + d, so the last contraction
      over j ∈ Fin 1024 is the double sum over (h, d) ∈ Fin 16 × Fin 64 with j = h·64 + d (a reindexing of a finite sum in an
      additive commutative monoid; no finiteness of the inputs is used).
-/
import proofs.«181592_j54889682043438_2_alg».proof.Proof.Gen.ReferenceIdeal.Read
import proofs.«181592_j54889682043438_2_alg».proof.Proof.Spec
import proofs.«181592_j54889682043438_2_alg».proof.Proof.RefConsts
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn Cert.ReferenceIdeal.RefConsts

abbrev AX := (⟨S4x2048x1024, .f32⟩ : BufTy).Contents (Elt Ideal)
abbrev AWq := (⟨S3072x1024, .f32⟩ : BufTy).Contents (Elt Ideal)
abbrev AWo := (⟨S1024x1024, .f32⟩ : BufTy).Contents (Elt Ideal)

/-- The reshaped and transposed fused projection at (b, h, s, e) is the per-head layout's element:
    the flat position ((b·2048 + s)·16 + h)·192 + e has row (b, s) and column h·192 + e. -/
theorem v2_apply (x : AX) (wq : AWq) (b : Fin 4) (h : Fin 16) (s : Fin 2048) (e : Fin 192) :
    val_main_v2 (F := Ideal) x wq (ix4 b h s e) = headQKV x wq (ix4 b h s e) := by
  rw [val_main_v2_apply, val_main_v1_apply, val_main_v0_apply, headQKV_apply]
  refine Finset.sum_congr rfl fun k _ => ?_
  have hb := b.isLt; have hh := h.isLt; have hs := s.isLt; have he := e.isLt
  have el : lidx_main_v0 (idx_main_v1 (idx_main_v2 (ix4 b h s e))) k = ix3 b s k := funext fun a => Fin.ext (by
    match a with
    | ⟨0, _⟩ => show (((b.val * 2048 + s.val) * 16 + h.val) * 192 + e.val) / 6291456 = b.val; omega
    | ⟨1, _⟩ => show (((b.val * 2048 + s.val) * 16 + h.val) * 192 + e.val) / 3072 % 2048 = s.val; omega
    | ⟨2, _⟩ => rfl)
  have er : ridx_main_v0 (idx_main_v1 (idx_main_v2 (ix4 b h s e))) k = ix2 (colOf h e) k := funext fun a => Fin.ext (by
    match a with
    | ⟨0, _⟩ => show (((b.val * 2048 + s.val) * 16 + h.val) * 192 + e.val) % 3072 = h.val * 192 + e.val; omega
    | ⟨1, _⟩ => rfl)
  rw [el, er]

section
variable (x : AX) (wq : AWq)

/-- The three slices are the query, key and value lanes of a head's 192 columns. -/
theorem v3_apply (b : Fin 4) (h : Fin 16) (s : Fin 2048) (d : Fin 64) :
    val_main_v3 (F := Ideal) x wq (ix4 b h s d) = headQKV x wq (ix4 b h s (lane 0 d)) := by
  rw [val_main_v3_apply, show idx_main_v3 (ix4 b h s d) = ix4 b h s (lane 0 d) from funext fun a => Fin.ext (by
    match a with
    | ⟨0, _⟩ => rfl
    | ⟨1, _⟩ => rfl
    | ⟨2, _⟩ => rfl
    | ⟨3, _⟩ => show d.val = 0 * 64 + d.val; omega), v2_apply]

theorem v4_apply (b : Fin 4) (h : Fin 16) (s : Fin 2048) (d : Fin 64) :
    val_main_v4 (F := Ideal) x wq (ix4 b h s d) = headQKV x wq (ix4 b h s (lane 1 d)) := by
  rw [val_main_v4_apply, show idx_main_v4 (ix4 b h s d) = ix4 b h s (lane 1 d) from funext fun a => Fin.ext (by
    match a with
    | ⟨0, _⟩ => rfl
    | ⟨1, _⟩ => rfl
    | ⟨2, _⟩ => rfl
    | ⟨3, _⟩ => show 64 + d.val = 1 * 64 + d.val; omega), v2_apply]

theorem v5_apply (b : Fin 4) (h : Fin 16) (s : Fin 2048) (d : Fin 64) :
    val_main_v5 (F := Ideal) x wq (ix4 b h s d) = headQKV x wq (ix4 b h s (lane 2 d)) := by
  rw [val_main_v5_apply, show idx_main_v5 (ix4 b h s d) = ix4 b h s (lane 2 d) from funext fun a => Fin.ext (by
    match a with
    | ⟨0, _⟩ => rfl
    | ⟨1, _⟩ => rfl
    | ⟨2, _⟩ => rfl
    | ⟨3, _⟩ => show 128 + d.val = 2 * 64 + d.val; omega), v2_apply]

/-- The scalar 1/√64 is the word of 0.125. -/
theorem v7_apply (j : S_.Idx) : val_main_v7 (F := Ideal) j = scale := by
  rw [val_main_v7_apply, val_main_cst_0_apply, val_main_v6_apply, val_main_cst_apply]
  simp only [Ideal.hostDivf_def, Ideal.hostUnary_sqrt_def, Ideal.ofBits_def]
  exact scale_eq

/-- The scaled scores. -/
theorem v10_apply (b : Fin 4) (h : Fin 16) (q k : Fin 2048) :
    val_main_v10 (F := Ideal) x wq (ix4 b h q k) = score (headQKV x wq) b h q k := by
  rw [val_main_v10_apply, val_main_v8_apply, val_main_v9_apply, v7_apply, Ideal.mulf_def, score]
  refine congrArg (· * scale) (Finset.sum_congr rfl fun d _ => ?_)
  rw [show lidx_main_v8 (ix4 b h q k) d = ix4 b h q d from funext fun a => Fin.ext (by
      match a with
      | ⟨0, _⟩ => rfl
      | ⟨1, _⟩ => rfl
      | ⟨2, _⟩ => rfl
      | ⟨3, _⟩ => rfl),
    show ridx_main_v8 (ix4 b h q k) d = ix4 b h k d from funext fun a => Fin.ext (by
      match a with
      | ⟨0, _⟩ => rfl
      | ⟨1, _⟩ => rfl
      | ⟨2, _⟩ => rfl
      | ⟨3, _⟩ => rfl), v3_apply, v4_apply]

/-- The reduction over the key axis as a shape fact the lift of an index is defined from. -/
theorem hRed : S4x16x2048x2048.Reduces [3] S4x16x2048 := by decide

/-- The source index over (b, h, q) with key coordinate k is (b, h, q, k). -/
theorem lift_ix (b : Fin 4) (h : Fin 16) (q k : Fin 2048) :
    hRed.lift (ix3 b h q) k = ix4 b h q k := funext fun a => Fin.ext (by
  match a with
  | ⟨0, _⟩ => rfl
  | ⟨1, _⟩ => rfl
  | ⟨2, _⟩ => rfl
  | ⟨3, _⟩ => rfl)

/-- The row maximum: the fold of max from −∞ over the keys. -/
theorem v11_apply (b : Fin 4) (h : Fin 16) (q : Fin 2048) :
    val_main_v11 (F := Ideal) x wq (ix3 b h q) = rowmax (headQKV x wq) b h q := by
  unfold val_main_v11
  rw [Host.reduce_eq_fold_single FloatOps.maximumf _ _ reducesTo_S4x16x2048x2048_S4x16x2048_d3 hRed h_S_]
  show Finset.univ.fold max negInf (fun k : Fin 2048 => val_main_v10 (F := Ideal) x wq (hRed.lift (ix3 b h q) k)) = _
  unfold rowmax
  refine Finset.fold_congr fun k _ => ?_
  rw [lift_ix, v10_apply]

/-- The maximum with −∞ changes nothing. -/
theorem v13_apply (b : Fin 4) (h : Fin 16) (q : Fin 2048) :
    val_main_v13 (F := Ideal) x wq (ix3 b h q) = rowmax (headQKV x wq) b h q := by
  rw [val_main_v13_apply, val_main_v12_apply, val_main_cst_2_apply, v11_apply, Ideal.maximumf_def, Ideal.ofBits_def,
    ofBits_negInf]
  exact max_eq_right bot_le

theorem v15_apply (b : Fin 4) (h : Fin 16) (q k : Fin 2048) :
    val_main_v15 (F := Ideal) x wq (ix4 b h q k) = rowmax (headQKV x wq) b h q := by
  rw [val_main_v15_apply, val_main_v14_apply,
    show idx_main_v14 (idx_main_v15 (ix4 b h q k)) = ix3 b h q from funext fun a => Fin.ext (by
      match a with
      | ⟨0, _⟩ => rfl
      | ⟨1, _⟩ => rfl
      | ⟨2, _⟩ => rfl), v13_apply]

/-- The exponentials of the shifted scores. -/
theorem v17_apply (b : Fin 4) (h : Fin 16) (q k : Fin 2048) :
    val_main_v17 (F := Ideal) x wq (ix4 b h q k) = pexp (headQKV x wq) b h q k := by
  rw [val_main_v17_apply, val_main_v16_apply, v10_apply, v15_apply, Ideal.hostUnary_exp_def, Ideal.subf_def, pexp]

/-- Their sum over the keys. -/
theorem v18_apply (b : Fin 4) (h : Fin 16) (q : Fin 2048) :
    val_main_v18 (F := Ideal) x wq (ix3 b h q) = denom (headQKV x wq) b h q := by
  rw [val_main_v18_apply, val_main_cst_3_apply, Ideal.ofBits_def, ofBits_zero, zero_add, denom]
  refine Finset.sum_congr rfl fun k _ => ?_
  rw [show idx_main_v18 (ix3 b h q) k = ix4 b h q k from funext fun a => Fin.ext (by
      match a with
      | ⟨0, _⟩ => rfl
      | ⟨1, _⟩ => rfl
      | ⟨2, _⟩ => rfl
      | ⟨3, _⟩ => rfl), v17_apply]

theorem v20_apply (b : Fin 4) (h : Fin 16) (q k : Fin 2048) :
    val_main_v20 (F := Ideal) x wq (ix4 b h q k) = denom (headQKV x wq) b h q := by
  rw [val_main_v20_apply, val_main_v19_apply,
    show idx_main_v19 (idx_main_v20 (ix4 b h q k)) = ix3 b h q from funext fun a => Fin.ext (by
      match a with
      | ⟨0, _⟩ => rfl
      | ⟨1, _⟩ => rfl
      | ⟨2, _⟩ => rfl), v18_apply]

/-- The soft-max weights. -/
theorem v21_apply (b : Fin 4) (h : Fin 16) (q k : Fin 2048) :
    val_main_v21 (F := Ideal) x wq (ix4 b h q k) = attn (headQKV x wq) b h q k := by
  rw [val_main_v21_apply, v17_apply, v20_apply, Ideal.hostDivf_def, attn]

/-- The reference's attention weights, as a whole array, are the specification's. -/
theorem ref_attn_val : val_main_v21 (F := Ideal) x wq = attnOut x wq := by
  funext i
  obtain ⟨b, h, q, k, rfl⟩ : ∃ (b : Fin 4) (h : Fin 16) (q k : Fin 2048), i = ix4 b h q k := ⟨i 0, i 1, i 2, i 3, eq_ix4 i⟩
  rw [v21_apply, attnOut, attnArr_apply]

/-- The weighted sums of the values. -/
theorem v22_apply (b : Fin 4) (h : Fin 16) (q : Fin 2048) (d : Fin 64) :
    val_main_v22 (F := Ideal) x wq (ix4 b h q d) = aoArr (headQKV x wq) (ix4 b h q d) := by
  rw [val_main_v22_apply, aoArr_apply]
  refine Finset.sum_congr rfl fun k _ => ?_
  rw [show lidx_main_v22 (ix4 b h q d) k = ix4 b h q k from funext fun a => Fin.ext (by
      match a with
      | ⟨0, _⟩ => rfl
      | ⟨1, _⟩ => rfl
      | ⟨2, _⟩ => rfl
      | ⟨3, _⟩ => rfl),
    show ridx_main_v22 (ix4 b h q d) k = ix4 b h k d from funext fun a => Fin.ext (by
      match a with
      | ⟨0, _⟩ => rfl
      | ⟨1, _⟩ => rfl
      | ⟨2, _⟩ => rfl
      | ⟨3, _⟩ => rfl), v21_apply, v5_apply]

/-- The heads concatenated: column h·64 + d of row (b, s) is head h's lane d. -/
theorem v24_apply (b : Fin 4) (s : Fin 2048) (h : Fin 16) (d : Fin 64) :
    val_main_v24 (F := Ideal) x wq (ix3 b s (catOf h d)) = aoArr (headQKV x wq) (ix4 b h s d) := by
  have hb := b.isLt; have hh := h.isLt; have hs := s.isLt; have hd := d.isLt
  rw [val_main_v24_apply, val_main_v23_apply,
    show idx_main_v23 (idx_main_v24 (ix3 b s (catOf h d))) = ix4 b h s d from funext fun a => Fin.ext (by
      match a with
      | ⟨0, _⟩ => show ((b.val * 2048 + s.val) * 1024 + (h.val * 64 + d.val)) / 2097152 = b.val; omega
      | ⟨1, _⟩ => show ((b.val * 2048 + s.val) * 1024 + (h.val * 64 + d.val)) / 64 % 16 = h.val; omega
      | ⟨2, _⟩ => show ((b.val * 2048 + s.val) * 1024 + (h.val * 64 + d.val)) / 1024 % 2048 = s.val; omega
      | ⟨3, _⟩ => show ((b.val * 2048 + s.val) * 1024 + (h.val * 64 + d.val)) % 64 = d.val; omega), v22_apply]

end

/-- A sum over the 1024 concatenated columns is the sum over the heads of the sums over a head's lanes. -/
theorem sum_cat {M : Type*} [AddCommMonoid M] (f : Fin 1024 → M) :
    ∑ j, f j = ∑ h : Fin 16, ∑ d : Fin 64, f (catOf h d) :=
  ((Fintype.sum_equiv (finProdFinEquiv (m := 16) (n := 64)) (fun p : Fin 16 × Fin 64 => f (catOf p.1 p.2)) f
    (fun p => congrArg f (Fin.ext (by show p.1.val * 64 + p.2.val = p.2.val + 64 * p.1.val; omega)))).symm).trans
    (Fintype.sum_prod_type' (fun (h : Fin 16) (d : Fin 64) => f (catOf h d)))

/-- The output projection: the contraction over the concatenated axis is the sum over heads and lanes. -/
theorem v25_apply (x : AX) (wq : AWq) (wo : AWo) (b : Fin 4) (s : Fin 2048) (o : Fin 1024) :
    val_main_v25 (F := Ideal) x wq wo (ix3 b s o) = outArr x wq wo (ix3 b s o) := by
  rw [val_main_v25_apply, outArr, proj_apply, sum_cat]
  refine Finset.sum_congr rfl fun h _ => Finset.sum_congr rfl fun d _ => ?_
  rw [show lidx_main_v25 (ix3 b s o) (catOf h d) = ix3 b s (catOf h d) from funext fun a => Fin.ext (by
      match a with
      | ⟨0, _⟩ => rfl
      | ⟨1, _⟩ => rfl
      | ⟨2, _⟩ => rfl),
    show ridx_main_v25 (ix3 b s o) (catOf h d) = ix2 o (catOf h d) from funext fun a => Fin.ext (by
      match a with
      | ⟨0, _⟩ => rfl
      | ⟨1, _⟩ => rfl), v24_apply, headWo_apply]

/-- The reference's result, as a whole array, is the specification's. -/
theorem ref_out_val (x : AX) (wq : AWq) (wo : AWo) : val_main_v25 (F := Ideal) x wq wo = outArr x wq wo := by
  funext i
  obtain ⟨b, s, o, rfl⟩ : ∃ (b : Fin 4) (s : Fin 2048) (o : Fin 1024), i = ix3 b s o := ⟨i 0, i 1, i 2, eq_ix3 i⟩
  exact v25_apply x wq wo b s o

/-- The two results of the reference's run, from the memory the run starts in, are the specification's arrays of
    the three arguments' contents. -/
theorem ref_attn (m : (ℓ : Loc nD τ sig) → Buf (Elt Ideal) ℓ) (c : Dev nD) :
    Cert.ReferenceIdeal.Value.res_main_v21 (F := Ideal) m c
      = attnOut (m ((c.tc : Thread nD τ).loc main_arg0)) (m ((c.tc : Thread nD τ).loc main_arg1)) := by
  rw [val_main_v21_eq]; exact ref_attn_val _ _

theorem ref_out (m : (ℓ : Loc nD τ sig) → Buf (Elt Ideal) ℓ) (c : Dev nD) :
    Cert.ReferenceIdeal.Value.res_main_v25 (F := Ideal) m c
      = outArr (m ((c.tc : Thread nD τ).loc main_arg0)) (m ((c.tc : Thread nD τ).loc main_arg1))
          (m ((c.tc : Thread nD τ).loc main_arg2)) := by
  rw [val_main_v25_eq]; exact ref_out_val _ _ _

end Cert.ReferenceIdeal.RefValue

end
-- ==== Proof.lean ====
/-
  The certificate of a multi-head attention layer computed by three kernels — a K-blocked projection with an
  accumulator carried over two grid points, attention inside each head with the soft-max over all keys, and the
  output projection summed over the heads — against the plain reference: the three frames, the (empty)
  idealization ledger, and the equality of both results over the extended reals.

  Both idealized programs compute, index by index, the specification of Proof/Spec.lean: the reference by reading
  its host operations one by one (Proof/Ref.lean), the kernel by reading each region's write-backs (Proof/Val0–2.lean)
  and the host stretches between the regions (Proof/Bridge.lean) along its run (Proof/Run.lean). The kernel's
  blocked sums, its sum over heads and its literal 1/8 differ from the reference's whole sums and 1/√64 only by
  regrouping finite sums and by √64 = 8, so no finiteness of the inputs is used.
-/
import proofs.«181592_j54889682043438_2_alg».proof.Defs
import proofs.«181592_j54889682043438_2_alg».proof.Proof.Gen.Kernel
import proofs.«181592_j54889682043438_2_alg».proof.Proof.Gen.KernelIdeal
import proofs.«181592_j54889682043438_2_alg».proof.Proof.Gen.ReferenceIdeal
import proofs.«181592_j54889682043438_2_alg».proof.Proof.Gen.Pre_finite_inputs
import proofs.«181592_j54889682043438_2_alg».proof.Proof.Gen.ReferenceIdeal.Run
import proofs.«181592_j54889682043438_2_alg».proof.Proof.Gen.ReferenceIdeal.Read
import proofs.«181592_j54889682043438_2_alg».proof.Proof.KRun
import proofs.«181592_j54889682043438_2_alg».proof.Proof.Run
import proofs.«181592_j54889682043438_2_alg».proof.Proof.KernelValue
import proofs.«181592_j54889682043438_2_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both runs end with the specification's two arrays of the (agreeing) arguments. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.Attn.attnOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · refine (θ_run Cert.KernelIdeal.defs _ _).mono (fun r h c => ⟨?_, ?_, ?_, ?_, ?_⟩) (Cert.KernelIdeal.Hand.run (F := Ideal) m ρ)
    · exact (h c _ (Cert.KernelIdeal.Hand.mem_uc Cert.KernelIdeal.main_v11 (by decide))).trans (Cert.KernelIdeal.Hand.kernel_out m ρ c)
    · exact (h c _ (Cert.KernelIdeal.Hand.mem_uc Cert.KernelIdeal.main_v7_0 (by decide))).trans (Cert.KernelIdeal.Hand.kernel_attn m ρ c)
    · exact (h c _ (Cert.KernelIdeal.Hand.mem_uc Cert.KernelIdeal.main_arg0 (by decide))).trans (Cert.KernelIdeal.Hand.W6_arg m ρ c _ (.inl rfl))
    · exact (h c _ (Cert.KernelIdeal.Hand.mem_uc Cert.KernelIdeal.main_arg1 (by decide))).trans (Cert.KernelIdeal.Hand.W6_arg m ρ c _ (.inr (.inl rfl)))
    · exact (h c _ (Cert.KernelIdeal.Hand.mem_uc Cert.KernelIdeal.main_arg2 (by decide))).trans (Cert.KernelIdeal.Hand.W6_arg m ρ c _ (.inr (.inr rfl)))
  · refine (θ_run Cert.ReferenceIdeal.defs _ _).mono (fun r h c => ⟨?_, ?_, (h c).2.2⟩) (Cert.ReferenceIdeal.Value.run (F := Ideal) m' ρ')
    · rw [(h c).1, Cert.ReferenceIdeal.RefValue.ref_out, (hagree c).1, (hagree c).2.1, (hagree c).2.2]
    · rw [(h c).2.1, Cert.ReferenceIdeal.RefValue.ref_attn, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
